-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128 .f32) (main_arg6 : FVec F S128x16 .f32) (main_arg7 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg6
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x256 .f32) (main_arg1 : IVec S2x800000 32) (main_arg2 : FVec F S256x128 .f32) (main_arg3 : FVec F S128 .f32) (main_arg4 : FVec F S128x128 .f32) (main_arg5 : FVec F S128 .f32) (main_arg6 : FVec F S128x16 .f32) (main_arg7 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x128 : Shape := ⟨2, ![100000, 128]⟩
abbrev S2x128x128 : Shape := ⟨3, ![2, 128, 128]⟩
abbrev S10000x256 : Shape := ⟨2, ![10000, 256]⟩
abbrev S10000x128 : Shape := ⟨2, ![10000, 128]⟩
abbrev S1x128x128 : Shape := ⟨3, ![1, 128, 128]⟩
abbrev S900000x128 : Shape := ⟨2, ![900000, 128]⟩
abbrev S1x128 : Shape := ⟨2, ![1, 128]⟩
abbrev S1x16 : Shape := ⟨2, ![1, 16]⟩
abbrev S100000x16 : Shape := ⟨2, ![100000, 16]⟩
abbrev S10000x16 : Shape := ⟨2, ![10000, 16]⟩
abbrev S10000 : Shape := ⟨1, ![10000]⟩
abbrev S10000x1 : Shape := ⟨2, ![10000, 1]⟩

abbrev nBuf : Space → Nat
  | .hbm => 99
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x16, .f32⟩
  | .hbm, ⟨7, _⟩ => ⟨S16, .f32⟩
  | .hbm, ⟨8, _⟩ => ⟨S100000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S900000, .i32⟩
  | .hbm, ⟨34, _⟩ => ⟨S900000, .i1⟩
  | .hbm, ⟨35, _⟩ => ⟨S_, .i32⟩
  | .hbm, ⟨36, _⟩ => ⟨S900000, .i32⟩
  | .hbm, ⟨37, _⟩ => ⟨S900000, .i32⟩
  | .hbm, ⟨38, _⟩ => ⟨S900000, .i32⟩
  | .hbm, ⟨39, _⟩ => ⟨S900000x1, .i32⟩
  | .hbm, ⟨40, _⟩ => ⟨S900000, .f32⟩
  | .hbm, ⟨41, _⟩ => ⟨S900000, .f32⟩
  | .hbm, ⟨42, _⟩ => ⟨S_, .i32⟩
  | .hbm, ⟨43, _⟩ => ⟨S900000, .i32⟩
  | .hbm, ⟨44, _⟩ => ⟨S900000, .i1⟩
  | .hbm, ⟨45, _⟩ => ⟨S_, .i32⟩
  | .hbm, ⟨46, _⟩ => ⟨S900000, .i32⟩
  | .hbm, ⟨47, _⟩ => ⟨S900000, .i32⟩
  | .hbm, ⟨48, _⟩ => ⟨S900000, .i32⟩
  | .hbm, ⟨49, _⟩ => ⟨S900000x1, .i32⟩
  | .hbm, ⟨50, _⟩ => ⟨S900000, .f32⟩
  | .hbm, ⟨51, _⟩ => ⟨S900000, .f32⟩
  | .hbm, ⟨52, _⟩ => ⟨S_, .f32⟩
  | .hbm, ⟨53, _⟩ => ⟨S900000, .f32⟩
  | .hbm, ⟨54, _⟩ => ⟨S900000, .f32⟩
  | .hbm, ⟨55, _⟩ => ⟨S100000x128, .f32⟩
  | .hbm, ⟨56, _⟩ => ⟨S2x128x128, .f32⟩
  | .hbm, ⟨57, _⟩ => ⟨S_, .f32⟩
  | .hbm, ⟨58, _⟩ => ⟨S128x128, .f32⟩
  | .hbm, ⟨59, _⟩ => ⟨S_, .i32⟩
  | .hbm, ⟨60, _⟩ => ⟨S900000, .i32⟩
  | .hbm, ⟨61, _⟩ => ⟨S900000, .i1⟩
  | .hbm, ⟨62, _⟩ => ⟨S_, .i32⟩
  | .hbm, ⟨63, _⟩ => ⟨S900000, .i32⟩
  | .hbm, ⟨64, _⟩ => ⟨S900000, .i32⟩
  | .hbm, ⟨65, _⟩ => ⟨S900000, .i32⟩
  | .hbm, ⟨66, _⟩ => ⟨S900000x1, .i32⟩
  | .hbm, ⟨67, _⟩ => ⟨S900000x128, .f32⟩
  | .hbm, ⟨68, _⟩ => ⟨S900000x1, .f32⟩
  | .hbm, ⟨69, _⟩ => ⟨S900000x128, .f32⟩
  | .hbm, ⟨70, _⟩ => ⟨S900000x128, .f32⟩
  | .hbm, ⟨71, _⟩ => ⟨S_, .f32⟩
  | .hbm, ⟨72, _⟩ => ⟨S100000x128, .f32⟩
  | .hbm, ⟨73, _⟩ => ⟨S900000x1, .i32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S2x128x128, .f32⟩
  | .hbm, ⟨78, _⟩ => ⟨S_, .f32⟩
  | .hbm, ⟨79, _⟩ => ⟨S128x128, .f32⟩
  | .hbm, ⟨80, _⟩ => ⟨S_, .i32⟩
  | .hbm, ⟨81, _⟩ => ⟨S900000, .i32⟩
  | .hbm, ⟨82, _⟩ => ⟨S900000, .i1⟩
  | .hbm, ⟨83, _⟩ => ⟨S_, .i32⟩
  | .hbm, ⟨84, _⟩ => ⟨S900000, .i32⟩
  | .hbm, ⟨85, _⟩ => ⟨S900000, .i32⟩
  | .hbm, ⟨86, _⟩ => ⟨S900000, .i32⟩
  | .hbm, ⟨87, _⟩ => ⟨S900000x1, .i32⟩
  | .hbm, ⟨88, _⟩ => ⟨S900000x128, .f32⟩
  | .hbm, ⟨89, _⟩ => ⟨S900000x1, .f32⟩
  | .hbm, ⟨90, _⟩ => ⟨S900000x128, .f32⟩
  | .hbm, ⟨91, _⟩ => ⟨S900000x128, .f32⟩
  | .hbm, ⟨92, _⟩ => ⟨S_, .f32⟩
  | .hbm, ⟨93, _⟩ => ⟨S100000x128, .f32⟩
  | .hbm, ⟨94, _⟩ => ⟨S900000x1, .i32⟩
  | .hbm, ⟨95, _⟩ => ⟨S100000x128, .f32⟩
  | .hbm, ⟨96, _⟩ => ⟨S1x128, .f32⟩
  | .hbm, ⟨97, _⟩ => ⟨S1x16, .f32⟩
  | .hbm, ⟨98, _⟩ => ⟨S100000x16, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .f32⟩
  | .local _ .vmem, ⟨4, _⟩ => ⟨S10000x128, .f32⟩
  | .local _ .vmem, ⟨5, _⟩ => ⟨S1x128x128, .f32⟩
  | .local _ .vmem, ⟨6, _⟩ => ⟨S1x128x128, .f32⟩
  | .local _ .vmem, ⟨7, _⟩ => ⟨S10000x128, .f32⟩
  | .local _ .vmem, ⟨8, _⟩ => ⟨S10000x128, .f32⟩
  | .local _ .vmem, ⟨9, _⟩ => ⟨S128x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S128x128, .f32⟩
  | .local _ .vmem, ⟨14, _⟩ => ⟨S10000x128, .f32⟩
  | .local _ .vmem, ⟨15, _⟩ => ⟨S10000x128, .f32⟩
  | .local _ .vmem, ⟨16, _⟩ => ⟨S1x128x128, .f32⟩
  | .local _ .vmem, ⟨17, _⟩ => ⟨S1x128x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S10000x128, .f32⟩
  | .local _ .vmem, ⟨22, _⟩ => ⟨S10000x128, .f32⟩
  | .local _ .vmem, ⟨23, _⟩ => ⟨S1x128, .f32⟩
  | .local _ .vmem, ⟨24, _⟩ => ⟨S128x16, .f32⟩
  | .local _ .vmem, ⟨25, _⟩ => ⟨S1x16, .f32⟩
  | .local _ .vmem, ⟨26, _⟩ => ⟨S10000x16, .f32⟩
  | .local _ .vmem, ⟨27, _⟩ => ⟨S10000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev main_cst_8 : Ref sig .tc := ⟨.hbm, 57, rfl⟩
abbrev main_v36 : Ref sig .tc := ⟨.hbm, 58, rfl⟩
abbrev main_c_9 : Ref sig .tc := ⟨.hbm, 59, rfl⟩
abbrev main_v37 : Ref sig .tc := ⟨.hbm, 60, rfl⟩
abbrev main_v38 : Ref sig .tc := ⟨.hbm, 61, rfl⟩
abbrev main_c_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51_0 : Ref sig .tc := ⟨.hbm, 76, rfl⟩
abbrev main_v51_1 : Ref sig .tc := ⟨.hbm, 77, rfl⟩
abbrev main_cst_12 : Ref sig .tc := ⟨.hbm, 78, rfl⟩
abbrev main_v52 : Ref sig .tc := ⟨.hbm, 79, rfl⟩
abbrev main_c_13 : Ref sig .tc := ⟨.hbm, 80, rfl⟩
abbrev main_v53 : Ref sig .tc := ⟨.hbm, 81, rfl⟩
abbrev main_v54 : Ref sig .tc := ⟨.hbm, 82, rfl⟩
abbrev main_c_14 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 5], ![false, false]⟩

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x16 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  inb_S10000x256_S10000x256_0_0 : ∀ a, (![0, 0] : Fin 2 → Nat) a + S10000x256.size a ≤ S10000x256.size a
  h_S10000x256 : 0 < S10000x256.numel
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  reducesTo_S2x128x128_S128x128_d0 : S2x128x128.ReducesTo [0] S128x128
  h_S_ : 0 < S_.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  reduces_S10000x16_S10000 : S10000x16.Reduces [1] S10000
  shapeCasts_S10000_S10000x1 : S10000.ShapeCasts S10000x1
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S10000x256_S256x128_S10000x128_1_0_0_1_n_n_wf : DotDims.WF S10000x256 S256x128 S10000x128 [1] [0] [0] [1] [] []
  dot_S10000x128_S10000x128_S128x128_0_0_1_1_n_n_wf : DotDims.WF S10000x128 S10000x128 S128x128 [0] [0] [1] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S10000x128_S128x128_S10000x128_1_0_0_1_n_n_wf : DotDims.WF S10000x128 S128x128 S10000x128 [1] [0] [0] [1] [] []
  dot_S10000x128_S128x16_S10000x16_1_0_0_1_n_n_wf : DotDims.WF S10000x128 S128x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x128x128.size a
  hwx0_3 : ∀ i : grid0.Coords, EltTy.bits .f32 = 32 ∨ (Rect.block (s := S2x128x128) S1x128x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128x128.size a ≤ S2x128x128.size a
  hwx1_6 : ∀ i : grid1.Coords, EltTy.bits .f32 = 32 ∨ (Rect.block (s := S2x128x128) S1x128x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x16.size a ≤ S128x16.size a
  hwx2_4 : ∀ i : grid2.Coords, EltTy.bits .f32 = 32 ∨ (Rect.block (s := S128x16) S128x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x16.size a ≤ S100000x16.size a
  hwx2_6 : ∀ i : grid2.Coords, EltTy.bits .f32 = 32 ∨ (Rect.block (s := S100000x16) S10000x16.size (cc2_transform_6 i) (hinb2_6 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35_0) S10000x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35_1) S1x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51_0) S10000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v51_1) S1x128x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51_0) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S10000x16.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x128 : Shape := ⟨2, ![100000, 128]⟩
abbrev S900000x128 : Shape := ⟨2, ![900000, 128]⟩
abbrev S128x100000 : Shape := ⟨2, ![128, 100000]⟩
abbrev S1x128 : Shape := ⟨2, ![1, 128]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 145
  | .vmem => 0
  | .smem => 0
  | _ => 0

abbrev hbmTy0_0 (i : Nat) : BufTy := match i % 128 with
  | 0 => ⟨S100000x256, .f32⟩
  | 1 => ⟨S2x800000, .i32⟩
  | 2 => ⟨S256x128, .f32⟩
  | 3 => ⟨S128, .f32⟩
  | 4 => ⟨S128x128, .f32⟩
  | 5 => ⟨S128, .f32⟩
  | 6 => ⟨S128x16, .f32⟩
  | 7 => ⟨S16, .f32⟩
  | 8 => ⟨S100000, .i32⟩
  | 9 => ⟨S1x800000, .i32⟩
  | 10 => ⟨S800000, .i32⟩
  | 11 => ⟨S900000, .i32⟩
  | 12 => ⟨S1x800000, .i32⟩
  | 13 => ⟨S800000, .i32⟩
  | 14 => ⟨S900000, .i32⟩
  | 15 => ⟨S_, .f32⟩
  | 16 => ⟨S900000, .f32⟩
  | 17 => ⟨S_, .f32⟩
  | 18 => ⟨S100000, .f32⟩
  | 19 => ⟨S900000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S900000, .i32⟩
  | 34 => ⟨S900000, .i1⟩
  | 35 => ⟨S_, .i32⟩
  | 36 => ⟨S900000, .i32⟩
  | 37 => ⟨S900000, .i32⟩
  | 38 => ⟨S900000, .i32⟩
  | 39 => ⟨S900000x1, .i32⟩
  | 40 => ⟨S900000, .f32⟩
  | 41 => ⟨S900000, .f32⟩
  | 42 => ⟨S_, .i32⟩
  | 43 => ⟨S900000, .i32⟩
  | 44 => ⟨S900000, .i1⟩
  | 45 => ⟨S_, .i32⟩
  | 46 => ⟨S900000, .i32⟩
  | 47 => ⟨S900000, .i32⟩
  | 48 => ⟨S900000, .i32⟩
  | 49 => ⟨S900000x1, .i32⟩
  | 50 => ⟨S900000, .f32⟩
  | 51 => ⟨S900000, .f32⟩
  | 52 => ⟨S100000x128, .f32⟩
  | 53 => ⟨S_, .f32⟩
  | 54 => ⟨S100000x128, .f32⟩
  | 55 => ⟨S100000x128, .f32⟩
  | 56 => ⟨S900000x1, .f32⟩
  | 57 => ⟨S_, .i32⟩
  | 58 => ⟨S900000, .i32⟩
  | 59 => ⟨S900000, .i1⟩
  | 60 => ⟨S_, .i32⟩
  | 61 => ⟨S900000, .i32⟩
  | 62 => ⟨S900000, .i32⟩
  | 63 => ⟨S900000, .i32⟩
  | 64 => ⟨S900000x1, .i32⟩
  | 65 => ⟨S900000x128, .f32⟩
  | 66 => ⟨S900000x128, .f32⟩
  | 67 => ⟨S900000x128, .f32⟩
  | 68 => ⟨S_, .f32⟩
  | 69 => ⟨S100000x128, .f32⟩
  | 70 => ⟨S900000x1, .i32⟩
  | 71 => ⟨S100000x128, .f32⟩
  | 72 => ⟨S_, .f32⟩
  | 73 => ⟨S100000x128, .f32⟩
  | 74 => ⟨S100000x128, .f32⟩
  | 75 => ⟨S128x100000, .f32⟩
  | 76 => ⟨S128x128, .f32⟩
  | 77 => ⟨S100000x128, .f32⟩
  | 78 => ⟨S_, .f32⟩
  | 79 => ⟨S100000x128, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S900000x1, .f32⟩
  | 94 => ⟨S_, .i32⟩
  | 95 => ⟨S900000, .i32⟩
  | 96 => ⟨S900000, .i1⟩
  | 97 => ⟨S_, .i32⟩
  | 98 => ⟨S900000, .i32⟩
  | 99 => ⟨S900000, .i32⟩
  | 100 => ⟨S900000, .i32⟩
  | 101 => ⟨S900000x1, .i32⟩
  | 102 => ⟨S900000x128, .f32⟩
  | 103 => ⟨S900000x128, .f32⟩
  | 104 => ⟨S900000x128, .f32⟩
  | 105 => ⟨S_, .f32⟩
  | 106 => ⟨S100000x128, .f32⟩
  | 107 => ⟨S900000x1, .i32⟩
  | 108 => ⟨S100000x128, .f32⟩
  | 109 => ⟨S_, .f32⟩
  | 110 => ⟨S100000x128, .f32⟩
  | 111 => ⟨S100000x128, .f32⟩
  | 112 => ⟨S128x100000, .f32⟩
  | 113 => ⟨S128x128, .f32⟩
  | 114 => ⟨S100000x128, .f32⟩
  | 115 => ⟨S_, .f32⟩
  | 116 => ⟨S100000x128, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x16, .f32⟩
  | 127 => ⟨S1x16, .f32⟩
  | _ => ⟨S100000x256, .f32⟩

abbrev hbmTy0_1 (i : Nat) : BufTy := match i % 128 with
  | 0 => ⟨S100000x16, .f32⟩
  | 1 => ⟨S100000x16, .f32⟩
  | 2 => ⟨S_, .f32⟩
  | 3 => ⟨S100000, .f32⟩
  | 4 => ⟨S_, .f32⟩
  | 5 => ⟨S100000, .f32⟩
  | 6 => ⟨S100000, .f32⟩
  | 7 => ⟨S100000x1, .f32⟩
  | 8 => ⟨S100000x16, .f32⟩
  | 9 => ⟨S100000x16, .f32⟩
  | 10 => ⟨S100000x16, .f32⟩
  | 11 => ⟨S_, .f32⟩
  | 12 => ⟨S100000, .f32⟩
  | 13 => ⟨S100000x1, .f32⟩
  | 14 => ⟨S100000x1, .f32⟩
  | 15 => ⟨S100000x16, .f32⟩
  | 16 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_10 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_11 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_cst_13 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_16 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_17 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_18 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_call2_cst : Ref sig .tc := ⟨.hbm, 123, rfl⟩
abbrev main_call2_v0 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_call3_cst_0 : Ref sig .tc := ⟨.hbm, 132, rfl⟩
abbrev main_call3_v1 : Ref sig .tc := ⟨.hbm, 133, rfl⟩
abbrev main_call3_v2 : Ref sig .tc := ⟨.hbm, 134, rfl⟩
abbrev main_call3_v3 : Ref sig .tc := ⟨.hbm, 135, rfl⟩
abbrev main_call3_v4 : Ref sig .tc := ⟨.hbm, 136, rfl⟩
abbrev main_call3_v5 : Ref sig .tc := ⟨.hbm, 137, rfl⟩
abbrev main_call3_v6 : Ref sig .tc := ⟨.hbm, 138, rfl⟩
abbrev main_call3_cst_1 : Ref sig .tc := ⟨.hbm, 139, rfl⟩
abbrev main_call3_v7 : Ref sig .tc := ⟨.hbm, 140, rfl⟩
abbrev main_call3_v8 : Ref sig .tc := ⟨.hbm, 141, rfl⟩
abbrev main_call3_v9 : Ref sig .tc := ⟨.hbm, 142, rfl⟩
abbrev main_call3_v10 : Ref sig .tc := ⟨.hbm, 143, rfl⟩
abbrev main_v95 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S_S100000x128 : S_.BroadcastsInDim S100000x128 (![] : Fin 0 → Fin S100000x128.rank)
  bcast_S900000x1_S900000x128_0_1 : S900000x1.BroadcastsInDim S900000x128 (![0, 1] : Fin 2 → Fin S900000x128.rank)
  transposes_S100000x128_S128x100000_1_0 : S100000x128.Transposes [1, 0] S128x100000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x256_S256x128_S100000x128_1_0_0_1_n_n_wf : DotDims.WF S100000x256 S256x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S128x100000_S100000x128_S128x128_1_0_0_1_n_n_wf : DotDims.WF S128x100000 S100000x128 S128x128 [1] [0] [0] [1] [] []
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S128x100000_S100000x128_S128x128_1_0_0_1_n_n : DotDims S128x100000 S100000x128 S128x128 where
  lhsContracting := [1]
  rhsContracting := [0]
  lhsNonContracting := [0]
  rhsNonContracting := [1]
  lhsBatch := []
  rhsBatch := []
  wf := dot_S128x100000_S100000x128_S128x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KernelRun.lean ====
/-
  The kernel program's run with its result named.  Every weakly fair execution of the program ends, nothing
  faulting, with the result buffer at the contents the run's last boundary gives it — the output array of the third
  kernel call as that call's write-backs leave it — and with the eight arguments as launched.
-/
import proofs.«170132_j54760833024262_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's eight segments, the last thread state read against the final state, the
    result buffer at the last boundary's contents and each argument walked back to its launch contents. -/
theorem run : θ_run defs (onTc (τ := τ) (main (F := F))) ⟨m, fun _ => 0, ρ⟩ (fun r => ∀ c : Dev nD,
      r.2.mem ((c.tc : Thread nD τ).loc main_v68) = W8 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v68 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.GlueKernel.lean ====
/-
  The graph's edge data and the neighbourhood aggregation, as the kernel's host operations compute them from the
  edge list e (two rows of 800000 node numbers: sources, then targets).

  Every node gets a self loop, so the source list is row 0 followed by 0 … 99999 and the target list is row 1
  followed by the same.  The degree of a node is the number of list entries whose target it is (a scatter-add of
  ones; an entry outside 0 … 99999 lands nowhere).  A node of positive degree weighs 1/√(max(degree, 1)), any other
  0, and an edge weighs the product of its two ends' weights, the ends read with a negative node number wrapped by
  100000 and then clamped into range.  The aggregate of a feature matrix P under edge weights w puts at node n the sum
  over the edges with target n of w(edge) · P(source row of the edge).
-/
import proofs.«170132_j54760833024262_2_alg».proof.KernelIdeal
import Idealize.ShloMosaic.PureOps.Ideal

noncomputable section

namespace Cert.KernelIdeal.Glue

open Idealize.ShloMosaic Cert.KernelIdeal

variable [Facts₀]
open Facts₀

/-- The source of every edge: row 0 of the edge list, then every node once (the self loops). -/
def src (e : IVec S2x800000 32) : IVec S900000 32 :=
  concatenate S900000 0 [⟨S800000, shapeCast S800000 (extractStridedSlice S1x800000 ![0, 0] e slices_S2x800000_S1x800000_0_0) shapeCasts_S1x800000_S800000⟩, ⟨S100000, iotaInDim S100000 32 0⟩] concatenates_S800000_S100000_S900000_d0

/-- The target of every edge: row 1 of the edge list, then every node once. -/
def dst (e : IVec S2x800000 32) : IVec S900000 32 :=
  concatenate S900000 0 [⟨S800000, shapeCast S800000 (extractStridedSlice S1x800000 ![1, 0] e slices_S2x800000_S1x800000_1_0) shapeCasts_S1x800000_S800000⟩, ⟨S100000, iotaInDim S100000 32 0⟩] concatenates_S800000_S100000_S900000_d0

/-- A list of node numbers with each negative entry increased by the node count. -/
def wrap (v : IVec S900000 32) : IVec S900000 32 :=
  select (cmpi .slt v (broadcastInDim S900000 ![] bcast_S_S900000 (constantI S_ 32 0#32)))
    (addi v (broadcastInDim S900000 ![] bcast_S_S900000 (constantI S_ 32 100000#32))) v

/-- A list laid out as a one-column matrix, the form in which gathers and scatters take their indices. -/
def col1 {α : Type} (v : S900000.Idx → α) : S900000x1.Idx → α := broadcastInDim S900000x1 ![0] bcast_S900000_S900000x1_0 v

/-- One per edge. -/
def ones9 : FVec Ideal S900000 .f32 := broadcastInDim S900000 ![] bcast_S_S900000 (constant (F := Ideal) S_ .f32 0x3F800000#32)

/-- The degree of every node. -/
def deg (e : IVec S2x800000 32) : FVec Ideal S100000 .f32 :=
  Host.scatterAdd (F := Ideal) scatter_S100000_S900000x1_S900000_n_0_0_1
    (broadcastInDim S100000 ![] bcast_S_S100000 (constant (F := Ideal) S_ .f32 0x00000000#32)) (col1 (dst e)) ones9

/-- The weight of every node: 1/√(max(degree, 1)) where the degree is positive, else 0. -/
def dinv (e : IVec S2x800000 32) : FVec Ideal S100000 .f32 :=
  select (cmpf .ogt (deg e) (broadcastInDim S100000 ![] bcast_S_S100000 (constant (F := Ideal) S_ .f32 0x00000000#32)))
    (Host.rsqrt (maximumf (deg e) (broadcastInDim S100000 ![] bcast_S_S100000 (constant (F := Ideal) S_ .f32 0x3F800000#32))))
    (broadcastInDim S100000 ![] bcast_S_S100000 (id (constant (F := Ideal) S_ .f32 0x00000000#32)))

/-- The weight of every edge: its source's weight, times one, times its target's weight. -/
def wnorm (e : IVec S2x800000 32) : FVec Ideal S900000 .f32 :=
  mulf (mulf (Host.gather gather_S100000_S900000x1_S900000_n_0_n_n_0_1_1 (dinv e) (col1 (wrap (src e)))) ones9)
    (Host.gather gather_S100000_S900000x1_S900000_n_0_n_n_0_1_1 (dinv e) (col1 (wrap (dst e))))

/-- The aggregate of the feature matrix P under the edge weights w: at node n, the sum over the edges with target n of
    the edge's weight times the source's row of P. -/
def aggW (w : FVec Ideal S900000 .f32) (e : IVec S2x800000 32) (P : FVec Ideal S100000x128 .f32) : FVec Ideal S100000x128 .f32 :=
  Host.scatterAdd (F := Ideal) scatter_S100000x128_S900000x1_S900000x128_1_0_0_1
    (broadcastInDim S100000x128 ![] bcast_S_S100000x128 (constant (F := Ideal) S_ .f32 0x00000000#32)) (col1 (dst e))
    (mulf (broadcastInDim S900000x128 ![0, 1] bcast_S900000x1_S900000x128_0_1 (col1 w))
      (Host.gather gather_S100000x128_S900000x1_S900000x128_1_0_n_n_0_1_1128 P (col1 (wrap (src e)))))

end Cert.KernelIdeal.Glue

end
-- ==== Proof.KernelStretch.lean ====
/-
  What the host operations between two blocked computations of the kernel's program leave in each buffer, from any
  contents of the buffers before them.

  Between the first and the second blocked computation the program adds the two halves' partial Gram matrices, forms
  the neighbourhood aggregate of the first projected features under the edge weights (sources wrapped, rows gathered,
  scaled by the edge weight and scatter-added at the targets into a zero matrix), and lays the first bias out as one
  row.  Between the second and the third it does the same for the second projected features, the second bias and the
  classifier's bias.  The edge lists, the edge weights, the projected features and the arguments not yet used are
  left as they were.
-/
import proofs.«170132_j54760833024262_2_alg».proof.Proof.Gen.KernelIdeal.Launch
import proofs.«170132_j54760833024262_2_alg».proof.Proof.GlueKernel
import Idealize.ShloMosaic.Lib.StableHlo.Run

noncomputable section

namespace Cert.KernelIdeal.Stretch

open Idealize.ShloMosaic Idealize.ShloMosaic.TcCoe Idealize.SL.Sem Idealize.ShloMosaic.StableHlo Cert.KernelIdeal Cert.KernelIdeal.Gen

/-- The neighbourhood aggregate of a feature matrix P under edge weights w, from the target list and the source list
    of the edges: at node n the sum, over the edges with target n, of the edge's weight times the row of P at the
    edge's source (a negative source counted from the end). -/
def agg' (w : FVec Ideal S900000 .f32) (dst src : IVec S900000 32) (P : FVec Ideal S100000x128 .f32) : FVec Ideal S100000x128 .f32 :=
  Host.scatterAdd (F := Ideal) scatter_S100000x128_S900000x1_S900000x128_1_0_0_1
    (broadcastInDim S100000x128 ![] Facts₀.bcast_S_S100000x128 (constant (F := Ideal) S_ .f32 0x00000000#32)) (Glue.col1 dst)
    (mulf (broadcastInDim S900000x128 ![0, 1] Facts₀.bcast_S900000x1_S900000x128_0_1 (Glue.col1 w))
      (Host.gather gather_S100000x128_S900000x1_S900000x128_1_0_n_n_0_1_1128 P (Glue.col1 (Glue.wrap src))))

/-- The aggregate over an edge list is that of the edge list's targets and sources. -/
theorem aggW_eq (w : FVec Ideal S900000 .f32) (e : IVec S2x800000 32) (P : FVec Ideal S100000x128 .f32) :
    Glue.aggW w e P = agg' w (Glue.dst e) (Glue.src e) P := rfl

variable (V : Valuation τ sig (Elt Ideal))

/-! ## Between the first and the second blocked computation -/

/-- The Gram matrix handed on: the two halves' partial matrices added. -/
theorem s1_v36 : StableHlo.after hostOps1 V (Proc.devRef .tc main_v36)
    = Host.reduceAdd (F := Ideal) (V (Proc.devRef .tc main_v35_1)) (constant (F := Ideal) S_ .f32 0x00000000#32) Facts₀.reducesTo_S2x128x128_S128x128_d0 Facts₀.h_S_ := by
  after_results_simp <;> rfl

/-- The aggregate handed on: that of the first projected features under the edge weights. -/
theorem s1_v49 : StableHlo.after hostOps1 V (Proc.devRef .tc main_v49)
    = agg' (V (Proc.devRef .tc main_v34)) (V (Proc.devRef .tc main_v6)) (V (Proc.devRef .tc main_v3)) (V (Proc.devRef .tc main_v35_0)) := by
  after_results_simp <;> rfl

/-- The first bias as a one-row matrix. -/
theorem s1_v50 : StableHlo.after hostOps1 V (Proc.devRef .tc main_v50)
    = shapeCast S1x128 (V (Proc.devRef .tc main_arg3)) Facts₀.shapeCasts_S128_S1x128 := by
  after_results_simp <;> rfl

/-- What these operations leave as it was. -/
theorem s1_keep_v3 : StableHlo.after hostOps1 V (Proc.devRef .tc main_v3) = V (Proc.devRef .tc main_v3) := by after_results_simp <;> rfl
theorem s1_keep_v6 : StableHlo.after hostOps1 V (Proc.devRef .tc main_v6) = V (Proc.devRef .tc main_v6) := by after_results_simp <;> rfl
theorem s1_keep_v34 : StableHlo.after hostOps1 V (Proc.devRef .tc main_v34) = V (Proc.devRef .tc main_v34) := by after_results_simp <;> rfl
theorem s1_keep_v35_0 : StableHlo.after hostOps1 V (Proc.devRef .tc main_v35_0) = V (Proc.devRef .tc main_v35_0) := by after_results_simp <;> rfl
theorem s1_keep_arg4 : StableHlo.after hostOps1 V (Proc.devRef .tc main_arg4) = V (Proc.devRef .tc main_arg4) := by after_results_simp <;> rfl
theorem s1_keep_arg5 : StableHlo.after hostOps1 V (Proc.devRef .tc main_arg5) = V (Proc.devRef .tc main_arg5) := by after_results_simp <;> rfl
theorem s1_keep_arg6 : StableHlo.after hostOps1 V (Proc.devRef .tc main_arg6) = V (Proc.devRef .tc main_arg6) := by after_results_simp <;> rfl
theorem s1_keep_arg7 : StableHlo.after hostOps1 V (Proc.devRef .tc main_arg7) = V (Proc.devRef .tc main_arg7) := by after_results_simp <;> rfl

/-! ## Between the second and the third blocked computation -/

/-- The Gram matrix handed on: the two halves' partial matrices added. -/
theorem s2_v52 : StableHlo.after hostOps2 V (Proc.devRef .tc main_v52)
    = Host.reduceAdd (F := Ideal) (V (Proc.devRef .tc main_v51_1)) (constant (F := Ideal) S_ .f32 0x00000000#32) Facts₀.reducesTo_S2x128x128_S128x128_d0 Facts₀.h_S_ := by
  after_results_simp <;> rfl

/-- The aggregate handed on: that of the second projected features under the same edge weights. -/
theorem s2_v65 : StableHlo.after hostOps2 V (Proc.devRef .tc main_v65)
    = agg' (V (Proc.devRef .tc main_v34)) (V (Proc.devRef .tc main_v6)) (V (Proc.devRef .tc main_v3)) (V (Proc.devRef .tc main_v51_0)) := by
  after_results_simp <;> rfl

/-- The second bias as a one-row matrix. -/
theorem s2_v66 : StableHlo.after hostOps2 V (Proc.devRef .tc main_v66)
    = shapeCast S1x128 (V (Proc.devRef .tc main_arg5)) Facts₀.shapeCasts_S128_S1x128 := by
  after_results_simp <;> rfl

/-- The classifier's bias as a one-row matrix. -/
theorem s2_v67 : StableHlo.after hostOps2 V (Proc.devRef .tc main_v67)
    = shapeCast S1x16 (V (Proc.devRef .tc main_arg7)) Facts₀.shapeCasts_S16_S1x16 := by
  after_results_simp <;> rfl

/-- What these operations leave as it was. -/
theorem s2_keep_v51_0 : StableHlo.after hostOps2 V (Proc.devRef .tc main_v51_0) = V (Proc.devRef .tc main_v51_0) := by after_results_simp <;> rfl
theorem s2_keep_arg6 : StableHlo.after hostOps2 V (Proc.devRef .tc main_arg6) = V (Proc.devRef .tc main_arg6) := by after_results_simp <;> rfl

end Cert.KernelIdeal.Stretch

end
-- ==== Proof.KernelLayout.lean ====
/-
  Three readings, at an index, of layout operations the kernel's program performs on the host between its regions.

  A bias vector of length 128 (or 16) is reshaped to a one-row matrix before a region broadcasts it down the rows:
  entry (0, k) of the row is entry k of the vector.  The two per-half Gram accumulators, a 2 × 128 × 128 array, are
  added over the halves: entry (p, q) of the sum is the initial zero plus the two halves' entries at (p, q).
-/
import proofs.«170132_j54760833024262_2_alg».proof.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Layout

open Idealize.ShloMosaic Idealize.ShloMosaic.ValueIdx Cert.KernelIdeal
open scoped BigOperators

variable [Facts₀]
open Facts₀

/-- A 128-vector laid out as one row: the row's entry k is the vector's entry k. -/
theorem bias128 (b : FVec Ideal S128 .f32) (k : Fin 128) :
    shapeCast S1x128 b shapeCasts_S128_S1x128 (ix2 (0 : Fin 1) k) = b (ix1 k) :=
  shapeCast_a_1a_apply b shapeCasts_S128_S1x128 0 k

/-- A 16-vector laid out as one row: the row's entry q is the vector's entry q. -/
theorem bias16 (b : FVec Ideal S16 .f32) (q : Fin 16) :
    shapeCast S1x16 b shapeCasts_S16_S1x16 (ix2 (0 : Fin 1) q) = b (ix1 q) :=
  shapeCast_a_1a_apply b shapeCasts_S16_S1x16 0 q

/-- The sum over the two halves of a 2 × 128 × 128 array, from zero: entry (p, q) is zero plus the two halves' entries
    at (p, q). -/
theorem sumHalves (G : FVec Ideal S2x128x128 .f32) (p q : Fin 128) :
    Host.reduceAdd (F := Ideal) G (constant (F := Ideal) S_ .f32 0x00000000#32) reducesTo_S2x128x128_S128x128_d0 h_S_ (ix2 p q)
      = 0 + ∑ c : Fin 2, G (ix3 c p q) := by
  have h : S2x128x128.Reduces [0] S128x128 := by decide
  show Ideal.hostReduceAdd reducesTo_S2x128x128_S128x128_d0 G
    (constant (F := Ideal) S_ .f32 0x00000000#32 (Shape.Idx.first h_S_)) (ix2 p q) = _
  rw [Ideal.hostReduceAdd_single reducesTo_S2x128x128_S128x128_d0 h]
  refine congrArg₂ (· + ·) Ideal.ofBits_zero_f32 ?_
  show ∑ c : Fin 2, G (h.lift (ix2 p q) c) = ∑ c : Fin 2, G (ix3 c p q)
  refine Finset.sum_congr rfl fun c _ => ?_
  refine congrArg G (funext fun a => Fin.ext ?_)
  match a with
  | ⟨0, _⟩ => rfl
  | ⟨1, _⟩ => rfl
  | ⟨2, _⟩ => rfl

end Cert.KernelIdeal.Layout

end
-- ==== Proof.Spec.lean ====
/-
  The mathematics both programs compute, as functions of extended-real matrices read at coordinates.

  A two-layer graph network on 100000 nodes.  One layer takes the projected features X = Y·W, adds the neighbourhood
  aggregate S of X, subtracts a multiple of X·(XᵀX) — the Gram correction —, adds a bias row and rectifies:
      act X G S b (n, k) = max (((c95 · X(n,k) + S(n,k)) − c05 · (X·G)(n,k)) + b k) 0        with G = XᵀX.
  The network's last step is an affine map to 16 classes followed by a row-wise log-softmax.
  The Gram matrix of a 100000-row matrix is also written as a sum over two halves of five row blocks of 10000 rows,
  the order in which a blocked computation meets the rows; the two forms are equal because a finite sum of extended
  reals may be regrouped and reordered freely (addition there is commutative and associative).
-/
import Idealize.ShloMosaic.PureOps.Ideal
import Idealize.ShloMosaic.Lib.ValueIdx

noncomputable section

open scoped BigOperators
open Idealize.ShloMosaic Idealize.ShloMosaic.ValueIdx

namespace Cert.Spec

/-- An extended-real matrix with `a` rows and `b` columns, read at a rank-2 index. -/
abbrev Mat (a b : Nat) : Type := (⟨2, ![a, b]⟩ : Shape).Idx → EReal

/-- The matrix product: entry (p, q) is the sum over l of A(p,l)·B(l,q). -/
def mm {a k b : Nat} (A : Mat a k) (B : Mat k b) : Mat a b :=
  fun i => ∑ l : Fin k, A (ix2 (i 0) l) * B (ix2 l (i 1))

/-- The Gram matrix XᵀX: entry (p, q) is the sum over the rows r of X(r,p)·X(r,q). -/
def gram {n d : Nat} (X : Mat n d) : Mat d d :=
  fun i => ∑ r : Fin n, X (ix2 r (i 0)) * X (ix2 r (i 1))

/-- Row `r` of row block `t` of half `c`, among 100000 rows cut into two halves of five blocks of 10000. -/
def row (c : Fin 2) (t : Fin 5) (r : Fin 10000) : Fin 100000 :=
  ⟨(c.val * 5 + t.val) * 10000 + r.val, by have := c.isLt; have := t.isLt; have := r.isLt; omega⟩

/-- The Gram matrix of one half of the rows, block by block: entry (c, p, q) sums X(n,p)·X(n,q) over the rows n of
    half c, the five blocks in order and the rows of a block in order. -/
def gramHalf (X : Mat 100000 128) : (⟨3, ![2, 128, 128]⟩ : Shape).Idx → EReal :=
  fun i => ∑ t : Fin 5, ∑ r : Fin 10000, X (ix2 (row (i 0) t r) (i 1)) * X (ix2 (row (i 0) t r) (i 2))

/-- The weight 0.95 of the projected features (the f32 nearest 1 − 0.1 + 0.05). -/
def c95 : EReal := Ideal.ofBits .f32 0x3F733333#32
/-- The weight 0.05 of the Gram correction. -/
def c05 : EReal := Ideal.ofBits .f32 0x3D4CCCCD#32
/-- The weight 0.1 of the neighbourhood aggregate. -/
def c10 : EReal := Ideal.ofBits .f32 0x3DCCCCCD#32

/-- One layer's activation from the projected features X, a matrix G (the Gram matrix of X in use), the
    neighbourhood aggregate S and the bias b. -/
def act {n : Nat} (X : Mat n 128) (G : Mat 128 128) (S : Mat n 128) (b : Fin 128 → EReal) : Mat n 128 :=
  fun i => max (((c95 * X i + S i) - c05 * mm X G i) + b (i 1)) 0

/-- The class scores: an affine map of the activations. -/
def logits {n : Nat} (H : Mat n 128) (Wf : Mat 128 16) (bf : Fin 16 → EReal) : Mat n 16 :=
  fun i => mm H Wf i + bf (i 1)

/-- The largest entry of row r, folded from −∞. -/
def rowMax {n q : Nat} (L : Mat n q) (r : Fin n) : EReal :=
  (Finset.univ : Finset (Fin q)).fold max (Ideal.ofBits .f32 0xFF800000#32) (fun t => L (ix2 r t))

/-- The row-wise log-softmax: each entry less its row's maximum, less the logarithm of the row's sum of the
    exponentials of those differences. -/
def lsm {n q : Nat} (L : Mat n q) : Mat n q :=
  fun i => (L i - rowMax L (i 0)) - Ideal.log (∑ t : Fin q, Ideal.exp (L (ix2 (i 0) t) - rowMax L (i 0)))

/-- The whole network: two layers and the classifier.  `agg` is the neighbourhood aggregation of a feature matrix (a
    weighted sum of the rows of the neighbours of each node), which enters each layer with the weight 0.1; the Gram
    matrix of a layer is that of its own projected features. -/
def net (agg : Mat 100000 128 → Mat 100000 128) (X : Mat 100000 256) (W1 : Mat 256 128) (b1 : Fin 128 → EReal)
    (W2 : Mat 128 128) (b2 : Fin 128 → EReal) (Wf : Mat 128 16) (bf : Fin 16 → EReal) : Mat 100000 16 :=
  lsm (logits
    (act (mm (act (mm X W1) (gram (mm X W1)) (fun i => c10 * agg (mm X W1) i) b1) W2)
      (gram (mm (act (mm X W1) (gram (mm X W1)) (fun i => c10 * agg (mm X W1) i) b1) W2))
      (fun i => c10 * agg (mm (act (mm X W1) (gram (mm X W1)) (fun i => c10 * agg (mm X W1) i) b1) W2) i) b2)
    Wf bf)

end Cert.Spec

end
-- ==== Proof.Region0.lean ====
/-
  Region 0: the first layer's projection and its Gram accumulator, read as mathematics.

  The 100000 node-feature rows are cut into ten row blocks of 10000, five to each half of the rows. At row block t the
  body multiplies the block of the features X by the whole weight matrix W, leaves the product as row block t of the
  projected features, and adds the product's Gram matrix PᵀP onto a 128 × 128 accumulator that belongs to the block's
  half: the accumulator is set to zero before the first block of a half, carried from one block to the next inside
  the half, and written out after the half's fifth block.

  Two facts are proved here, for whatever contents the region finds in its arrays:
    * the projected features end as X·W, entry (n, q) being the sum over the 256 input features of X(n,l)·W(l,q);
    * the accumulator ends, for each half, as the Gram matrices of the half's five row blocks of X·W added in order.
  Over the extended reals the zero the accumulator starts from is neutral, so the ordered chain
  ((((0 + g₀) + g₁) + g₂) + g₃) + g₄ is the sum of the five block terms.

  The order of the lemmas: what each of the two cases of the body leaves in the two output buffers; the three
  arithmetic terms read at an index (the product, one accumulation step, the zero block); the input blocks as rows
  of the arrays; the running sum after each point, by induction on the point; what each point writes back; and the
  two arrays after the last point.
-/
import proofs.«170132_j54760833024262_2_alg».proof.Proof.Gen.KernelIdeal.Frame
import proofs.«170132_j54760833024262_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

namespace Cert.KernelIdeal.Region0

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from the first block of a half, the projected-features buffer is left holding the product of the two
    input blocks. -/
theorem out_B_2 (c : Dev nD) (i : grid0.Coords) (a2 : Memref sig .tc .vmem S10000x256 .f32) (h2 : a2.IsWhole) (a3 : Memref sig .tc .vmem S256x128 .f32) (h3 : a3.IsWhole) (a4 : Memref sig .tc .vmem S10000x128 .f32) (h4 : a4.IsWhole) (a5 : Memref sig .tc .vmem S1x128x128 .f32) (h5 : a5.IsWhole) (hc : ¬cond0_0 i)
    (x0 : Vec F S10000x256 .f32) (x1 : Vec F S256x128 .f32) (xo3 : Vec F S1x128x128 .f32) :
    out0_B_2 c i a2 h2 a3 h3 a4 h4 a5 h5 hc x0 x1 xo3 = k0_pay2 x0 x1 := by
  unfold out0_B_2
  rw [View.read_writes_eq_canon _ _ _ (cover0_B_2 c i a2 h2 a3 h3 a4 h4 a5 h5 hc x0 x1 xo3)]
  unfold kernelRun0_B
  dsimp only
  rw [View.canon_unit_zero hz2]
  simp only [View.readAt_eq_ld, h2.read_unread, h3.read_unread, View.ld_unit_zero (S := S10000x256) hz2,
    View.ld_unit_zero (S := S256x128) hz2]

/-- Away from the first block of a half, the Gram buffer holding `xo3` is left holding `xo3` plus the Gram matrix
    of the projected block. -/
theorem out_B_3 (c : Dev nD) (i : grid0.Coords) (a2 : Memref sig .tc .vmem S10000x256 .f32) (h2 : a2.IsWhole) (a3 : Memref sig .tc .vmem S256x128 .f32) (h3 : a3.IsWhole) (a4 : Memref sig .tc .vmem S10000x128 .f32) (h4 : a4.IsWhole) (a5 : Memref sig .tc .vmem S1x128x128 .f32) (h5 : a5.IsWhole) (hc : ¬cond0_0 i)
    (x0 : Vec F S10000x256 .f32) (x1 : Vec F S256x128 .f32) (xo3 : Vec F S1x128x128 .f32) :
    out0_B_3 c i a2 h2 a3 h3 a4 h4 a5 h5 hc x0 x1 xo3 = k0_pay3 x0 x1 xo3 := by
  unfold out0_B_3
  rw [View.read_writes_eq_canon _ _ _ (cover0_B_3 c i a2 h2 a3 h3 a4 h4 a5 h5 hc x0 x1 xo3)]
  unfold kernelRun0_B
  dsimp only
  rw [View.canon_unit_zero hz3]
  simp only [View.readAt_eq_ld, h2.read_unread, h3.read_unread, h5.read_unread, View.ld_unit_zero (S := S10000x256) hz2,
    View.ld_unit_zero (S := S256x128) hz2, View.ld_unit_zero (S := S1x128x128) hz3]

/-- At the first block of a half, the projected-features buffer is likewise the product of the two input blocks. -/
theorem out_A_2 (c : Dev nD) (i : grid0.Coords) (a2 : Memref sig .tc .vmem S10000x256 .f32) (h2 : a2.IsWhole) (a3 : Memref sig .tc .vmem S256x128 .f32) (h3 : a3.IsWhole) (a4 : Memref sig .tc .vmem S10000x128 .f32) (h4 : a4.IsWhole) (a5 : Memref sig .tc .vmem S1x128x128 .f32) (h5 : a5.IsWhole) (hc : cond0_0 i)
    (x0 : Vec F S10000x256 .f32) (x1 : Vec F S256x128 .f32) :
    out0_A_2 c i a2 h2 a3 h3 a4 h4 a5 h5 hc x0 x1 = k0_pay2 x0 x1 := by
  unfold out0_A_2
  rw [View.read_writes_eq_canon _ _ _ (cover0_A_2 c i a2 h2 a3 h3 a4 h4 a5 h5 hc x0 x1)]
  unfold kernelRun0_A
  dsimp only
  try sl_unfold_words
  rw [View.canon_unit_zero hz2]
  simp only [View.readAt_eq_ld, h2.read_unread, h3.read_unread, View.ld_unit_zero (S := S10000x256) hz2,
    View.ld_unit_zero (S := S256x128) hz2]

/-- At the first block of a half, the Gram buffer is first zeroed, read back, and left holding zero plus the Gram
    matrix of the projected block. -/
theorem out_A_3 (c : Dev nD) (i : grid0.Coords) (a2 : Memref sig .tc .vmem S10000x256 .f32) (h2 : a2.IsWhole) (a3 : Memref sig .tc .vmem S256x128 .f32) (h3 : a3.IsWhole) (a4 : Memref sig .tc .vmem S10000x128 .f32) (h4 : a4.IsWhole) (a5 : Memref sig .tc .vmem S1x128x128 .f32) (h5 : a5.IsWhole) (hc : cond0_0 i)
    (x0 : Vec F S10000x256 .f32) (x1 : Vec F S256x128 .f32) :
    out0_A_3 c i a2 h2 a3 h3 a4 h4 a5 h5 hc x0 x1 = k0_pay3 x0 x1 (k0_pay1 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S1x128x128) hz3, View.readCov_unit_zero (S := S1x128x128) _ hz3]
  simp only [View.readAt_eq_ld, h2.read_unread, h3.read_unread, View.ld_unit_zero (S := S10000x256) hz2,
    View.ld_unit_zero (S := S256x128) hz2]

end Pieces

section Payloads

/-! The operand coordinates of the two contractions: the projection contracts the features (axis 1 of the block
    with axis 0 of the weights); the Gram step contracts the rows (axis 0 of both operands). -/

theorem projL0 (i : S10000x128.Idx) (k : dot_S10000x256_S256x128_S10000x128_1_0_0_1_n_n.contr.Idx) : (dot_S10000x256_S256x128_S10000x128_1_0_0_1_n_n.lhsIdx i k 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem projL1 (i : S10000x128.Idx) (k : dot_S10000x256_S256x128_S10000x128_1_0_0_1_n_n.contr.Idx) : (dot_S10000x256_S256x128_S10000x128_1_0_0_1_n_n.lhsIdx i k 1).val = (k ⟨0, by decide⟩).val :=
  dot_S10000x256_S256x128_S10000x128_1_0_0_1_n_n.lhsIdx_val_of_single rfl i k
theorem projR0 (i : S10000x128.Idx) (k : dot_S10000x256_S256x128_S10000x128_1_0_0_1_n_n.contr.Idx) : (dot_S10000x256_S256x128_S10000x128_1_0_0_1_n_n.rhsIdx i k 0).val = (k ⟨0, by decide⟩).val :=
  dot_S10000x256_S256x128_S10000x128_1_0_0_1_n_n.rhsIdx_val_of_single rfl i k
theorem projR1 (i : S10000x128.Idx) (k : dot_S10000x256_S256x128_S10000x128_1_0_0_1_n_n.contr.Idx) : (dot_S10000x256_S256x128_S10000x128_1_0_0_1_n_n.rhsIdx i k 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

theorem gramL0 (i : S128x128.Idx) (k : dot_S10000x128_S10000x128_S128x128_0_0_1_1_n_n.contr.Idx) : (dot_S10000x128_S10000x128_S128x128_0_0_1_1_n_n.lhsIdx i k 0).val = (k ⟨0, by decide⟩).val :=
  dot_S10000x128_S10000x128_S128x128_0_0_1_1_n_n.lhsIdx_val_of_single rfl i k
theorem gramL1 (i : S128x128.Idx) (k : dot_S10000x128_S10000x128_S128x128_0_0_1_1_n_n.contr.Idx) : (dot_S10000x128_S10000x128_S128x128_0_0_1_1_n_n.lhsIdx i k 1).val = (i 0).val := by
  unfold DotDims.lhsIdx
  rw [dif_neg (show ¬(1 : Fin S10000x128.rank) ∈ dot_S10000x128_S10000x128_S128x128_0_0_1_1_n_n.lhsBatch by decide), dif_pos (show (1 : Fin S10000x128.rank) ∈ dot_S10000x128_S10000x128_S128x128_0_0_1_1_n_n.lhsNonContracting by decide)]
  rfl
theorem gramR0 (i : S128x128.Idx) (k : dot_S10000x128_S10000x128_S128x128_0_0_1_1_n_n.contr.Idx) : (dot_S10000x128_S10000x128_S128x128_0_0_1_1_n_n.rhsIdx i k 0).val = (k ⟨0, by decide⟩).val :=
  dot_S10000x128_S10000x128_S128x128_0_0_1_1_n_n.rhsIdx_val_of_single rfl i k
theorem gramR1 (i : S128x128.Idx) (k : dot_S10000x128_S10000x128_S128x128_0_0_1_1_n_n.contr.Idx) : (dot_S10000x128_S10000x128_S128x128_0_0_1_1_n_n.rhsIdx i k 1).val = (i 1).val := by
  unfold DotDims.rhsIdx
  rw [dif_neg (show ¬(1 : Fin S10000x128.rank) ∈ dot_S10000x128_S10000x128_S128x128_0_0_1_1_n_n.rhsBatch by decide), dif_pos (show (1 : Fin S10000x128.rank) ∈ dot_S10000x128_S10000x128_S128x128_0_0_1_1_n_n.rhsNonContracting by decide)]
  rfl

/-- The projected block at (p, q): the sum over the 256 input features of x(p,l)·w(l,q). -/
theorem pay2_apply (x0 : Vec Ideal S10000x256 .f32) (x1 : Vec Ideal S256x128 .f32) (p : Fin 10000) (q : Fin 128) :
    k0_pay2 (F := Ideal) x0 x1 (ix2 p q) = ∑ l : Fin 256, x0 (ix2 p l) * x1 (ix2 l q) := by
  unfold k0_pay2
  refine (Ideal.matmul_constant_zero_apply dot_S10000x256_S256x128_S10000x128_1_0_0_1_n_n none x0 x1 (ix2 p q)).trans ?_
  rw [← Equiv.sum_comp (ValueIdx.contrEquiv1 dot_S10000x256_S256x128_S10000x128_1_0_0_1_n_n 256 rfl rfl).symm]
  refine Finset.sum_congr rfl fun k _ => ?_
  have hk := ValueIdx.contrEquiv1_symm_val dot_S10000x256_S256x128_S10000x128_1_0_0_1_n_n 256 rfl rfl k
  have el : dot_S10000x256_S256x128_S10000x128_1_0_0_1_n_n.lhsIdx (ix2 p q) ((ValueIdx.contrEquiv1 dot_S10000x256_S256x128_S10000x128_1_0_0_1_n_n 256 rfl rfl).symm k) = ix2 p k := funext fun a => Fin.ext (by
    match a with
    | ⟨0, _⟩ => exact projL0 _ _
    | ⟨1, _⟩ => exact (projL1 _ _).trans hk)
  have er : dot_S10000x256_S256x128_S10000x128_1_0_0_1_n_n.rhsIdx (ix2 p q) ((ValueIdx.contrEquiv1 dot_S10000x256_S256x128_S10000x128_1_0_0_1_n_n 256 rfl rfl).symm k) = ix2 k q := funext fun a => Fin.ext (by
    match a with
    | ⟨0, _⟩ => exact (projR0 _ _).trans hk
    | ⟨1, _⟩ => exact projR1 _ _)
  rw [el, er]

/-- The Gram matrix of a 10000-row block P at (p, q): the sum over its rows r of P(r,p)·P(r,q). -/
theorem gramBlock_apply (P : FVec Ideal S10000x128 .f32) (p q : Fin 128) :
    matmul (F := Ideal) dot_S10000x128_S10000x128_S128x128_0_0_1_1_n_n none P P (constant S128x128 .f32 0x00000000#32) (ix2 p q)
      = ∑ r : Fin 10000, P (ix2 r p) * P (ix2 r q) := by
  refine (Ideal.matmul_constant_zero_apply dot_S10000x128_S10000x128_S128x128_0_0_1_1_n_n none P P (ix2 p q)).trans ?_
  rw [← Equiv.sum_comp (ValueIdx.contrEquiv1 dot_S10000x128_S10000x128_S128x128_0_0_1_1_n_n 10000 rfl rfl).symm]
  refine Finset.sum_congr rfl fun k _ => ?_
  have hk := ValueIdx.contrEquiv1_symm_val dot_S10000x128_S10000x128_S128x128_0_0_1_1_n_n 10000 rfl rfl k
  have el : dot_S10000x128_S10000x128_S128x128_0_0_1_1_n_n.lhsIdx (ix2 p q) ((ValueIdx.contrEquiv1 dot_S10000x128_S10000x128_S128x128_0_0_1_1_n_n 10000 rfl rfl).symm k) = ix2 k p := funext fun a => Fin.ext (by
    match a with
    | ⟨0, _⟩ => exact (gramL0 _ _).trans hk
    | ⟨1, _⟩ => exact gramL1 _ _)
  have er : dot_S10000x128_S10000x128_S128x128_0_0_1_1_n_n.rhsIdx (ix2 p q) ((ValueIdx.contrEquiv1 dot_S10000x128_S10000x128_S128x128_0_0_1_1_n_n 10000 rfl rfl).symm k) = ix2 k q := funext fun a => Fin.ext (by
    match a with
    | ⟨0, _⟩ => exact (gramR0 _ _).trans hk
    | ⟨1, _⟩ => exact gramR1 _ _)
  rw [el, er]

/-- One accumulation step at (u, p, q): what the Gram buffer held there plus the Gram matrix of the projected block. -/
theorem pay3_apply (x0 : Vec Ideal S10000x256 .f32) (x1 : Vec Ideal S256x128 .f32) (v7 : Vec Ideal S1x128x128 .f32)
    (u : Fin 1) (p q : Fin 128) :
    k0_pay3 (F := Ideal) x0 x1 v7 (ix3 u p q)
      = v7 (ix3 (0 : Fin 1) p q) + ∑ r : Fin 10000, k0_pay2 (F := Ideal) x0 x1 (ix2 r p) * k0_pay2 (F := Ideal) x0 x1 (ix2 r q) := by
  unfold k0_pay3
  refine (shapeCast_ab_1ab_apply _ shapeCasts_S128x128_S1x128x128 u p q).trans ?_
  refine (addf_apply _ _ (ix2 p q)).trans ?_
  refine congrArg₂ (· + ·) (shapeCast_1ab_ab_apply v7 shapeCasts_S1x128x128_S128x128 p q) ?_
  exact gramBlock_apply (k0_pay2 (F := Ideal) x0 x1) p q

/-- The zero block reads zero everywhere. -/
theorem pay1_apply (u : Fin 1) (p q : Fin 128) : k0_pay1 (F := Ideal) (ix3 u p q) = 0 := by
  unfold k0_pay1
  refine (shapeCast_ab_1ab_apply _ shapeCasts_S128x128_S1x128x128 u p q).trans ?_
  show Ideal.ofBits .f32 0x00000000#32 = 0
  exact Ideal.ofBits_zero_f32

end Payloads

section Blocks

variable (V : (c : Dev nD) → (b : Ref sig .tc) → Buf (Elt Ideal) ((c : Thread nD τ).loc b))

/-- The node features and the first layer's weights as the region finds them, and the projected features X·W. -/
abbrev Xin (c : Dev nD) : Cert.Spec.Mat 100000 256 := V c (Pipeline.arrRef spec0 0)
abbrev Win (c : Dev nD) : Cert.Spec.Mat 256 128 := V c (Pipeline.arrRef spec0 1)
abbrev Y (c : Dev nD) : Cert.Spec.Mat 100000 128 := Cert.Spec.mm (Xin V c) (Win V c)

/-- Where each window's block sits at grid point t: the features and the projected features at row block t, the
    weights whole, the Gram accumulator at the half t / 5. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val / 5 ∧ win0_3.index t (1 : Fin 3) = 0 ∧ win0_3.index t (2 : Fin 3) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 3) = t.val / 5 ∧ win0_3.index t (1 : Fin 3) = 0 ∧ win0_3.index t (2 : Fin 3) = 0)

/-- Row r of the features' block at point t is row 10000·t + r of the features. -/
theorem xblk_apply (c : Dev nD) (t : Fin cfg0.N) (r : Fin 10000) (l : Fin 256) (n : Fin 100000)
    (hn : n.val = t.val * 10000 + r.val) :
    (iblk0 V c 0 t : Vec Ideal S10000x256 .f32) (ix2 r l) = Xin V c (ix2 n l) := by
  obtain ⟨e0, e1, -⟩ := idx_facts t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t 0 * 10000 + 1 * r.val = n.val; rw [e0, hn]; omega
  | ⟨1, _⟩ => show win0_0.index t 1 * 256 + 1 * l.val = l.val; rw [e1]; omega

/-- The weights' block at every point is the whole weight matrix. -/
theorem wblk_apply (c : Dev nD) (t : Fin cfg0.N) (l : Fin 256) (q : Fin 128) :
    (iblk0 V c 1 t : Vec Ideal S256x128 .f32) (ix2 l q) = Win V c (ix2 l q) := by
  obtain ⟨-, -, e0, e1, -⟩ := idx_facts t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t 0 * 256 + 1 * l.val = l.val; rw [e0]; omega
  | ⟨1, _⟩ => show win0_1.index t 1 * 128 + 1 * q.val = q.val; rw [e1]; omega

/-- The product of the two blocks at point t is rows 10000·t … of X·W. -/
theorem proj_apply (c : Dev nD) (t : Fin cfg0.N) (r : Fin 10000) (q : Fin 128) (n : Fin 100000)
    (hn : n.val = t.val * 10000 + r.val) :
    k0_pay2 (F := Ideal) (iblk0 V c 0 t) (iblk0 V c 1 t) (ix2 r q) = Y V c (ix2 n q) := by
  refine (pay2_apply (iblk0 V c 0 t) (iblk0 V c 1 t) r q).trans ?_
  show _ = ∑ l : Fin 256, Xin V c (ix2 n l) * Win V c (ix2 l q)
  refine Finset.sum_congr rfl fun l _ => ?_
  exact congrArg₂ (· * ·) (xblk_apply V c t r l n hn) (wblk_apply V c t l q)

end Blocks

section Accumulation

variable (V : (c : Dev nD) → (b : Ref sig .tc) → Buf (Elt Ideal) ((c : Thread nD τ).loc b))

/-- After every point the projected-features buffer holds the product of that point's blocks. -/
theorem outs_fst (c : Dev nD) (t : Fin cfg0.N) :
    (outsAt0 V c t.val t.isLt).1 = k0_pay2 (F := Ideal) (iblk0 V c 0 t) (iblk0 V c 1 t) := by
  by_cases h0 : t.val % 5 = 0
  · rw [outsAt0_A V c t h0]
    dsimp only
    exact out_A_2 (F := Ideal) c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)
  · rw [outsAt0_B V c t h0]
    dsimp only
    exact out_B_2 (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).2

/-- After the first point of a half the Gram buffer holds zero plus that block's Gram matrix; -/
theorem outs_snd_A (c : Dev nD) (t : Fin cfg0.N) (h0 : t.val % 5 = 0) :
    (outsAt0 V c t.val t.isLt).2 = k0_pay3 (F := Ideal) (iblk0 V c 0 t) (iblk0 V c 1 t) (k0_pay1 (F := Ideal)) := by
  rw [outsAt0_A V c t h0]
  dsimp only
  exact out_A_3 (F := Ideal) c (grid0.coords t) (ms0_0 t) (hs0_0 t) (ms0_1 t) (hs0_1 t) (ms0_2 t) (hs0_2 t) (ms0_3 t) (hs0_3 t) ((hcond0_0 t).mpr h0) (iblk0 V c 0 t) (iblk0 V c 1 t)

/-- after any other point, what it held after the point before plus that block's Gram matrix. -/
theorem outs_snd_B (c : Dev nD) (t : Fin cfg0.N) (h0 : ¬t.val % 5 = 0) :
    (outsAt0 V c t.val t.isLt).2 = k0_pay3 (F := Ideal) (iblk0 V c 0 t) (iblk0 V c 1 t) (outsAt0 V c (t.val - 1) (Nat.lt_of_le_of_lt (Nat.sub_le _ _) t.isLt)).2 := by
  rw [outsAt0_B V c t h0]
  dsimp only
  exact out_B_3 (F := Ideal) c (grid0.coords t) (ms0_0 t) (hs0_0 t) (ms0_1 t) (hs0_1 t) (ms0_2 t) (hs0_2 t) (ms0_3 t) (hs0_3 t) (fun h => h0 ((hcond0_0 t).mp h)) (iblk0 V c 0 t) (iblk0 V c 1 t) (outsAt0 V c (t.val - 1) (Nat.lt_of_le_of_lt (Nat.sub_le _ _) t.isLt)).2

/-- Row r of row block k, among the ten blocks of 10000 rows. -/
def brow (k : ℕ) (hk : k < 10) (r : Fin 10000) : Fin 100000 := ⟨k * 10000 + r.val, by have := r.isLt; omega⟩

/-- The Gram matrix of row block k of a 100000-row matrix at (p, q): the sum over the block's rows; nothing past the
    tenth block. -/
def gblk (Z : Cert.Spec.Mat 100000 128) (k : ℕ) (p q : Fin 128) : EReal :=
  if hk : k < 10 then ∑ r : Fin 10000, Z (ix2 (brow k hk r) p) * Z (ix2 (brow k hk r) q) else 0

/-- The Gram matrix of the projected block at point t is that of row block t of X·W. -/
theorem gstep (c : Dev nD) (t : Fin cfg0.N) (p q : Fin 128) :
    ∑ r : Fin 10000, k0_pay2 (F := Ideal) (iblk0 V c 0 t) (iblk0 V c 1 t) (ix2 r p)
        * k0_pay2 (F := Ideal) (iblk0 V c 0 t) (iblk0 V c 1 t) (ix2 r q)
      = gblk (Y V c) t.val p q := by
  have hN : t.val < 10 := lt_of_lt_of_eq t.isLt N_0
  unfold gblk
  rw [dif_pos hN]
  refine Finset.sum_congr rfl fun r _ => ?_
  exact congrArg₂ (· * ·) (proj_apply V c t r p (brow t.val hN r) rfl) (proj_apply V c t r q (brow t.val hN r) rfl)

/-- THE RUNNING SUM. After point n the Gram buffer holds, at (p, q), the Gram matrices of the row blocks of n's half
    met so far, the first of the half to the n-th, added in that order: by induction on the point. -/
theorem acc_eq (c : Dev nD) : ∀ (n : ℕ) (h : n < cfg0.N) (u : Fin 1) (p q : Fin 128),
    (outsAt0 V c n h).2 (ix3 u p q) = ∑ s ∈ Finset.range (n % 5 + 1), gblk (Y V c) (n / 5 * 5 + s) p q
  | 0, h, u, p, q => by
    refine (congrFun (outs_snd_A V c ⟨0, h⟩ rfl) (ix3 u p q)).trans ?_
    refine (pay3_apply (iblk0 V c 0 ⟨0, h⟩) (iblk0 V c 1 ⟨0, h⟩) (k0_pay1 (F := Ideal)) u p q).trans ?_
    rw [pay1_apply, gstep V c ⟨0, h⟩ p q]
    simp
  | n + 1, h, u, p, q => by
    by_cases h0 : (n + 1) % 5 = 0
    · refine (congrFun (outs_snd_A V c ⟨n + 1, h⟩ h0) (ix3 u p q)).trans ?_
      refine (pay3_apply (iblk0 V c 0 ⟨n + 1, h⟩) (iblk0 V c 1 ⟨n + 1, h⟩) (k0_pay1 (F := Ideal)) u p q).trans ?_
      rw [pay1_apply, gstep V c ⟨n + 1, h⟩ p q]
      have e : (n + 1) / 5 * 5 = n + 1 := by omega
      rw [h0, e]
      simp
    · refine (congrFun (outs_snd_B V c ⟨n + 1, h⟩ h0) (ix3 u p q)).trans ?_
      refine (pay3_apply (iblk0 V c 0 ⟨n + 1, h⟩) (iblk0 V c 1 ⟨n + 1, h⟩)
        (outsAt0 V c ((⟨n + 1, h⟩ : Fin cfg0.N).val - 1) (Nat.lt_of_le_of_lt (Nat.sub_le _ _) (⟨n + 1, h⟩ : Fin cfg0.N).isLt)).2 u p q).trans ?_
      rw [gstep V c ⟨n + 1, h⟩ p q]
      show (outsAt0 V c n _).2 (ix3 (0 : Fin 1) p q) + gblk (Y V c) (n + 1) p q = _
      rw [acc_eq c n (Nat.lt_of_succ_lt h) 0 p q]
      have e1 : (n + 1) % 5 = n % 5 + 1 := by omega
      have e2 : (n + 1) / 5 = n / 5 := by omega
      have e3 : n / 5 * 5 + (n % 5 + 1) = n + 1 := by omega
      rw [e1, e2, Finset.sum_range_succ _ (n % 5 + 1), e3]

end Accumulation

section Arrays

variable (V : (c : Dev nD) → (b : Ref sig .tc) → Buf (Elt Ideal) ((c : Thread nD τ).loc b))

/-! ### The projected features: every point writes its row block back -/

/-- What point t writes back of the projected features is row block t of X·W. -/
theorem flushed2_eq (c : Dev nD) (t : Fin cfg0.N) :
    (dat0 (F := Ideal) V c).flushed 2 t = ((cfg0.win 2).blk t).view.read (Elt Ideal) (Y V c) := by
  show (cfg0.win 2).cut (grid0.coords t) ((dat0 (F := Ideal) V c).after 2 t) = _
  rw [after0_2, outs_fst]
  obtain ⟨-, -, -, -, e0, e1, -⟩ := idx_facts t
  have hN : t.val < 10 := lt_of_lt_of_eq t.isLt N_0
  funext j
  obtain ⟨r, q, rfl⟩ : ∃ (r : Fin 10000) (q : Fin 128), j = ix2 r q := ⟨j 0, j 1, eq_ix2 j⟩
  rw [View.read_apply]
  refine (proj_apply V c t r q (brow t.val hN r) rfl).trans ?_
  refine congrArg (Y V c) (funext fun a => Fin.ext ?_)
  match a with
  | ⟨0, _⟩ => show t.val * 10000 + r.val = win0_2.index t 0 * 10000 + 1 * r.val; rw [e0]; omega
  | ⟨1, _⟩ => show q.val = win0_2.index t 1 * 128 + 1 * q.val; rw [e1]; omega

/-- An index of the projected features is in point t's block iff each coordinate is in the block's range. -/
theorem mem_blk2 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v35_0).slice (win0_2.rect t)).set ↔ _
  rw [View.set_slice_whole, Rect.mem_set_unit]
  exact Iff.rfl

/-- Row n lies in the block of point n / 10000. -/
theorem cover2 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, by rw [show cfg0.N = 10 from N_0]; omega⟩, rfl⟩
  obtain ⟨-, -, -, -, e0, e1, -⟩ := idx_facts t
  refine ⟨t, flush0_2 t, ?_⟩
  rw [mem_blk2]
  intro a
  match a with
  | ⟨0, _⟩ => show win0_2.index t 0 * 10000 ≤ (i 0).val ∧ (i 0).val < win0_2.index t 0 * 10000 + 10000; rw [e0, ht]; omega
  | ⟨1, _⟩ => show win0_2.index t 1 * 128 ≤ (i 1).val ∧ (i 1).val < win0_2.index t 1 * 128 + 128; rw [e1]; omega

/-- THE PROJECTED FEATURES after the region: X·W, whatever the region found in the arrays. -/
theorem arr2 (c : Dev nD) :
    (dat0 (F := Ideal) V c).arrAt 2 cfg0.N
      = Cert.Spec.mm (V c (Pipeline.arrRef spec0 0) : Cert.Spec.Mat 100000 256) (V c (Pipeline.arrRef spec0 1) : Cert.Spec.Mat 256 128) :=
  (dat0 (F := Ideal) V c).arrAt_eq_of_cover 2 (Y V c) (fun t _ => flushed2_eq V c t) cover2

/-! ### The Gram accumulator: the last point of each half writes the half's sum back -/

/-- What the last point of a half writes back is that half's block of the blockwise Gram matrix of X·W. -/
theorem flushed3_eq (c : Dev nD) (t : Fin cfg0.N) (hf : (cfg0.win 3).flush t = true) :
    (dat0 (F := Ideal) V c).flushed 3 t = ((cfg0.win 3).blk t).view.read (Elt Ideal) (Cert.Spec.gramHalf (Y V c)) := by
  have hN : t.val < 10 := lt_of_lt_of_eq t.isLt N_0
  have h4 : t.val % 5 = 4 := (flush0_3 t).mp hf
  show (cfg0.win 3).cut (grid0.coords t) ((dat0 (F := Ideal) V c).after 3 t) = _
  rw [after0_3]
  obtain ⟨-, -, -, -, -, -, e0, e1, e2⟩ := idx_facts t
  funext j
  obtain ⟨u, p, q, rfl⟩ : ∃ (u : Fin 1) (p q : Fin 128), j = ix3 u p q := ⟨j 0, j 1, j 2, eq_ix3 j⟩
  rw [View.read_apply]
  refine (acc_eq V c t.val t.isLt u p q).trans ?_
  have hc : t.val / 5 < 2 := by omega
  have hemb : ((cfg0.win 3).blk t).view.emb (ix3 u p q) = ix3 (⟨t.val / 5, hc⟩ : Fin 2) p q := funext fun a => Fin.ext (by
    have hu : u.val = 0 := by omega
    match a with
    | ⟨0, _⟩ => show win0_3.index t 0 * 1 + 1 * u.val = t.val / 5; rw [e0, hu]; omega
    | ⟨1, _⟩ => show win0_3.index t 1 * 128 + 1 * p.val = p.val; rw [e1]; omega
    | ⟨2, _⟩ => show win0_3.index t 2 * 128 + 1 * q.val = q.val; rw [e2]; omega)
  refine Eq.trans ?_ (congrArg (Cert.Spec.gramHalf (Y V c)) hemb).symm
  show _ = ∑ s : Fin 5, ∑ r : Fin 10000,
    Y V c (ix2 (Cert.Spec.row (⟨t.val / 5, hc⟩ : Fin 2) s r) p) * Y V c (ix2 (Cert.Spec.row (⟨t.val / 5, hc⟩ : Fin 2) s r) q)
  rw [h4, Finset.sum_range]
  refine Finset.sum_congr rfl fun s _ => ?_
  have hk : t.val / 5 * 5 + s.val < 10 := by have := s.isLt; omega
  unfold gblk
  rw [dif_pos hk]
  rfl

/-- An index of the accumulator is in point t's block iff each coordinate is in the block's range. -/
theorem mem_blk3 (t : Fin cfg0.N) (i : S2x128x128.Idx) :
    i ∈ ((cfg0.win 3).blk t).view.set ↔ ∀ a : Fin 3, win0_3.index t a * S1x128x128.size a ≤ (i a).val ∧ (i a).val < win0_3.index t a * S1x128x128.size a + S1x128x128.size a := by
  show i ∈ ((View.whole main_v35_1).slice (win0_3.rect t)).set ↔ _
  rw [View.set_slice_whole, Rect.mem_set_unit]
  exact Iff.rfl

/-- Half c of the accumulator is written back by the last point of that half, 5c + 4. -/
theorem cover3 (i : S2x128x128.Idx) :
    ∃ t : Fin cfg0.N, (cfg0.win 3).flush t = true ∧ i ∈ ((cfg0.win 3).blk t).view.set := by
  have hi0 : (i 0).val < 2 := (i 0).isLt
  have hi1 : (i 1).val < 128 := (i 1).isLt
  have hi2 : (i 2).val < 128 := (i 2).isLt
  obtain ⟨t, ht⟩ : ∃ t : Fin cfg0.N, t.val = 5 * (i 0).val + 4 :=
    ⟨⟨5 * (i 0).val + 4, by rw [show cfg0.N = 10 from N_0]; omega⟩, rfl⟩
  obtain ⟨-, -, -, -, -, -, e0, e1, e2⟩ := idx_facts t
  refine ⟨t, (flush0_3 t).mpr (by omega), ?_⟩
  rw [mem_blk3]
  intro a
  match a with
  | ⟨0, _⟩ => show win0_3.index t 0 * 1 ≤ (i 0).val ∧ (i 0).val < win0_3.index t 0 * 1 + 1; rw [e0, ht]; omega
  | ⟨1, _⟩ => show win0_3.index t 1 * 128 ≤ (i 1).val ∧ (i 1).val < win0_3.index t 1 * 128 + 128; rw [e1]; omega
  | ⟨2, _⟩ => show win0_3.index t 2 * 128 ≤ (i 2).val ∧ (i 2).val < win0_3.index t 2 * 128 + 128; rw [e2]; omega

/-- THE GRAM ACCUMULATOR after the region: for each half of the rows, the Gram matrices of its five row blocks of
    X·W added in order, whatever the region found in the arrays. -/
theorem arr3 (c : Dev nD) :
    (dat0 (F := Ideal) V c).arrAt 3 cfg0.N
      = Cert.Spec.gramHalf (Cert.Spec.mm (V c (Pipeline.arrRef spec0 0) : Cert.Spec.Mat 100000 256) (V c (Pipeline.arrRef spec0 1) : Cert.Spec.Mat 256 128)) :=
  (dat0 (F := Ideal) V c).arrAt_eq_of_cover 3 (Cert.Spec.gramHalf (Y V c)) (flushed3_eq V c) cover3

end Arrays

end Cert.KernelIdeal.Region0
end
-- ==== Proof.Region1.lean ====
/-
  The second blocked computation of the network (layer 1 combined, then projected into layer 2), read as values.

  The 100000 rows are cut into ten row blocks of 10000; the grid visits them in order, five per half.  At row block t
  the body reads the block's rows of the projected features X and of the neighbourhood aggregate S, and the whole Gram
  matrix G, bias row b and weights W, forms the activation
      h(p,k) = max (((c95 · x(p,k) + s(p,k)) − c05 · ∑ l, x(p,l) · g(l,k)) + b(k)) 0
  and its projection y = h · W, stores y as the block's rows of the first output, and adds yᵀy to an accumulator that
  is reset at the first block of each half and written back after the last, as that half's block of the second output.

  The activation and the projection of a row depend on that row of X and S only, so the block's y is the same rows of
  Y = act X G S b · W computed on the whole arrays (`block5`).  Hence the first output ends as Y (`arr5`): every row
  lies in exactly the block that covers it.  The accumulator after block n of a half holds the sum, over the half's
  blocks up to n, of the sums over a block's rows r of Y(r,p) · Y(r,q) — by induction on the block, zero plus the
  first term being the first term — and after the half's last block that is the specification's Gram matrix of the
  half, summed block by block (`arr6`).
-/
import proofs.«170132_j54760833024262_2_alg».proof.Proof.Gen.KernelIdeal.Frame
import proofs.«170132_j54760833024262_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Region1

section Pieces
variable {F : FTy → Type} [FloatOps F]

/-- The zero offsets of a rank-2 block. -/
theorem hz2 : (![0, 0] : Fin 2 → Nat) = fun _ => 0 := funext fun a => by fin_cases a <;> rfl
/-- The zero offsets of a rank-3 block. -/
theorem hz3 : (![0, 0, 0] : Fin 3 → Nat) = fun _ => 0 := funext fun a => by fin_cases a <;> rfl

/-- Away from the first block of a half, the body leaves in the first output's buffer the projected activation
    of the blocks it read. -/
theorem out_B_5 (c : Dev nD) (i : grid1.Coords) (a2 : Memref sig .tc .vmem S10000x128 .f32) (h2 : a2.IsWhole) (a3 : Memref sig .tc .vmem S128x128 .f32) (h3 : a3.IsWhole) (a4 : Memref sig .tc .vmem S10000x128 .f32) (h4 : a4.IsWhole) (a5 : Memref sig .tc .vmem S1x128 .f32) (h5 : a5.IsWhole) (a6 : Memref sig .tc .vmem S128x128 .f32) (h6 : a6.IsWhole) (a7 : Memref sig .tc .vmem S10000x128 .f32) (h7 : a7.IsWhole) (a8 : Memref sig .tc .vmem S1x128x128 .f32) (h8 : a8.IsWhole) (hc : ¬cond1_0 i) (x0 : Vec F S10000x128 .f32) (x1 : Vec F S128x128 .f32) (x2 : Vec F S10000x128 .f32) (x3 : Vec F S1x128 .f32) (x4 : Vec F S128x128 .f32) (xo6 : Vec F S1x128x128 .f32) :
    out1_B_5 c i a2 h2 a3 h3 a4 h4 a5 h5 a6 h6 a7 h7 a8 h8 hc x0 x1 x2 x3 x4 xo6 = k1_pay3 x0 x1 x2 x3 x4 := by
  unfold out1_B_5
  rw [View.read_writes_eq_canon _ _ _ (cover1_B_5 c i a2 h2 a3 h3 a4 h4 a5 h5 a6 h6 a7 h7 a8 h8 hc x0 x1 x2 x3 x4 xo6)]
  unfold kernelRun1_B
  dsimp only
  rw [View.canon_unit_zero hz2]
  simp only [View.readAt_eq_ld, h2.read_unread, h3.read_unread, h4.read_unread, h5.read_unread, h6.read_unread, h8.read_unread, View.ld_unit_zero (S := S10000x128) hz2, View.ld_unit_zero (S := S128x128) hz2, View.ld_unit_zero (S := S1x128) hz2, View.ld_unit_zero (S := S1x128x128) hz3]

/-- Away from the first block of a half, the body leaves in the accumulator what it held plus the block's yᵀy. -/
theorem out_B_6 (c : Dev nD) (i : grid1.Coords) (a2 : Memref sig .tc .vmem S10000x128 .f32) (h2 : a2.IsWhole) (a3 : Memref sig .tc .vmem S128x128 .f32) (h3 : a3.IsWhole) (a4 : Memref sig .tc .vmem S10000x128 .f32) (h4 : a4.IsWhole) (a5 : Memref sig .tc .vmem S1x128 .f32) (h5 : a5.IsWhole) (a6 : Memref sig .tc .vmem S128x128 .f32) (h6 : a6.IsWhole) (a7 : Memref sig .tc .vmem S10000x128 .f32) (h7 : a7.IsWhole) (a8 : Memref sig .tc .vmem S1x128x128 .f32) (h8 : a8.IsWhole) (hc : ¬cond1_0 i) (x0 : Vec F S10000x128 .f32) (x1 : Vec F S128x128 .f32) (x2 : Vec F S10000x128 .f32) (x3 : Vec F S1x128 .f32) (x4 : Vec F S128x128 .f32) (xo6 : Vec F S1x128x128 .f32) :
    out1_B_6 c i a2 h2 a3 h3 a4 h4 a5 h5 a6 h6 a7 h7 a8 h8 hc x0 x1 x2 x3 x4 xo6 = k1_pay1 (k1_pay4 x0 x1 x2 x3 x4 xo6) := by
  unfold out1_B_6
  rw [View.read_writes_eq_canon _ _ _ (cover1_B_6 c i a2 h2 a3 h3 a4 h4 a5 h5 a6 h6 a7 h7 a8 h8 hc x0 x1 x2 x3 x4 xo6)]
  unfold kernelRun1_B
  dsimp only
  sl_unfold_words
  rw [View.canon_unit_zero hz3]
  simp only [View.readAt_eq_ld, h2.read_unread, h3.read_unread, h4.read_unread, h5.read_unread, h6.read_unread, h8.read_unread, View.ld_unit_zero (S := S10000x128) hz2, View.ld_unit_zero (S := S128x128) hz2, View.ld_unit_zero (S := S1x128) hz2, View.ld_unit_zero (S := S1x128x128) hz3]

/-- At the first block of a half the first output's buffer gets the same projected activation. -/
theorem out_A_5 (c : Dev nD) (i : grid1.Coords) (a2 : Memref sig .tc .vmem S10000x128 .f32) (h2 : a2.IsWhole) (a3 : Memref sig .tc .vmem S128x128 .f32) (h3 : a3.IsWhole) (a4 : Memref sig .tc .vmem S10000x128 .f32) (h4 : a4.IsWhole) (a5 : Memref sig .tc .vmem S1x128 .f32) (h5 : a5.IsWhole) (a6 : Memref sig .tc .vmem S128x128 .f32) (h6 : a6.IsWhole) (a7 : Memref sig .tc .vmem S10000x128 .f32) (h7 : a7.IsWhole) (a8 : Memref sig .tc .vmem S1x128x128 .f32) (h8 : a8.IsWhole) (hc : cond1_0 i) (x0 : Vec F S10000x128 .f32) (x1 : Vec F S128x128 .f32) (x2 : Vec F S10000x128 .f32) (x3 : Vec F S1x128 .f32) (x4 : Vec F S128x128 .f32) :
    out1_A_5 c i a2 h2 a3 h3 a4 h4 a5 h5 a6 h6 a7 h7 a8 h8 hc x0 x1 x2 x3 x4 = k1_pay3 x0 x1 x2 x3 x4 := by
  unfold out1_A_5
  rw [View.read_writes_eq_canon _ _ _ (cover1_A_5 c i a2 h2 a3 h3 a4 h4 a5 h5 a6 h6 a7 h7 a8 h8 hc x0 x1 x2 x3 x4)]
  unfold kernelRun1_A
  dsimp only
  rw [View.canon_unit_zero hz2]
  simp only [View.readAt_eq_ld, h2.read_unread, h3.read_unread, h4.read_unread, h5.read_unread, h6.read_unread, h8.read_unread, View.ld_unit_zero (S := S10000x128) hz2, View.ld_unit_zero (S := S128x128) hz2, View.ld_unit_zero (S := S1x128) hz2, View.ld_unit_zero (S := S1x128x128) hz3]

/-- At the first block of a half the accumulator is first set to zero, and that zero is what the sum starts from. -/
theorem out_A_6 (c : Dev nD) (i : grid1.Coords) (a2 : Memref sig .tc .vmem S10000x128 .f32) (h2 : a2.IsWhole) (a3 : Memref sig .tc .vmem S128x128 .f32) (h3 : a3.IsWhole) (a4 : Memref sig .tc .vmem S10000x128 .f32) (h4 : a4.IsWhole) (a5 : Memref sig .tc .vmem S1x128 .f32) (h5 : a5.IsWhole) (a6 : Memref sig .tc .vmem S128x128 .f32) (h6 : a6.IsWhole) (a7 : Memref sig .tc .vmem S10000x128 .f32) (h7 : a7.IsWhole) (a8 : Memref sig .tc .vmem S1x128x128 .f32) (h8 : a8.IsWhole) (hc : cond1_0 i) (x0 : Vec F S10000x128 .f32) (x1 : Vec F S128x128 .f32) (x2 : Vec F S10000x128 .f32) (x3 : Vec F S1x128 .f32) (x4 : Vec F S128x128 .f32) :
    out1_A_6 c i a2 h2 a3 h3 a4 h4 a5 h5 a6 h6 a7 h7 a8 h8 hc x0 x1 x2 x3 x4 = k1_pay1 (k1_pay4 x0 x1 x2 x3 x4 k1_pay2) := by
  unfold out1_A_6
  rw [View.read_writes_eq_canon _ _ _ (cover1_A_6 c i a2 h2 a3 h3 a4 h4 a5 h5 a6 h6 a7 h7 a8 h8 hc x0 x1 x2 x3 x4)]
  unfold kernelRun1_A
  dsimp only
  sl_unfold_words
  rw [View.canon_cons_unit_zero (S := S1x128x128) hz3]
  simp only [View.readCov_unit_zero (S := S1x128x128) _ hz3]
  simp only [View.readAt_eq_ld, h2.read_unread, h3.read_unread, h4.read_unread, h5.read_unread, h6.read_unread, h8.read_unread, View.ld_unit_zero (S := S10000x128) hz2, View.ld_unit_zero (S := S128x128) hz2, View.ld_unit_zero (S := S1x128) hz2, View.ld_unit_zero (S := S1x128x128) hz3]

end Pieces

section Payloads

open Cert.Spec

/-! The two matrix products of the body, read at an entry. -/

/-- The operand indices of the row-by-column product: the left operand's row is the output's row, -/
theorem d1_lhs0 (j : S10000x128.Idx) (k : dot_S10000x128_S128x128_S10000x128_1_0_0_1_n_n.contr.Idx) : (dot_S10000x128_S128x128_S10000x128_1_0_0_1_n_n.lhsIdx j k 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- and the right operand's column is the output's column. -/
theorem d1_rhs1 (j : S10000x128.Idx) (k : dot_S10000x128_S128x128_S10000x128_1_0_0_1_n_n.contr.Idx) : (dot_S10000x128_S128x128_S10000x128_1_0_0_1_n_n.rhsIdx j k 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A [10000,128] × [128,128] product into a zero accumulator: entry (p, q) is the sum over k of l(p,k)·r(k,q). -/
theorem matmul_rows (l : FVec Ideal S10000x128 .f32) (r : FVec Ideal S128x128 .f32) (p : Fin 10000) (q : Fin 128) :
    matmul dot_S10000x128_S128x128_S10000x128_1_0_0_1_n_n none l r (constant S10000x128 .f32 0x00000000#32) (ix2 p q) = ∑ k : Fin 128, l (ix2 p k) * r (ix2 k q) := by
  show FloatOps.matmul dot_S10000x128_S128x128_S10000x128_1_0_0_1_n_n none l r (constant S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact d1_lhs0 _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (dot_S10000x128_S128x128_S10000x128_1_0_0_1_n_n.rhsIdx_val_of_single rfl _ _).trans hk
    | ⟨1, _⟩ => exact d1_rhs1 _ _)
  rw [el, er]

/-- The operand indices of the product contracting the rows of both operands: the left operand's column is the
    output's row, -/
theorem d2_lhs1 (j : S128x128.Idx) (k : dot_S10000x128_S10000x128_S128x128_0_0_1_1_n_n.contr.Idx) : (dot_S10000x128_S10000x128_S128x128_0_0_1_1_n_n.lhsIdx j k 1).val = (j 0).val := by
  unfold DotDims.lhsIdx
  rw [dif_neg (show ¬(1 : Fin S10000x128.rank) ∈ dot_S10000x128_S10000x128_S128x128_0_0_1_1_n_n.lhsBatch by decide), dif_pos (show (1 : Fin S10000x128.rank) ∈ dot_S10000x128_S10000x128_S128x128_0_0_1_1_n_n.lhsNonContracting by decide)]
  rfl
/-- and the right operand's column is the output's column. -/
theorem d2_rhs1 (j : S128x128.Idx) (k : dot_S10000x128_S10000x128_S128x128_0_0_1_1_n_n.contr.Idx) : (dot_S10000x128_S10000x128_S128x128_0_0_1_1_n_n.rhsIdx j k 1).val = (j 1).val := by
  unfold DotDims.rhsIdx
  rw [dif_neg (show ¬(1 : Fin S10000x128.rank) ∈ dot_S10000x128_S10000x128_S128x128_0_0_1_1_n_n.rhsBatch by decide), dif_pos (show (1 : Fin S10000x128.rank) ∈ dot_S10000x128_S10000x128_S128x128_0_0_1_1_n_n.rhsNonContracting by decide)]
  rfl

/-- The product of a [10000,128] block's transpose with the block, into a zero accumulator: entry (p, q) is the sum
    over the block's rows r of l(r,p)·r(r,q). -/
theorem matmul_gram (l r : FVec Ideal S10000x128 .f32) (p q : Fin 128) :
    matmul dot_S10000x128_S10000x128_S128x128_0_0_1_1_n_n none l r (constant S128x128 .f32 0x00000000#32) (ix2 p q) = ∑ k : Fin 10000, l (ix2 k p) * r (ix2 k q) := by
  show FloatOps.matmul dot_S10000x128_S10000x128_S128x128_0_0_1_1_n_n none l r (constant S128x128 .f32 0x00000000#32) (ix2 p q) = _
  rw [Ideal.matmul_constant_zero_apply, ← Equiv.sum_comp (contrEquiv1 dot_S10000x128_S10000x128_S128x128_0_0_1_1_n_n 10000 rfl rfl).symm]
  refine Finset.sum_congr rfl fun k _ => ?_
  have hk := contrEquiv1_symm_val dot_S10000x128_S10000x128_S128x128_0_0_1_1_n_n 10000 rfl rfl k
  have el : dot_S10000x128_S10000x128_S128x128_0_0_1_1_n_n.lhsIdx (ix2 p q) ((contrEquiv1 dot_S10000x128_S10000x128_S128x128_0_0_1_1_n_n 10000 rfl rfl).symm k) = ix2 k p := funext fun a => Fin.ext (by
    match a with
    | ⟨0, _⟩ => exact (dot_S10000x128_S10000x128_S128x128_0_0_1_1_n_n.lhsIdx_val_of_single rfl _ _).trans hk
    | ⟨1, _⟩ => exact d2_lhs1 _ _)
  have er : dot_S10000x128_S10000x128_S128x128_0_0_1_1_n_n.rhsIdx (ix2 p q) ((contrEquiv1 dot_S10000x128_S10000x128_S128x128_0_0_1_1_n_n 10000 rfl rfl).symm k) = ix2 k q := funext fun a => Fin.ext (by
    match a with
    | ⟨0, _⟩ => exact (dot_S10000x128_S10000x128_S128x128_0_0_1_1_n_n.rhsIdx_val_of_single rfl _ _).trans hk
    | ⟨1, _⟩ => exact d2_rhs1 _ _)
  rw [el, er]

/-- The bias of a [1,128] row, as a function of the lane. -/
abbrev biasOf (b : Vec Ideal S1x128 .f32) : Fin 128 → EReal := fun k => b (ix2 (0 : Fin 1) k)

/-- The body's activation then projection on a block of 10000 rows: the specification's product of the
    activation with the weights, on that block. -/
theorem pay3_apply (x : Vec Ideal S10000x128 .f32) (g : Vec Ideal S128x128 .f32) (s : Vec Ideal S10000x128 .f32)
    (b : Vec Ideal S1x128 .f32) (w : Vec Ideal S128x128 .f32) (p : Fin 10000) (q : Fin 128) :
    k1_pay3 (F := Ideal) x g s b w (ix2 p q) = mm (act (n := 10000) x g s (biasOf b)) w (ix2 p q) := by
  unfold k1_pay3
  refine (matmul_rows _ _ p q).trans ?_
  show _ = ∑ l : Fin 128, act (n := 10000) x g s (biasOf b) (ix2 p l) * w (ix2 l q)
  refine Finset.sum_congr rfl fun k _ => ?_
  refine congrArg (· * w (ix2 k q)) ?_
  simp only [maximumf_apply, addf_apply, subf_apply, mulf_apply, broadcast_apply, shapeCast_self]
  rw [matmul_rows, broadcastTo_1b_ab_apply]
  simp only [Ideal.ofBits_def, Ideal.ofBits_zero_f32]
  rfl

/-- The zero block reads zero everywhere. -/
theorem pay2_apply (u : Fin 1) (p q : Fin 128) : k1_pay2 (F := Ideal) (ix3 u p q) = 0 := by
  unfold k1_pay2
  refine (shapeCast_ab_1ab_apply _ _ u p q).trans ?_
  simp only [broadcast_apply, Ideal.ofBits_def, Ideal.ofBits_zero_f32]

/-- The accumulator after the body: what it held at (p, q) plus the sum over the block's rows r of the products
    of the projected activations at (r, p) and (r, q). -/
theorem pay14_apply (x : Vec Ideal S10000x128 .f32) (g : Vec Ideal S128x128 .f32) (s : Vec Ideal S10000x128 .f32)
    (b : Vec Ideal S1x128 .f32) (w : Vec Ideal S128x128 .f32) (old : Vec Ideal S1x128x128 .f32) (u : Fin 1) (p q : Fin 128) :
    k1_pay1 (k1_pay4 (F := Ideal) x g s b w old) (ix3 u p q)
      = old (ix3 (0 : Fin 1) p q)
        + ∑ r : Fin 10000, k1_pay3 (F := Ideal) x g s b w (ix2 r p) * k1_pay3 (F := Ideal) x g s b w (ix2 r q) := by
  unfold k1_pay1
  refine (shapeCast_ab_1ab_apply _ _ u p q).trans ?_
  unfold k1_pay4
  simp only [addf_apply]
  rw [shapeCast_1ab_ab_apply, matmul_gram]

/-- The activation and its projection depend on a row of the features and of the aggregate only: on a block whose
    row p is row P of the arrays, the block's product at (p, q) is the arrays' at (P, q). -/
theorem mm_act_rows (X : Mat 100000 128) (G : Mat 128 128) (S : Mat 100000 128) (bf : Fin 128 → EReal) (W : Mat 128 128)
    (x s : Mat 10000 128) (P : Fin 100000) (p : Fin 10000) (q : Fin 128)
    (hx : ∀ k, x (ix2 p k) = X (ix2 P k)) (hs : ∀ k, s (ix2 p k) = S (ix2 P k)) :
    mm (act x G s bf) W (ix2 p q) = mm (act X G S bf) W (ix2 P q) := by
  show ∑ l : Fin 128, act x G s bf (ix2 p l) * W (ix2 l q) = ∑ l : Fin 128, act X G S bf (ix2 P l) * W (ix2 l q)
  refine Finset.sum_congr rfl fun l _ => congrArg (· * W (ix2 l q)) ?_
  show max (((c95 * x (ix2 p l) + s (ix2 p l)) - c05 * ∑ l' : Fin 128, x (ix2 p l') * G (ix2 l' l)) + bf l) 0
    = max (((c95 * X (ix2 P l) + S (ix2 P l)) - c05 * ∑ l' : Fin 128, X (ix2 P l') * G (ix2 l' l)) + bf l) 0
  simp only [hx, hs]

end Payloads

section Blocks

open Cert.Spec

variable (V : (c : Dev nD) → (b : Ref sig .tc) → Buf (Elt Ideal) ((c : Thread nD τ).loc b))

/-- The arrays the region finds: the projected features, the Gram matrix in use, the neighbourhood aggregate, the
    bias row and the next layer's weights; the activation H of the first three with the bias, and its projection Y. -/
abbrev XP (c : Dev nD) : Mat 100000 128 := V c (Pipeline.arrRef spec1 0)
abbrev GM (c : Dev nD) : Mat 128 128 := V c (Pipeline.arrRef spec1 1)
abbrev SM (c : Dev nD) : Mat 100000 128 := V c (Pipeline.arrRef spec1 2)
abbrev BM (c : Dev nD) : Mat 1 128 := V c (Pipeline.arrRef spec1 3)
abbrev WM (c : Dev nD) : Mat 128 128 := V c (Pipeline.arrRef spec1 4)
abbrev YM (c : Dev nD) : Mat 100000 128 :=
  mm (act (XP V c) (GM V c) (SM V c) (fun k => BM V c (ix2 (0 : Fin 1) k))) (WM V c)

/-- The block index maps, decided once over the ten grid points: the three row-blocked windows sit at row block t,
    the whole-array windows at block zero, the accumulator's at half t / 5. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 3) = t.val / 5 ∧ win1_6.index t (1 : Fin 3) = 0 ∧ win1_6.index t (2 : Fin 3) = 0 :=
  (by decide +kernel : ∀ t : Fin grid1.N, _)

/-- Row r of row block b (b < 10) among the 100000 rows. -/
def rowN (b : ℕ) (r : Fin 10000) : Fin 100000 :=
  ⟨(b % 10) * 10000 + r.val, by have := r.isLt; have := Nat.mod_lt b (by decide : 0 < 10); omega⟩

/-- There are ten grid points. -/
theorem tval_lt (t : Fin cfg1.N) : t.val < 10 := lt_of_lt_of_eq t.isLt (show cfg1.N = 10 from N_1)

/-- The features' block at point t is rows 10000·t … of the features. -/
theorem iblk0_apply (c : Dev nD) (t : Fin cfg1.N) (p : Fin 10000) (k : Fin 128) :
    (iblk1 V c 0 t : Vec Ideal S10000x128 .f32) (ix2 p k) = XP V c (ix2 (rowN t.val p) k) := by
  obtain ⟨e0, e1, -⟩ := idx_facts t
  have hN := tval_lt t
  unfold iblk1
  rw [View.read_apply]
  show V c (Pipeline.arrRef spec1 0) (((cfg1.win 0).blk t).view.emb (ix2 p k)) = V c (Pipeline.arrRef spec1 0) (ix2 (rowN t.val p) k)
  refine congrArg (V c (Pipeline.arrRef spec1 0)) (funext fun a => Fin.ext ?_)
  match a with
  | ⟨0, _⟩ => show win1_0.index t (0 : Fin 2) * 10000 + 1 * p.val = (t.val % 10) * 10000 + p.val; rw [e0]; omega
  | ⟨1, _⟩ => show win1_0.index t (1 : Fin 2) * 128 + 1 * k.val = k.val; rw [e1]; omega

/-- The aggregate's block at point t is the same rows of the aggregate. -/
theorem iblk2_apply (c : Dev nD) (t : Fin cfg1.N) (p : Fin 10000) (k : Fin 128) :
    (iblk1 V c 2 t : Vec Ideal S10000x128 .f32) (ix2 p k) = SM V c (ix2 (rowN t.val p) k) := by
  obtain ⟨-, -, -, -, e0, e1, -⟩ := idx_facts t
  have hN := tval_lt t
  unfold iblk1
  rw [View.read_apply]
  show V c (Pipeline.arrRef spec1 2) (((cfg1.win 2).blk t).view.emb (ix2 p k)) = V c (Pipeline.arrRef spec1 2) (ix2 (rowN t.val p) k)
  refine congrArg (V c (Pipeline.arrRef spec1 2)) (funext fun a => Fin.ext ?_)
  match a with
  | ⟨0, _⟩ => show win1_2.index t (0 : Fin 2) * 10000 + 1 * p.val = (t.val % 10) * 10000 + p.val; rw [e0]; omega
  | ⟨1, _⟩ => show win1_2.index t (1 : Fin 2) * 128 + 1 * k.val = k.val; rw [e1]; omega

/-- The Gram matrix, the bias row and the weights are staged whole at every point. -/
theorem iblk1_eq (c : Dev nD) (t : Fin cfg1.N) : (iblk1 V c 1 t : Vec Ideal S128x128 .f32) = GM V c := by
  obtain ⟨-, -, e0, e1, -⟩ := idx_facts t
  refine funext fun (j : S128x128.Idx) => ?_
  unfold iblk1
  rw [View.read_apply]
  show V c (Pipeline.arrRef spec1 1) (((cfg1.win 1).blk t).view.emb j) = V c (Pipeline.arrRef spec1 1) j
  refine congrArg (V c (Pipeline.arrRef spec1 1)) (funext fun a => Fin.ext ?_)
  match a with
  | ⟨0, _⟩ => show win1_1.index t (0 : Fin 2) * 128 + 1 * (j 0).val = (j 0).val; rw [e0]; omega
  | ⟨1, _⟩ => show win1_1.index t (1 : Fin 2) * 128 + 1 * (j 1).val = (j 1).val; rw [e1]; omega

/-- The bias row likewise. -/
theorem iblk3_eq (c : Dev nD) (t : Fin cfg1.N) : (iblk1 V c 3 t : Vec Ideal S1x128 .f32) = BM V c := by
  obtain ⟨-, -, -, -, -, -, e0, e1, -⟩ := idx_facts t
  refine funext fun (j : S1x128.Idx) => ?_
  unfold iblk1
  rw [View.read_apply]
  show V c (Pipeline.arrRef spec1 3) (((cfg1.win 3).blk t).view.emb j) = V c (Pipeline.arrRef spec1 3) j
  refine congrArg (V c (Pipeline.arrRef spec1 3)) (funext fun a => Fin.ext ?_)
  match a with
  | ⟨0, _⟩ => show win1_3.index t (0 : Fin 2) * 1 + 1 * (j 0).val = (j 0).val; rw [e0]; omega
  | ⟨1, _⟩ => show win1_3.index t (1 : Fin 2) * 128 + 1 * (j 1).val = (j 1).val; rw [e1]; omega

/-- The weights likewise. -/
theorem iblk4_eq (c : Dev nD) (t : Fin cfg1.N) : (iblk1 V c 4 t : Vec Ideal S128x128 .f32) = WM V c := by
  obtain ⟨-, -, -, -, -, -, -, -, e0, e1, -⟩ := idx_facts t
  refine funext fun (j : S128x128.Idx) => ?_
  unfold iblk1
  rw [View.read_apply]
  show V c (Pipeline.arrRef spec1 4) (((cfg1.win 4).blk t).view.emb j) = V c (Pipeline.arrRef spec1 4) j
  refine congrArg (V c (Pipeline.arrRef spec1 4)) (funext fun a => Fin.ext ?_)
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

/-- The body's projected activation of the blocks at point t is rows 10000·t … of Y. -/
theorem pay3_blk (c : Dev nD) (t : Fin cfg1.N) (p : Fin 10000) (q : Fin 128) :
    k1_pay3 (F := Ideal) (iblk1 V c 0 t) (iblk1 V c 1 t) (iblk1 V c 2 t) (iblk1 V c 3 t) (iblk1 V c 4 t) (ix2 p q) = YM V c (ix2 (rowN t.val p) q) := by
  refine (pay3_apply (iblk1 V c 0 t) (iblk1 V c 1 t) (iblk1 V c 2 t) (iblk1 V c 3 t) (iblk1 V c 4 t) p q).trans ?_
  rw [iblk1_eq V c t, iblk3_eq V c t, iblk4_eq V c t]
  exact mm_act_rows (XP V c) (GM V c) (SM V c) (fun k => BM V c (ix2 (0 : Fin 1) k)) (WM V c) (iblk1 V c 0 t) (iblk1 V c 2 t)
    (rowN t.val p) p q (fun k => iblk0_apply V c t p k) (fun k => iblk2_apply V c t p k)

end Blocks

section Accumulation

open Cert.Spec

variable (V : (c : Dev nD) → (b : Ref sig .tc) → Buf (Elt Ideal) ((c : Thread nD τ).loc b))

/-- What every point leaves in the row-blocked output's buffer: the projected activation of the point's blocks
    (both cases of the body store the same value there). -/
theorem outs5 (c : Dev nD) (t : Fin cfg1.N) :
    (outsAt1 V c t.val t.isLt).1 = k1_pay3 (F := Ideal) (iblk1 V c 0 t) (iblk1 V c 1 t) (iblk1 V c 2 t) (iblk1 V c 3 t) (iblk1 V c 4 t) := by
  by_cases h0 : t.val % 5 = 0
  · rw [outsAt1_A V c t h0]
    dsimp only
    exact out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)
  · rw [outsAt1_B V c t h0]
    dsimp only
    exact out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2

/-- The Gram contribution of row block b of Y at (p, q): the sum over the block's rows. -/
def blockGram (Y : Mat 100000 128) (b : ℕ) (p q : Fin 128) : EReal :=
  ∑ r : Fin 10000, Y (ix2 (rowN b r) p) * Y (ix2 (rowN b r) q)

/-- At the first point of a half the accumulator is reset, so the body leaves zero plus the block's contribution. -/
theorem outs6_A (c : Dev nD) (t : Fin cfg1.N) (h0 : t.val % 5 = 0) (u : Fin 1) (p q : Fin 128) :
    (outsAt1 V c t.val t.isLt).2 (ix3 u p q) = 0 + blockGram (YM V c) t.val p q := by
  rw [outsAt1_A V c t h0]
  dsimp only
  rw [out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)]
  refine (pay14_apply (iblk1 V c 0 t) (iblk1 V c 1 t) (iblk1 V c 2 t) (iblk1 V c 3 t) (iblk1 V c 4 t) (k1_pay2 (F := Ideal)) u p q).trans ?_
  rw [pay2_apply]
  refine congrArg (0 + ·) ?_
  exact Finset.sum_congr rfl fun r _ => by rw [pay3_blk V c t r p, pay3_blk V c t r q]

/-- At the other points the body adds the block's contribution to what the point before left. -/
theorem outs6_B (c : Dev nD) (t : Fin cfg1.N) (h0 : ¬t.val % 5 = 0) (u : Fin 1) (p q : Fin 128) :
    (outsAt1 V c t.val t.isLt).2 (ix3 u p q)
      = (outsAt1 V c (t.val - 1) (Nat.lt_of_le_of_lt (Nat.sub_le _ _) t.isLt)).2 (ix3 (0 : Fin 1) p q) + blockGram (YM V c) t.val p q := by
  rw [outsAt1_B V c t h0]
  dsimp only
  rw [out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2]
  refine (pay14_apply (iblk1 V c 0 t) (iblk1 V c 1 t) (iblk1 V c 2 t) (iblk1 V c 3 t) (iblk1 V c 4 t) (outsAt1 V c (t.val - 1) (Nat.lt_of_le_of_lt (Nat.sub_le _ _) t.isLt)).2 u p q).trans ?_
  refine congrArg ((outsAt1 V c (t.val - 1) (Nat.lt_of_le_of_lt (Nat.sub_le _ _) t.isLt)).2 (ix3 (0 : Fin 1) p q) + ·) ?_
  exact Finset.sum_congr rfl fun r _ => by rw [pay3_blk V c t r p, pay3_blk V c t r q]

/-- The contributions of the row blocks of point n's half up to and including n's. -/
def partialGram (Y : Mat 100000 128) (n : ℕ) (p q : Fin 128) : EReal :=
  ∑ t' ∈ Finset.range (n % 5 + 1), blockGram Y (n / 5 * 5 + t') p q

/-- At the first block of a half the partial sum is its one term. -/
theorem partial_A (Y : Mat 100000 128) (n : ℕ) (h0 : n % 5 = 0) (p q : Fin 128) :
    0 + blockGram Y n p q = partialGram Y n p q := by
  have e : n / 5 * 5 = n := by omega
  unfold partialGram
  rw [h0, zero_add]
  show blockGram Y n p q = ∑ t' ∈ Finset.range 1, blockGram Y (n / 5 * 5 + t') p q
  rw [Finset.sum_range_one, e, Nat.add_zero]

/-- Within a half the partial sum at the next block is the one before plus the next block's term. -/
theorem partial_B (Y : Mat 100000 128) (m : ℕ) (h0 : ¬(m + 1) % 5 = 0) (p q : Fin 128) :
    partialGram Y m p q + blockGram Y (m + 1) p q = partialGram Y (m + 1) p q := by
  have e1 : (m + 1) % 5 = m % 5 + 1 := by omega
  have e2 : (m + 1) / 5 = m / 5 := by omega
  have e3 : m / 5 * 5 + (m % 5 + 1) = m + 1 := by omega
  unfold partialGram
  rw [e1, e2, Finset.sum_range_succ (fun t' => blockGram Y (m / 5 * 5 + t') p q) (m % 5 + 1), e3]

/-- After point n the accumulator holds the contributions of its half's row blocks up to n's: by induction on the
    point. -/
theorem outs6_inv (c : Dev nD) : ∀ (n : ℕ) (h : n < cfg1.N) (u : Fin 1) (p q : Fin 128),
    (outsAt1 V c n h).2 (ix3 u p q) = partialGram (YM V c) n p q
  | 0, h, u, p, q => (outs6_A V c ⟨0, h⟩ rfl u p q).trans (partial_A _ 0 rfl p q)
  | n + 1, h, u, p, q => by
    by_cases h0 : (n + 1) % 5 = 0
    · exact (outs6_A V c ⟨n + 1, h⟩ h0 u p q).trans (partial_A _ (n + 1) h0 p q)
    · refine (outs6_B V c ⟨n + 1, h⟩ h0 u p q).trans ?_
      show (outsAt1 V c n _).2 (ix3 (0 : Fin 1) p q) + _ = _
      rw [outs6_inv c n _ 0 p q]
      exact partial_B _ n h0 p q

/-- After the last point of a half that is the half's Gram matrix as the specification sums it. -/
theorem partial_full (Y : Mat 100000 128) (n : ℕ) (h4 : n % 5 = 4) (hn : n < 10) (p q : Fin 128) :
    partialGram Y n p q = gramHalf Y (ix3 (⟨n / 5, by omega⟩ : Fin 2) p q) := by
  unfold partialGram
  rw [h4]
  show ∑ t' ∈ Finset.range 5, blockGram Y (n / 5 * 5 + t') p q
    = ∑ t : Fin 5, ∑ r : Fin 10000, Y (ix2 (row (⟨n / 5, by omega⟩ : Fin 2) t r) p) * Y (ix2 (row (⟨n / 5, by omega⟩ : Fin 2) t r) q)
  rw [Finset.sum_range]
  refine Finset.sum_congr rfl fun t _ => ?_
  unfold blockGram
  refine Finset.sum_congr rfl fun r _ => ?_
  have e : rowN (n / 5 * 5 + t.val) r = row (⟨n / 5, by omega⟩ : Fin 2) t r := Fin.ext (by
    show ((n / 5 * 5 + t.val) % 10) * 10000 + r.val = (n / 5 * 5 + t.val) * 10000 + r.val
    have := t.isLt
    omega)
  rw [e]

end Accumulation

section Arrays

open Cert.Spec

variable (V : (c : Dev nD) → (b : Ref sig .tc) → Buf (Elt Ideal) ((c : Thread nD τ).loc b))

/-- The body's projected activation of the blocks at point t, at entry (p, q), is the whole arrays' at row
    10000·t + p: the per-block fact the row-blocked output and the accumulated Gram matrix both rest on. -/
theorem block5 (c : Dev nD) (t : Fin cfg1.N) (p : Fin 10000) (q : Fin 128) :
    k1_pay3 (F := Ideal) (iblk1 V c 0 t) (iblk1 V c 1 t) (iblk1 V c 2 t) (iblk1 V c 3 t) (iblk1 V c 4 t) (ix2 p q)
      = mm (act (V c (Pipeline.arrRef spec1 0) : Mat 100000 128) (V c (Pipeline.arrRef spec1 1) : Mat 128 128)
          (V c (Pipeline.arrRef spec1 2) : Mat 100000 128)
          (fun k => (V c (Pipeline.arrRef spec1 3) : Mat 1 128) (ix2 (0 : Fin 1) k)))
        (V c (Pipeline.arrRef spec1 4) : Mat 128 128)
          (ix2 (⟨t.val * 10000 + p.val, by have := tval_lt t; have := p.isLt; omega⟩ : Fin 100000) q) := by
  have hN := tval_lt t
  have e : rowN t.val p = (⟨t.val * 10000 + p.val, by have := p.isLt; omega⟩ : Fin 100000) :=
    Fin.ext (by show (t.val % 10) * 10000 + p.val = t.val * 10000 + p.val; omega)
  exact (pay3_blk V c t p q).trans (congrArg (fun P => YM V c (ix2 P q)) e)

/-- What point t writes back of the row-blocked output is block t of Y. -/
theorem flushed5_eq (c : Dev nD) (t : Fin cfg1.N) :
    (dat1 V c).flushed 5 t = ((cfg1.win 5).blk t).view.read (Elt Ideal) (YM V c) := by
  obtain ⟨-, -, -, -, -, -, -, -, -, -, e0, e1, -⟩ := idx_facts t
  have hN := tval_lt t
  show (cfg1.win 5).cut (grid1.coords t) ((dat1 V c).after 5 t) = _
  rw [after1_5, outs5 V c t]
  refine funext fun (j : S10000x128.Idx) => ?_
  obtain ⟨p, q, rfl⟩ : ∃ (p : Fin 10000) (q : Fin 128), j = ix2 p q := ⟨j 0, j 1, eq_ix2 j⟩
  show k1_pay3 (F := Ideal) (iblk1 V c 0 t) (iblk1 V c 1 t) (iblk1 V c 2 t) (iblk1 V c 3 t) (iblk1 V c 4 t) (ix2 p q) = YM V c (((cfg1.win 5).blk t).view.emb (ix2 p q))
  have he : ((cfg1.win 5).blk t).view.emb (ix2 p q) = ix2 (rowN t.val p) q := funext fun a => Fin.ext (by
    match a with
    | ⟨0, _⟩ => show win1_5.index t (0 : Fin 2) * 10000 + 1 * p.val = (t.val % 10) * 10000 + p.val; rw [e0]; omega
    | ⟨1, _⟩ => show win1_5.index t (1 : Fin 2) * 128 + 1 * q.val = q.val; rw [e1]; omega)
  rw [he]
  exact pay3_blk V c t p q

/-- An index of the row-blocked output is in point t's block iff each coordinate is in the block's range. -/
theorem mem_blk5 (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v51_0).slice (win1_5.rect t)).set ↔ _
  rw [View.set_slice_whole, Rect.mem_set_unit]
  exact Iff.rfl

/-- Row n of the output is written back by point n / 10000. -/
theorem cover5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 10 := N_1
  have hlt : (i 0).val / 10000 < cfg1.N := by omega
  obtain ⟨-, -, -, -, -, -, -, -, -, -, e0, e1, -⟩ := idx_facts ⟨(i 0).val / 10000, hlt⟩
  refine ⟨⟨(i 0).val / 10000, hlt⟩, flush1_5 _, ?_⟩
  rw [mem_blk5]
  intro a
  match a with
  | ⟨0, _⟩ =>
    show win1_5.index ⟨(i 0).val / 10000, hlt⟩ (0 : Fin 2) * 10000 ≤ (i 0).val ∧ (i 0).val < win1_5.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, hlt⟩ (1 : Fin 2) * 128 ≤ (i 1).val ∧ (i 1).val < win1_5.index ⟨(i 0).val / 10000, hlt⟩ (1 : Fin 2) * 128 + 128
    rw [e1]; omega

/-- What the last point of a half writes back of the accumulator is that half's block of the specification's
    Gram matrix of Y. -/
theorem flushed6_eq (c : Dev nD) (t : Fin cfg1.N) (hf : (cfg1.win 6).flush t = true) :
    (dat1 V c).flushed 6 t = ((cfg1.win 6).blk t).view.read (Elt Ideal) (gramHalf (YM V c)) := by
  have h4 : t.val % 5 = 4 := (flush1_6 t).mp hf
  have hN := tval_lt t
  obtain ⟨-, -, -, -, -, -, -, -, -, -, -, -, e0, e1, e2⟩ := idx_facts t
  show (cfg1.win 6).cut (grid1.coords t) ((dat1 V c).after 6 t) = _
  rw [after1_6]
  refine funext fun (j : S1x128x128.Idx) => ?_
  obtain ⟨u, p, q, rfl⟩ : ∃ (u : Fin 1) (p q : Fin 128), j = ix3 u p q := ⟨j 0, j 1, j 2, eq_ix3 j⟩
  show (outsAt1 V c t.val t.isLt).2 (ix3 u p q) = gramHalf (YM V c) (((cfg1.win 6).blk t).view.emb (ix3 u p q))
  have he : ((cfg1.win 6).blk t).view.emb (ix3 u p q) = ix3 (⟨t.val / 5, by omega⟩ : Fin 2) p q := funext fun a => Fin.ext (by
    match a with
    | ⟨0, _⟩ => show win1_6.index t (0 : Fin 3) * 1 + 1 * u.val = t.val / 5; rw [e0]; omega
    | ⟨1, _⟩ => show win1_6.index t (1 : Fin 3) * 128 + 1 * p.val = p.val; rw [e1]; omega
    | ⟨2, _⟩ => show win1_6.index t (2 : Fin 3) * 128 + 1 * q.val = q.val; rw [e2]; omega)
  rw [he, outs6_inv V c t.val t.isLt u p q]
  exact partial_full (YM V c) t.val h4 hN p q

/-- An index of the accumulated output is in point t's block iff each coordinate is in the block's range. -/
theorem mem_blk6 (t : Fin cfg1.N) (i : S2x128x128.Idx) :
    i ∈ ((cfg1.win 6).blk t).view.set ↔ ∀ a : Fin 3, win1_6.index t a * S1x128x128.size a ≤ (i a).val ∧ (i a).val < win1_6.index t a * S1x128x128.size a + S1x128x128.size a := by
  show i ∈ ((View.whole main_v51_1).slice (win1_6.rect t)).set ↔ _
  rw [View.set_slice_whole, Rect.mem_set_unit]
  exact Iff.rfl

/-- Half h of the accumulated output is written back by point 5·h + 4, the last of that half. -/
theorem cover6 (i : S2x128x128.Idx) :
    ∃ t : Fin cfg1.N, (cfg1.win 6).flush t = true ∧ i ∈ ((cfg1.win 6).blk t).view.set := by
  have hi0 : (i 0).val < 2 := (i 0).isLt
  have hi1 : (i 1).val < 128 := (i 1).isLt
  have hi2 : (i 2).val < 128 := (i 2).isLt
  have hN : cfg1.N = 10 := N_1
  have hlt : (i 0).val * 5 + 4 < cfg1.N := by omega
  obtain ⟨-, -, -, -, -, -, -, -, -, -, -, -, e0, e1, e2⟩ := idx_facts ⟨(i 0).val * 5 + 4, hlt⟩
  refine ⟨⟨(i 0).val * 5 + 4, hlt⟩, (flush1_6 _).mpr (by show ((i 0).val * 5 + 4) % 5 = 4; omega), ?_⟩
  rw [mem_blk6]
  intro a
  match a with
  | ⟨0, _⟩ =>
    show win1_6.index ⟨(i 0).val * 5 + 4, hlt⟩ (0 : Fin 3) * 1 ≤ (i 0).val ∧ (i 0).val < win1_6.index ⟨(i 0).val * 5 + 4, hlt⟩ (0 : Fin 3) * 1 + 1
    rw [e0]; show ((i 0).val * 5 + 4) / 5 * 1 ≤ (i 0).val ∧ (i 0).val < ((i 0).val * 5 + 4) / 5 * 1 + 1; omega
  | ⟨1, _⟩ =>
    show win1_6.index ⟨(i 0).val * 5 + 4, hlt⟩ (1 : Fin 3) * 128 ≤ (i 1).val ∧ (i 1).val < win1_6.index ⟨(i 0).val * 5 + 4, hlt⟩ (1 : Fin 3) * 128 + 128
    rw [e1]; omega
  | ⟨2, _⟩ =>
    show win1_6.index ⟨(i 0).val * 5 + 4, hlt⟩ (2 : Fin 3) * 128 ≤ (i 2).val ∧ (i 2).val < win1_6.index ⟨(i 0).val * 5 + 4, hlt⟩ (2 : Fin 3) * 128 + 128
    rw [e2]; omega

/-- After the region the row-blocked output holds the projection of the first layer's activation: with X the
    projected features, G the Gram matrix in use, S the aggregate, b the bias row and W the weights as the region
    finds them, the array is act X G S b · W. -/
theorem arr5 (c : Dev nD) :
    (dat1 (F := Ideal) V c).arrAt 5 cfg1.N
      = mm (act (V c (Pipeline.arrRef spec1 0) : Mat 100000 128) (V c (Pipeline.arrRef spec1 1) : Mat 128 128)
          (V c (Pipeline.arrRef spec1 2) : Mat 100000 128)
          (fun k => (V c (Pipeline.arrRef spec1 3) : Mat 1 128) (ix2 (0 : Fin 1) k)))
        (V c (Pipeline.arrRef spec1 4) : Mat 128 128) :=
  (dat1 V c).arrAt_eq_of_cover 5 (YM V c) (fun t _ => flushed5_eq V c t) cover5

/-- After the region the accumulated output holds, per half of the rows, the Gram matrix of that projection summed
    block by block. -/
theorem arr6 (c : Dev nD) :
    (dat1 (F := Ideal) V c).arrAt 6 cfg1.N
      = gramHalf (mm (act (V c (Pipeline.arrRef spec1 0) : Mat 100000 128) (V c (Pipeline.arrRef spec1 1) : Mat 128 128)
          (V c (Pipeline.arrRef spec1 2) : Mat 100000 128)
          (fun k => (V c (Pipeline.arrRef spec1 3) : Mat 1 128) (ix2 (0 : Fin 1) k)))
        (V c (Pipeline.arrRef spec1 4) : Mat 128 128)) :=
  (dat1 V c).arrAt_eq_of_cover 6 (gramHalf (YM V c)) (flushed6_eq V c) cover6

end Arrays

end Cert.KernelIdeal.Region1

end
-- ==== Proof.Region2.lean ====
/-
  Region 2 of the kernel: the last layer's combine, the class scores and the row-wise log-softmax, block by block.

  Each grid point t of ten reads rows 10000·t … 10000·t + 9999 of the projected features X and of the neighbourhood
  aggregate S, the whole matrix G, the bias row, the class weights and their bias row, and writes the same rows of the
  result.  Entry (p, q) of what a point writes depends on row p of its blocks only: the activation
      max (((c95·x(p,k) + s(p,k)) − c05·Σ_l x(p,l)·G(l,k)) + b(k)) 0,
  the class scores Σ_k act(p,k)·Wf(k,q) + bf(q), and the log-softmax of row p of those sixteen scores.  Since every
  one of these is a function of one row, a block's result is the restriction of the whole array's result to the
  block's rows; the ten blocks cover the 100000 rows (row r lies in block r / 10000), so the array ends holding the
  whole result.
-/
import proofs.«170132_j54760833024262_2_alg».proof.Proof.Gen.KernelIdeal.Frame
import proofs.«170132_j54760833024262_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Region2

/-! ## The two matrix products at an entry -/

/-- The left operand of the first product at output entry i and contraction position u has i's row. -/
theorem lhsA_0 (i : S10000x128.Idx) (u : dot_S10000x128_S128x128_S10000x128_1_0_0_1_n_n.contr.Idx) :
    (dot_S10000x128_S128x128_S10000x128_1_0_0_1_n_n.lhsIdx i u 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

/-- The right operand of the first product at output entry i and contraction position u has i's column. -/
theorem rhsA_1 (i : S10000x128.Idx) (u : dot_S10000x128_S128x128_S10000x128_1_0_0_1_n_n.contr.Idx) :
    (dot_S10000x128_S128x128_S10000x128_1_0_0_1_n_n.rhsIdx i u 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The product of a [10000,128] block with a [128,128] matrix, accumulated into zero, at entry (p, k): the sum over
    the 128 contraction positions of the products of row p's and column k's entries. -/
theorem mmA_apply (l : FVec Ideal S10000x128 .f32) (r : FVec Ideal S128x128 .f32) (p : Fin 10000) (k : Fin 128) :
    matmul dot_S10000x128_S128x128_S10000x128_1_0_0_1_n_n none l r (constant S10000x128 .f32 0x00000000#32) (ix2 p k)
      = ∑ u : Fin 128, l (ix2 p u) * r (ix2 u k) := by
  simp only [matmul]
  rw [Ideal.matmul_constant_zero_apply,
    ← Equiv.sum_comp (contrEquiv1 dot_S10000x128_S128x128_S10000x128_1_0_0_1_n_n 128 rfl rfl).symm]
  refine Finset.sum_congr rfl fun u _ => ?_
  have hu := contrEquiv1_symm_val dot_S10000x128_S128x128_S10000x128_1_0_0_1_n_n 128 rfl rfl u
  have el : dot_S10000x128_S128x128_S10000x128_1_0_0_1_n_n.lhsIdx (ix2 p k)
      ((contrEquiv1 dot_S10000x128_S128x128_S10000x128_1_0_0_1_n_n 128 rfl rfl).symm u) = ix2 p u :=
    funext fun a => Fin.ext (by
      match a with
      | ⟨0, _⟩ => exact lhsA_0 _ _
      | ⟨1, _⟩ => exact (dot_S10000x128_S128x128_S10000x128_1_0_0_1_n_n.lhsIdx_val_of_single rfl _ _).trans hu)
  have er : dot_S10000x128_S128x128_S10000x128_1_0_0_1_n_n.rhsIdx (ix2 p k)
      ((contrEquiv1 dot_S10000x128_S128x128_S10000x128_1_0_0_1_n_n 128 rfl rfl).symm u) = ix2 u k :=
    funext fun a => Fin.ext (by
      match a with
      | ⟨0, _⟩ => exact (dot_S10000x128_S128x128_S10000x128_1_0_0_1_n_n.rhsIdx_val_of_single rfl _ _).trans hu
      | ⟨1, _⟩ => exact rhsA_1 _ _)
  rw [el, er]

/-- The left operand of the second product at output entry i and contraction position u has i's row. -/
theorem lhsB_0 (i : S10000x16.Idx) (u : dot_S10000x128_S128x16_S10000x16_1_0_0_1_n_n.contr.Idx) :
    (dot_S10000x128_S128x16_S10000x16_1_0_0_1_n_n.lhsIdx i u 0).val = (i 0).val := by
  unfold DotDims.lhsIdx
  rw [dif_neg (show ¬(0 : Fin S10000x128.rank) ∈ dot_S10000x128_S128x16_S10000x16_1_0_0_1_n_n.lhsBatch by decide),
    dif_pos (show (0 : Fin S10000x128.rank) ∈ dot_S10000x128_S128x16_S10000x16_1_0_0_1_n_n.lhsNonContracting by decide)]
  rfl

/-- The right operand of the second product at output entry i and contraction position u has i's column. -/
theorem rhsB_1 (i : S10000x16.Idx) (u : dot_S10000x128_S128x16_S10000x16_1_0_0_1_n_n.contr.Idx) :
    (dot_S10000x128_S128x16_S10000x16_1_0_0_1_n_n.rhsIdx i u 1).val = (i 1).val := by
  unfold DotDims.rhsIdx
  rw [dif_neg (show ¬(1 : Fin S128x16.rank) ∈ dot_S10000x128_S128x16_S10000x16_1_0_0_1_n_n.rhsBatch by decide),
    dif_pos (show (1 : Fin S128x16.rank) ∈ dot_S10000x128_S128x16_S10000x16_1_0_0_1_n_n.rhsNonContracting by decide)]
  rfl

/-- The product of a [10000,128] block with the [128,16] class weights, accumulated into zero, at entry (p, q). -/
theorem mmB_apply (l : FVec Ideal S10000x128 .f32) (r : FVec Ideal S128x16 .f32) (p : Fin 10000) (q : Fin 16) :
    matmul dot_S10000x128_S128x16_S10000x16_1_0_0_1_n_n none l r (constant S10000x16 .f32 0x00000000#32) (ix2 p q)
      = ∑ u : Fin 128, l (ix2 p u) * r (ix2 u q) := by
  simp only [matmul]
  rw [Ideal.matmul_constant_zero_apply,
    ← Equiv.sum_comp (contrEquiv1 dot_S10000x128_S128x16_S10000x16_1_0_0_1_n_n 128 rfl rfl).symm]
  refine Finset.sum_congr rfl fun u _ => ?_
  have hu := contrEquiv1_symm_val dot_S10000x128_S128x16_S10000x16_1_0_0_1_n_n 128 rfl rfl u
  have el : dot_S10000x128_S128x16_S10000x16_1_0_0_1_n_n.lhsIdx (ix2 p q)
      ((contrEquiv1 dot_S10000x128_S128x16_S10000x16_1_0_0_1_n_n 128 rfl rfl).symm u) = ix2 p u :=
    funext fun a => Fin.ext (by
      match a with
      | ⟨0, _⟩ => exact lhsB_0 _ _
      | ⟨1, _⟩ => exact (dot_S10000x128_S128x16_S10000x16_1_0_0_1_n_n.lhsIdx_val_of_single rfl _ _).trans hu)
  have er : dot_S10000x128_S128x16_S10000x16_1_0_0_1_n_n.rhsIdx (ix2 p q)
      ((contrEquiv1 dot_S10000x128_S128x16_S10000x16_1_0_0_1_n_n 128 rfl rfl).symm u) = ix2 u q :=
    funext fun a => Fin.ext (by
      match a with
      | ⟨0, _⟩ => exact (dot_S10000x128_S128x16_S10000x16_1_0_0_1_n_n.rhsIdx_val_of_single rfl _ _).trans hu
      | ⟨1, _⟩ => exact rhsB_1 _ _)
  rw [el, er]

/-! ## The layout operations and the two row reductions at an entry -/

/-- A [10000] vector cast to a [10000,1] column reads, at (p, u), the vector at p. -/
theorem castCol_apply (v : FVec Ideal S10000 .f32) (h : S10000.ShapeCasts S10000x1) (p : Fin 10000) (u : Fin 1) :
    shapeCast S10000x1 v h (ix2 p u) = v (ix1 p) :=
  shapeCast_apply v h (ix2 p u) (ix1 p) (by
    have hu : u.val = 0 := by omega
    rw [Shape.rowMajor_val_one, Shape.rowMajor_val_two]
    show p.val = p.val * 1 + u.val
    omega)

/-- A [10000,1] column broadcast along sixteen columns reads, at (p, q), the column at (p, 0). -/
theorem bcastCol_apply (v : FVec Ideal S10000x1 .f32) (h : S10000x1.Broadcasts S10000x16) (p : Fin 10000) (q : Fin 16) :
    broadcastTo S10000x16 v h (ix2 p q) = v (ix2 p (0 : Fin 1)) := by
  refine broadcastTo_apply v h (ix2 p q) (ix2 p (0 : Fin 1)) fun ax => ?_
  match ax with
  | ⟨0, _⟩ =>
    show p.val = if (10000 : Nat) = 1 then 0 else p.val
    rw [if_neg (by decide)]
  | ⟨1, _⟩ => rfl

/-- The source entry over reduced row p with column t inserted is (p, t). -/
theorem lift_row (h : S10000x16.Reduces [1] S10000) (p : Fin 10000) (t : Fin 16) : h.lift (ix1 p) t = ix2 p t :=
  funext fun a => Fin.ext (by
    match a with
    | ⟨0, _⟩ => rfl
    | ⟨1, _⟩ => rfl)

/-- The maximum over a row's sixteen entries, folded from −∞. -/
theorem rowMax_apply (l : FVec Ideal S10000x16 .f32) (h : S10000x16.Reduces [1] S10000) (hφ : FKind.Formats .f32)
    (hacc : (0xFF800000#32 : BitVec 32) = FKind.maximumf.neutral .f32 hφ) (p : Fin 10000) :
    multiReduction .maximumf [1] S10000 l 0xFF800000#32 h hφ hacc (ix1 p) = Cert.Spec.rowMax (n := 10000) (q := 16) l p := by
  refine (Ideal.multiReduction_maximumf_single l 0xFF800000#32 h hφ hacc (ix1 p)).trans ?_
  unfold Cert.Spec.rowMax
  refine congrArg (fun f => (Finset.univ : Finset (Fin 16)).fold max (Ideal.ofBits .f32 0xFF800000#32) f) ?_
  funext t
  exact congrArg l (lift_row h p t)

/-- The sum over a row's sixteen entries. -/
theorem rowSum_apply (e : FVec Ideal S10000x16 .f32) (h : S10000x16.Reduces [1] S10000) (hφ : FKind.Formats .f32)
    (hacc : (0x00000000#32 : BitVec 32) = FKind.add.neutral .f32 hφ) (p : Fin 10000) :
    multiReduction .add [1] S10000 e 0x00000000#32 h hφ hacc (ix1 p) = ∑ t : Fin 16, e (ix2 p t) := by
  refine (Ideal.multiReduction_add_single e 0x00000000#32 h hφ hacc (ix1 p)).trans ?_
  exact Finset.sum_congr rfl fun t _ => congrArg e (lift_row h p t)

/-! ## The payload in three stages -/

/-- The activation block: the payload's first stage, from the blocks of X and S, the matrix G and the bias row. -/
def hidden (x : Vec Ideal S10000x128 .f32) (g : Vec Ideal S128x128 .f32) (s : Vec Ideal S10000x128 .f32)
    (b : Vec Ideal S1x128 .f32) : FVec Ideal S10000x128 .f32 :=
  have x1 : FVec Ideal S10000x128 .f32 := shapeCast S10000x128 x shapeCasts_S10000x128_S10000x128
  have g1 : FVec Ideal S128x128 .f32 := shapeCast S128x128 g shapeCasts_S128x128_S128x128
  have s1 : FVec Ideal S10000x128 .f32 := shapeCast S10000x128 s shapeCasts_S10000x128_S10000x128
  have b1 : FVec Ideal S1x128 .f32 := shapeCast S1x128 b shapeCasts_S1x128_S1x128
  have xg : FVec Ideal S10000x128 .f32 :=
    matmul dot_S10000x128_S128x128_S10000x128_1_0_0_1_n_n none x1 g1 (constant S10000x128 .f32 0x00000000#32)
  maximumf
    (addf
      (subf
        (addf (mulf (broadcast S10000x128 (Scalar.ofBits (F := Ideal) .f32 0x3F733333#32)) x1) s1)
        (mulf (broadcast S10000x128 (Scalar.ofBits (F := Ideal) .f32 0x3D4CCCCD#32)) xg))
      (broadcastTo S10000x128 b1 broadcasts_S1x128_S10000x128))
    (broadcast S10000x128 (Scalar.ofBits (F := Ideal) .f32 0x00000000#32))

/-- The class scores of a block of activations. -/
def scores (a : FVec Ideal S10000x128 .f32) (w : Vec Ideal S128x16 .f32) (bf : Vec Ideal S1x16 .f32) : FVec Ideal S10000x16 .f32 :=
  have w1 : FVec Ideal S128x16 .f32 := w
  have bf1 : FVec Ideal S1x16 .f32 := shapeCast S1x16 bf shapeCasts_S1x16_S1x16
  addf (matmul dot_S10000x128_S128x16_S10000x16_1_0_0_1_n_n none a w1 (constant S10000x16 .f32 0x00000000#32))
    (broadcastTo S10000x16 bf1 broadcasts_S1x16_S10000x16)

/-- Each entry less its row's maximum. -/
def centred (l : FVec Ideal S10000x16 .f32) : FVec Ideal S10000x16 .f32 :=
  subf l (broadcastTo S10000x16
    (shapeCast S10000x1 (multiReduction .maximumf [1] S10000 l 0xFF800000#32 reduces_S10000x16_S10000 (.inl rfl) rfl) shapeCasts_S10000_S10000x1)
    broadcasts_S10000x1_S10000x16)

/-- Each entry less the logarithm of its row's sum of exponentials. -/
def normalised (d : FVec Ideal S10000x16 .f32) : FVec Ideal S10000x16 .f32 :=
  subf d (broadcastTo S10000x16
    (log (shapeCast S10000x1 (multiReduction .add [1] S10000 (exp d) 0x00000000#32 reduces_S10000x16_S10000 (.inl rfl) rfl) shapeCasts_S10000_S10000x1))
    broadcasts_S10000x1_S10000x16)

/-- The payload is the three stages composed. -/
theorem pay_eq (x : Vec Ideal S10000x128 .f32) (g : Vec Ideal S128x128 .f32) (s : Vec Ideal S10000x128 .f32)
    (b : Vec Ideal S1x128 .f32) (w : Vec Ideal S128x16 .f32) (bf : Vec Ideal S1x16 .f32) :
    k2_pay1 (F := Ideal) x g s b w bf = normalised (centred (scores (hidden x g s b) w bf)) := rfl

/-! ## Each stage at an entry -/

/-- The activation block at (p, k) is the activation of the block's row p at column k. -/
theorem hidden_apply (x : Vec Ideal S10000x128 .f32) (g : Vec Ideal S128x128 .f32) (s : Vec Ideal S10000x128 .f32)
    (b : Vec Ideal S1x128 .f32) (p : Fin 10000) (k : Fin 128) :
    hidden x g s b (ix2 p k) = Cert.Spec.act (n := 10000) x g s (fun k => b (ix2 (0 : Fin 1) k)) (ix2 p k) := by
  simp only [hidden, shapeCast_self, maximumf_apply, addf_apply, subf_apply, mulf_apply, broadcast_apply, mmA_apply,
    broadcastTo_1b_ab_apply, Ideal.ofBits_def, Ideal.ofBits_zero_f32]
  rfl

/-- As functions of the block's index. -/
theorem hidden_eq (x : Vec Ideal S10000x128 .f32) (g : Vec Ideal S128x128 .f32) (s : Vec Ideal S10000x128 .f32)
    (b : Vec Ideal S1x128 .f32) :
    hidden x g s b = Cert.Spec.act (n := 10000) x g s (fun k => b (ix2 (0 : Fin 1) k)) := by
  funext i
  obtain ⟨p, k, rfl⟩ : ∃ (p : Fin 10000) (k : Fin 128), i = ix2 p k := ⟨i 0, i 1, eq_ix2 i⟩
  exact hidden_apply x g s b p k

/-- The class scores at (p, q): row p of the activations against column q of the weights, plus the bias. -/
theorem scores_apply (a : FVec Ideal S10000x128 .f32) (w : Vec Ideal S128x16 .f32) (bf : Vec Ideal S1x16 .f32)
    (p : Fin 10000) (q : Fin 16) :
    scores a w bf (ix2 p q) = Cert.Spec.logits (n := 10000) a w (fun q => bf (ix2 (0 : Fin 1) q)) (ix2 p q) := by
  simp only [scores, shapeCast_self, addf_apply, mmB_apply, broadcastTo_1b_ab_apply]
  rfl

/-- As functions of the block's index. -/
theorem scores_eq (a : FVec Ideal S10000x128 .f32) (w : Vec Ideal S128x16 .f32) (bf : Vec Ideal S1x16 .f32) :
    scores a w bf = Cert.Spec.logits (n := 10000) a w (fun q => bf (ix2 (0 : Fin 1) q)) := by
  funext i
  obtain ⟨p, q, rfl⟩ : ∃ (p : Fin 10000) (q : Fin 16), i = ix2 p q := ⟨i 0, i 1, eq_ix2 i⟩
  exact scores_apply a w bf p q

/-- An entry less its row's maximum. -/
theorem centred_apply (l : FVec Ideal S10000x16 .f32) (p : Fin 10000) (q : Fin 16) :
    centred l (ix2 p q) = l (ix2 p q) - Cert.Spec.rowMax (n := 10000) (q := 16) l p := by
  unfold centred
  rw [subf_apply, bcastCol_apply, castCol_apply]
  exact congrArg (fun m => l (ix2 p q) - m) (rowMax_apply l _ _ _ p)

/-- An entry less the logarithm of its row's sum of exponentials. -/
theorem normalised_apply (d : FVec Ideal S10000x16 .f32) (p : Fin 10000) (q : Fin 16) :
    normalised d (ix2 p q) = d (ix2 p q) - Ideal.log (∑ t : Fin 16, Ideal.exp (d (ix2 p t))) := by
  unfold normalised
  rw [subf_apply, bcastCol_apply]
  show d (ix2 p q) - Ideal.log (shapeCast S10000x1 _ shapeCasts_S10000_S10000x1 (ix2 p (0 : Fin 1))) = _
  rw [castCol_apply]
  exact congrArg (fun m => d (ix2 p q) - Ideal.log m) (rowSum_apply (exp d) _ _ _ p)

/-- What a grid point stores, as a function of its six blocks: the log-softmax of the class scores of the
    activations of the block's rows. -/
theorem pay_fun (x : Vec Ideal S10000x128 .f32) (g : Vec Ideal S128x128 .f32) (s : Vec Ideal S10000x128 .f32)
    (b : Vec Ideal S1x128 .f32) (w : Vec Ideal S128x16 .f32) (bf : Vec Ideal S1x16 .f32) :
    k2_pay1 (F := Ideal) x g s b w bf
      = Cert.Spec.lsm (n := 10000) (q := 16)
          (Cert.Spec.logits (Cert.Spec.act (n := 10000) x g s (fun k => b (ix2 (0 : Fin 1) k))) w (fun q => bf (ix2 (0 : Fin 1) q))) := by
  rw [pay_eq, hidden_eq, scores_eq]
  funext i
  obtain ⟨p, q, rfl⟩ : ∃ (p : Fin 10000) (q : Fin 16), i = ix2 p q := ⟨i 0, i 1, eq_ix2 i⟩
  rw [normalised_apply]
  simp only [centred_apply]
  rfl

/-! ## One row of the result depends on one row of X and of S -/

/-- If row p of the blocks x and s is row r of the arrays X and S, then row p of the block's result is row r of
    the arrays' result: the activation, the class scores and the log-softmax each read one row. -/
theorem row_local (X S : Cert.Spec.Mat 100000 128) (x s : Cert.Spec.Mat 10000 128) (G : Cert.Spec.Mat 128 128)
    (B : Fin 128 → EReal) (Wf : Cert.Spec.Mat 128 16) (Bf : Fin 16 → EReal) (p : Fin 10000) (r : Fin 100000)
    (hx : ∀ k : Fin 128, x (ix2 p k) = X (ix2 r k)) (hs : ∀ k : Fin 128, s (ix2 p k) = S (ix2 r k)) (q : Fin 16) :
    Cert.Spec.lsm (Cert.Spec.logits (Cert.Spec.act x G s B) Wf Bf) (ix2 p q)
      = Cert.Spec.lsm (Cert.Spec.logits (Cert.Spec.act X G S B) Wf Bf) (ix2 r q) := by
  have ha : ∀ k : Fin 128, Cert.Spec.act x G s B (ix2 p k) = Cert.Spec.act X G S B (ix2 r k) := fun k => by
    show max (((Cert.Spec.c95 * x (ix2 p k) + s (ix2 p k)) - Cert.Spec.c05 * ∑ l : Fin 128, x (ix2 p l) * G (ix2 l k)) + B k) 0
      = max (((Cert.Spec.c95 * X (ix2 r k) + S (ix2 r k)) - Cert.Spec.c05 * ∑ l : Fin 128, X (ix2 r l) * G (ix2 l k)) + B k) 0
    simp only [hx, hs]
  have hl : ∀ t : Fin 16, Cert.Spec.logits (Cert.Spec.act x G s B) Wf Bf (ix2 p t)
      = Cert.Spec.logits (Cert.Spec.act X G S B) Wf Bf (ix2 r t) := fun t => by
    show (∑ l : Fin 128, Cert.Spec.act x G s B (ix2 p l) * Wf (ix2 l t)) + Bf t
      = (∑ l : Fin 128, Cert.Spec.act X G S B (ix2 r l) * Wf (ix2 l t)) + Bf t
    simp only [ha]
  have hm : Cert.Spec.rowMax (Cert.Spec.logits (Cert.Spec.act x G s B) Wf Bf) p
      = Cert.Spec.rowMax (Cert.Spec.logits (Cert.Spec.act X G S B) Wf Bf) r := by
    unfold Cert.Spec.rowMax
    simp only [hl]
  show (Cert.Spec.logits (Cert.Spec.act x G s B) Wf Bf (ix2 p q) - Cert.Spec.rowMax (Cert.Spec.logits (Cert.Spec.act x G s B) Wf Bf) p)
        - Ideal.log (∑ t : Fin 16, Ideal.exp (Cert.Spec.logits (Cert.Spec.act x G s B) Wf Bf (ix2 p t) - Cert.Spec.rowMax (Cert.Spec.logits (Cert.Spec.act x G s B) Wf Bf) p))
      = (Cert.Spec.logits (Cert.Spec.act X G S B) Wf Bf (ix2 r q) - Cert.Spec.rowMax (Cert.Spec.logits (Cert.Spec.act X G S B) Wf Bf) r)
        - Ideal.log (∑ t : Fin 16, Ideal.exp (Cert.Spec.logits (Cert.Spec.act X G S B) Wf Bf (ix2 r t) - Cert.Spec.rowMax (Cert.Spec.logits (Cert.Spec.act X G S B) Wf Bf) r))
  simp only [hl, hm]

/-! ## From the blocks to the array -/

/-- The block's entry at block index y and the array's entry at array index i agree when y's row of the row-blocked
    inputs is i's row of their arrays, the whole-array inputs are their arrays, and the columns agree. -/
theorem block_entry (x s : Cert.Spec.Mat 10000 128) (g : Cert.Spec.Mat 128 128) (b : Cert.Spec.Mat 1 128)
    (w : Cert.Spec.Mat 128 16) (bf : Cert.Spec.Mat 1 16)
    (X S : Cert.Spec.Mat 100000 128) (G : Cert.Spec.Mat 128 128) (B : Cert.Spec.Mat 1 128)
    (Wf : Cert.Spec.Mat 128 16) (Bf : Cert.Spec.Mat 1 16)
    (hg : g = G) (hb : b = B) (hw : w = Wf) (hbf : bf = Bf)
    (y : S10000x16.Idx) (i : S100000x16.Idx)
    (hx : ∀ k : Fin 128, x (ix2 (y 0) k) = X (ix2 (i 0) k)) (hs : ∀ k : Fin 128, s (ix2 (y 0) k) = S (ix2 (i 0) k))
    (h1 : (i 1).val = (y 1).val) :
    Cert.Spec.lsm (Cert.Spec.logits (Cert.Spec.act x g s (fun k => b (ix2 (0 : Fin 1) k))) w (fun q => bf (ix2 (0 : Fin 1) q))) y
      = Cert.Spec.lsm (Cert.Spec.logits (Cert.Spec.act X G S (fun k => B (ix2 (0 : Fin 1) k))) Wf (fun q => Bf (ix2 (0 : Fin 1) q))) i := by
  obtain ⟨p, q, rfl⟩ : ∃ (p : Fin 10000) (q : Fin 16), y = ix2 p q := ⟨y 0, y 1, eq_ix2 y⟩
  obtain ⟨r, q', rfl⟩ : ∃ (r : Fin 100000) (q' : Fin 16), i = ix2 r q' := ⟨i 0, i 1, eq_ix2 i⟩
  obtain rfl : q' = q := Fin.ext h1
  subst hg hb hw hbf
  exact row_local X S x s g (fun k => b (ix2 (0 : Fin 1) k)) w (fun q => bf (ix2 (0 : Fin 1) q)) p r hx hs q'

section Blocks

variable (V : (c : Dev nD) → (b : Ref sig .tc) → Buf (Elt Ideal) ((c : Thread nD τ).loc b))

theorem hz2 : (![0, 0] : Fin 2 → Nat) = fun _ => 0 := funext fun a => by fin_cases a <;> rfl

/-- The region's result as one function of the arrays it finds: the log-softmax of the class scores of the activations. -/
def result (c : Dev nD) : Cert.Spec.Mat 100000 16 :=
  Cert.Spec.lsm (Cert.Spec.logits
    (Cert.Spec.act (V c (Pipeline.arrRef spec2 0) : Cert.Spec.Mat 100000 128) (V c (Pipeline.arrRef spec2 1) : Cert.Spec.Mat 128 128)
      (V c (Pipeline.arrRef spec2 2) : Cert.Spec.Mat 100000 128) (fun k => (V c (Pipeline.arrRef spec2 3) : Cert.Spec.Mat 1 128) (ix2 (0 : Fin 1) k)))
    (V c (Pipeline.arrRef spec2 4) : Cert.Spec.Mat 128 16) (fun q => (V c (Pipeline.arrRef spec2 5) : Cert.Spec.Mat 1 16) (ix2 (0 : Fin 1) q)))

/-- The windows' index maps over the ten grid points: the row-blocked windows move with the output's row block, which is
    the point's number; the whole-array windows stay at block (0, 0). -/
theorem idx_facts : ∀ t : Fin cfg2.N,
    win2_6.index t (0 : Fin 2) = t.val ∧ win2_6.index t (1 : Fin 2) = 0
    ∧ win2_0.index t (0 : Fin 2) = t.val ∧ win2_0.index t (1 : Fin 2) = 0
    ∧ win2_2.index t (0 : Fin 2) = t.val ∧ win2_2.index t (1 : Fin 2) = 0
    ∧ win2_1.index t (0 : Fin 2) = 0 ∧ win2_1.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row p of point t's block of X is row 10000·t + p of X. -/
theorem blk0_apply (c : Dev nD) (t : Fin cfg2.N) (p : Fin 10000) (k : Fin 128) (r : Fin 100000)
    (hr : r.val = t.val * 10000 + p.val) :
    (iblk2 V c 0 t : Cert.Spec.Mat 10000 128) (ix2 p k) = (V c (Pipeline.arrRef spec2 0) : Cert.Spec.Mat 100000 128) (ix2 r k) := by
  obtain ⟨-, -, e0, e1, -⟩ := idx_facts t
  unfold iblk2
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 10000 + 1 * p.val = r.val; omega
  | ⟨1, _⟩ => show win2_0.index t (1 : Fin 2) * 128 + 1 * k.val = k.val; omega

/-- Row p of point t's block of S is row 10000·t + p of S. -/
theorem blk2_apply (c : Dev nD) (t : Fin cfg2.N) (p : Fin 10000) (k : Fin 128) (r : Fin 100000)
    (hr : r.val = t.val * 10000 + p.val) :
    (iblk2 V c 2 t : Cert.Spec.Mat 10000 128) (ix2 p k) = (V c (Pipeline.arrRef spec2 2) : Cert.Spec.Mat 100000 128) (ix2 r k) := by
  obtain ⟨-, -, -, -, e0, e1, -⟩ := idx_facts t
  unfold iblk2
  show V c (Pipeline.arrRef spec2 2) (((cfg2.win 2).blk t).view.emb (ix2 p k)) = V c (Pipeline.arrRef spec2 2) (ix2 r k)
  refine congrArg _ (funext fun a => Fin.ext ?_)
  match a with
  | ⟨0, _⟩ => show win2_2.index t (0 : Fin 2) * 10000 + 1 * p.val = r.val; omega
  | ⟨1, _⟩ => show win2_2.index t (1 : Fin 2) * 128 + 1 * k.val = k.val; omega

/-- The block of G at every point is G. -/
theorem blk1_eq (c : Dev nD) (t : Fin cfg2.N) :
    (iblk2 V c 1 t : Cert.Spec.Mat 128 128) = (V c (Pipeline.arrRef spec2 1) : Cert.Spec.Mat 128 128) := by
  obtain ⟨-, -, -, -, -, -, e0, e1, -⟩ := idx_facts t
  funext y
  unfold iblk2
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The block of the bias row at every point is the bias row. -/
theorem blk3_eq (c : Dev nD) (t : Fin cfg2.N) :
    (iblk2 V c 3 t : Cert.Spec.Mat 1 128) = (V c (Pipeline.arrRef spec2 3) : Cert.Spec.Mat 1 128) := by
  obtain ⟨-, -, -, -, -, -, -, -, e0, e1, -⟩ := idx_facts t
  funext y
  unfold iblk2
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The block of the class weights at every point is the class weights. -/
theorem blk4_eq (c : Dev nD) (t : Fin cfg2.N) :
    (iblk2 V c 4 t : Cert.Spec.Mat 128 16) = (V c (Pipeline.arrRef spec2 4) : Cert.Spec.Mat 128 16) := by
  obtain ⟨-, -, -, -, -, -, -, -, -, -, e0, e1, -⟩ := idx_facts t
  funext y
  unfold iblk2
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 16 + 1 * (y 1).val = (y 1).val; omega

/-- The block of the class bias row at every point is the class bias row. -/
theorem blk5_eq (c : Dev nD) (t : Fin cfg2.N) :
    (iblk2 V c 5 t : Cert.Spec.Mat 1 16) = (V c (Pipeline.arrRef spec2 5) : Cert.Spec.Mat 1 16) := by
  obtain ⟨-, -, -, -, -, -, -, -, -, -, -, -, e0, e1⟩ := idx_facts t
  funext y
  unfold iblk2
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 16 + 1 * (y 1).val = (y 1).val; omega

/-- What point t writes back is block t of the result. -/
theorem flushed_eq (c : Dev nD) (t : Fin cfg2.N) :
    (dat2 (F := Ideal) V c).flushed 6 t = ((cfg2.win 6).blk t).view.read (Elt Ideal) (result V c) := by
  show (cfg2.win 6).cut (grid2.coords t) ((dat2 (F := Ideal) V c).after 6 t) = _
  rw [after2_6]
  unfold out2_6
  rw [View.canon_unit_zero hz2]
  simp only [View.ld_unit_zero (S := S10000x128) hz2, View.ld_unit_zero (S := S128x128) hz2, View.ld_unit_zero (S := S1x128) hz2,
    View.ld_unit_zero (S := S128x16) hz2, View.ld_unit_zero (S := S1x16) hz2]
  rw [pay_fun (iblk2 V c 0 t) (iblk2 V c 1 t) (iblk2 V c 2 t) (iblk2 V c 3 t) (iblk2 V c 4 t) (iblk2 V c 5 t)]
  obtain ⟨e0, e1, -⟩ := idx_facts t
  funext j
  have hj0 : (j 0).val < 10000 := (j 0).isLt
  have hj1 : (j 1).val < 16 := (j 1).isLt
  have hr : ((((cfg2.win 6).blk t).view.emb j) 0).val = t.val * 10000 + (j 0).val := by
    show win2_6.index t (0 : Fin 2) * 10000 + 1 * (j 0).val = t.val * 10000 + (j 0).val
    omega
  refine block_entry (iblk2 V c 0 t) (iblk2 V c 2 t) (iblk2 V c 1 t) (iblk2 V c 3 t) (iblk2 V c 4 t) (iblk2 V c 5 t)
    (V c (Pipeline.arrRef spec2 0)) (V c (Pipeline.arrRef spec2 2)) (V c (Pipeline.arrRef spec2 1)) (V c (Pipeline.arrRef spec2 3))
    (V c (Pipeline.arrRef spec2 4)) (V c (Pipeline.arrRef spec2 5))
    (blk1_eq V c t) (blk3_eq V c t) (blk4_eq V c t) (blk5_eq V c t)
    ((cfg2.win 6).xinj (grid2.coords t) j) (((cfg2.win 6).blk t).view.emb j)
    (fun k => blk0_apply V c t ⟨(j 0).val, hj0⟩ k ((((cfg2.win 6).blk t).view.emb j) 0) hr)
    (fun k => blk2_apply V c t ⟨(j 0).val, hj0⟩ k ((((cfg2.win 6).blk t).view.emb j) 0) hr)
    ?_
  show win2_6.index t (1 : Fin 2) * 16 + 1 * (j 1).val = (j 1).val
  omega

/-- An index of the array is in point t's block iff each coordinate is in the block's range on its axis. -/
theorem mem_blk (t : Fin cfg2.N) (i : S100000x16.Idx) :
    i ∈ ((cfg2.win 6).blk t).view.set ↔ ∀ a : Fin 2, win2_6.index t a * S10000x16.size a ≤ (i a).val
      ∧ (i a).val < win2_6.index t a * S10000x16.size a + S10000x16.size a := by
  show i ∈ ((View.whole main_v68).slice (win2_6.rect t)).set ↔ _
  rw [View.set_slice_whole, Rect.mem_set_unit]
  exact Iff.rfl

/-- Every row lies in the block of the point numbered by its quotient by 10000. -/
theorem cover (i : S100000x16.Idx) : ∃ t : Fin cfg2.N, (cfg2.win 6).flush t = true ∧ i ∈ ((cfg2.win 6).blk t).view.set := by
  have hi0 : (i 0).val < 100000 := (i 0).isLt
  have hi1 : (i 1).val < 16 := (i 1).isLt
  have hN : grid2.N = 10 := N_2
  obtain ⟨t, ht⟩ : ∃ t : Fin cfg2.N, t.val = (i 0).val / 10000 := ⟨⟨(i 0).val / 10000, by show _ < grid2.N; omega⟩, rfl⟩
  obtain ⟨e0, e1, -⟩ := idx_facts t
  refine ⟨t, flush2_6 t, ?_⟩
  rw [mem_blk]
  intro a
  match a with
  | ⟨0, _⟩ =>
    show win2_6.index t (0 : Fin 2) * 10000 ≤ (i 0).val ∧ (i 0).val < win2_6.index t (0 : Fin 2) * 10000 + 10000
    omega
  | ⟨1, _⟩ =>
    show win2_6.index t (1 : Fin 2) * 16 ≤ (i 1).val ∧ (i 1).val < win2_6.index t (1 : Fin 2) * 16 + 16
    omega

/-- The array the region leaves in its output window: the log-softmax of the class scores of the activations, of the
    arrays the region found. -/
theorem arr6 (c : Dev nD) : (dat2 (F := Ideal) V c).arrAt 6 cfg2.N
    = Cert.Spec.lsm (Cert.Spec.logits
        (Cert.Spec.act (V c (Pipeline.arrRef spec2 0) : Cert.Spec.Mat 100000 128) (V c (Pipeline.arrRef spec2 1) : Cert.Spec.Mat 128 128)
          (V c (Pipeline.arrRef spec2 2) : Cert.Spec.Mat 100000 128) (fun k => (V c (Pipeline.arrRef spec2 3) : Cert.Spec.Mat 1 128) (ix2 (0 : Fin 1) k)))
        (V c (Pipeline.arrRef spec2 4) : Cert.Spec.Mat 128 16) (fun q => (V c (Pipeline.arrRef spec2 5) : Cert.Spec.Mat 1 16) (ix2 (0 : Fin 1) q))) :=
  (dat2 (F := Ideal) V c).arrAt_eq_of_cover 6 (result V c) (fun t _ => flushed_eq V c t) cover

end Blocks

end Cert.KernelIdeal.Region2

end
-- ==== Proof.Algebra.lean ====
/-
  Regrouping the rows.  A sum over the 100000 rows equals the sum over the two halves, the five row blocks of a half and
  the 10000 rows of a block, because the map (c, t, r) ↦ (5c + t)·10000 + r is a bijection onto the rows and a finite
  sum of extended reals may be reindexed and nested freely (addition is commutative and associative there, whatever
  the values).  Hence the Gram matrix of a 100000-row matrix is the sum of the two halves' Gram matrices.
-/
import proofs.«170132_j54760833024262_2_alg».proof.Proof.Spec
import Mathlib.Logic.Equiv.Fin.Basic
import Mathlib.Algebra.BigOperators.Fin

noncomputable section

open scoped BigOperators
open Idealize.ShloMosaic Idealize.ShloMosaic.ValueIdx

namespace Cert.Algebra

open Cert.Spec

/-- A sum over a·b consecutive positions is the sum over a blocks of b positions each. -/
theorem sum_blocks {A B : ℕ} (h : Fin (A * B) → EReal) :
    ∑ n : Fin (A * B), h n = ∑ a : Fin A, ∑ b : Fin B, h (finProdFinEquiv (a, b)) := by
  rw [← Equiv.sum_comp finProdFinEquiv h, Fintype.sum_prod_type]

/-- The sum over all rows, regrouped as halves, blocks and rows of a block. -/
theorem sum_rows (f : Fin 100000 → EReal) :
    ∑ c : Fin 2, ∑ t : Fin 5, ∑ r : Fin 10000, f (row c t r) = ∑ n : Fin 100000, f n := by
  have h1 : ∑ n : Fin 100000, f n = ∑ n : Fin (2 * 50000), f (Fin.cast (by norm_num) n) :=
    (Equiv.sum_comp (finCongr (by norm_num : 2 * 50000 = 100000)) f).symm
  rw [h1, sum_blocks]
  refine Finset.sum_congr rfl fun c _ => ?_
  have h2 : ∑ b : Fin 50000, f (Fin.cast (by norm_num) (finProdFinEquiv (c, b)))
      = ∑ b : Fin (5 * 10000), f (Fin.cast (by norm_num) (finProdFinEquiv (c, (Fin.cast (by norm_num) b : Fin 50000)))) :=
    (Equiv.sum_comp (finCongr (by norm_num : 5 * 10000 = 50000))
      (fun b : Fin 50000 => f (Fin.cast (by norm_num) (finProdFinEquiv (c, b))))).symm
  rw [h2, sum_blocks]
  refine Finset.sum_congr rfl fun t _ => Finset.sum_congr rfl fun r _ => ?_
  refine congrArg f (Fin.ext ?_)
  simp only [row, finProdFinEquiv_apply_val, Fin.val_cast, Fin.coe_cast]
  ring

/-- The Gram matrix is the sum of the two halves' Gram matrices, the sum started from zero. -/
theorem gram_eq_halves (X : Mat 100000 128) (p q : Fin 128) :
    (0 : EReal) + ∑ c : Fin 2, gramHalf X (ix3 c p q) = gram X (ix2 p q) := by
  rw [zero_add]
  exact sum_rows fun n => X (ix2 n p) * X (ix2 n q)

/-- The network written with its two aggregates named: any two matrices that are 0.1 times the aggregates of the two
    layers' projected features give the network's value. -/
theorem net_of (agg : Mat 100000 128 → Mat 100000 128) (X : Mat 100000 256) (W1 : Mat 256 128) (b1 : Fin 128 → EReal)
    (W2 : Mat 128 128) (b2 : Fin 128 → EReal) (Wf : Mat 128 16) (bf : Fin 16 → EReal) (S1 S2 : Mat 100000 128)
    (h1 : S1 = fun i => c10 * agg (mm X W1) i)
    (h2 : S2 = fun i => c10 * agg (mm (act (mm X W1) (gram (mm X W1)) S1 b1) W2) i) :
    lsm (logits (act (mm (act (mm X W1) (gram (mm X W1)) S1 b1) W2)
      (gram (mm (act (mm X W1) (gram (mm X W1)) S1 b1) W2)) S2 b2) Wf bf) = net agg X W1 b1 W2 b2 Wf bf := by
  subst h1
  subst h2
  rfl

end Cert.Algebra

end
-- ==== Proof.KernelHost.lean ====
/-
  The kernel program's host operations, read boundary by boundary.  Between the three kernel calls the program computes
  the edge data (sources, targets, edge weights scaled by 0.1), sums each call's two partial Gram matrices, aggregates
  each layer's projected features over the graph, and reshapes the bias vectors into rows.  Each lemma here says what one
  buffer holds at one boundary, in terms of the arguments and of the kernel calls' output arrays.
-/
import proofs.«170132_j54760833024262_2_alg».proof.Proof.Gen.KernelIdeal.Frame
import proofs.«170132_j54760833024262_2_alg».proof.Proof.GlueKernel
import proofs.«170132_j54760833024262_2_alg».proof.Proof.KernelStretch
import proofs.«170132_j54760833024262_2_alg».proof.Proof.KernelLayout
import proofs.«170132_j54760833024262_2_alg».proof.Proof.Region0
import proofs.«170132_j54760833024262_2_alg».proof.Proof.Region1
import proofs.«170132_j54760833024262_2_alg».proof.Proof.Region2
import proofs.«170132_j54760833024262_2_alg».proof.Proof.Algebra
import Idealize.ShloMosaic.Lib.StableHlo.Run
import Idealize.ShloMosaic.Lib.ValueIdx

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The edge list as launched. -/
abbrev edges : IVec S2x800000 32 := m ((c.tc : Thread nD τ).loc main_arg1)

/-! ## After the first stretch: sources, targets, the ones, the degree test and the inverse square roots -/

theorem w1_v3 : W1 m ρ c (Proc.devRef .tc main_v3) = Glue.src (edges m c) := by
  show StableHlo.after hostOps0 (W0 m ρ c) _ = _
  after_results
  rfl

theorem w1_v6 : W1 m ρ c (Proc.devRef .tc main_v6) = Glue.dst (edges m c) := by
  show StableHlo.after hostOps0 (W0 m ρ c) _ = _
  after_results
  rfl

theorem w1_v7 : W1 m ρ c (Proc.devRef .tc main_v7) = Glue.ones9 := by
  show StableHlo.after hostOps0 (W0 m ρ c) _ = _
  after_results
  rfl

theorem w1_v12 : W1 m ρ c (Proc.devRef .tc main_v12)
    = cmpf .ogt (Glue.deg (edges m c)) (broadcastInDim S100000 ![] Facts₀.bcast_S_S100000 (constant (F := Ideal) S_ .f32 0x00000000#32)) := by
  show StableHlo.after hostOps0 (W0 m ρ c) _ = _
  after_results
  rfl

theorem w1_v15 : W1 m ρ c (Proc.devRef .tc main_v15)
    = Host.rsqrt (maximumf (Glue.deg (edges m c)) (broadcastInDim S100000 ![] Facts₀.bcast_S_S100000 (constant (F := Ideal) S_ .f32 0x3F800000#32))) := by
  show StableHlo.after hostOps0 (W0 m ρ c) _ = _
  after_results
  rfl

theorem w1_cst3 : W1 m ρ c (Proc.devRef .tc main_cst_3) = constant (F := Ideal) S_ .f32 0x00000000#32 := by
  show StableHlo.after hostOps0 (W0 m ρ c) _ = _
  after_results <;> rfl

/-! ## The outlined select, and the stretch after it, from any contents -/

theorem where_v16 (V : Valuation τ sig (Elt Ideal)) (a : IVec S100000 1) (b : FVec Ideal S100000 .f32) (z : FVec Ideal S_ .f32)
    (ha : V (Proc.devRef .tc main_v12) = a) (hb : V (Proc.devRef .tc main_v15) = b) (hz : V (Proc.devRef .tc main_cst_3) = z) :
    StableHlo.after hostOps0_1 V (Proc.devRef .tc main_v16)
      = select a b (broadcastInDim S100000 ![] Facts₀.bcast_S_S100000 (id z)) := by
  subst ha hb hz
  after_results
  rfl

theorem where_keep (V : Valuation τ sig (Elt Ideal)) (b : Ref sig .tc) (hb : b = main_v3 ∨ b = main_v6 ∨ b = main_v7) :
    StableHlo.after hostOps0_1 V (Proc.devRef .tc b) = V (Proc.devRef .tc b) := by
  rcases hb with rfl | rfl | rfl <;> (after_results <;> rfl)

theorem w2_v16 : W2 m ρ c (Proc.devRef .tc main_v16) = Glue.dinv (edges m c) :=
  where_v16 (W1 m ρ c) _ _ _ (w1_v12 m ρ c) (w1_v15 m ρ c) (w1_cst3 m ρ c)

theorem w2_v3 : W2 m ρ c (Proc.devRef .tc main_v3) = Glue.src (edges m c) :=
  (where_keep (W1 m ρ c) main_v3 (.inl rfl)).trans (w1_v3 m ρ c)
theorem w2_v6 : W2 m ρ c (Proc.devRef .tc main_v6) = Glue.dst (edges m c) :=
  (where_keep (W1 m ρ c) main_v6 (.inr (.inl rfl))).trans (w1_v6 m ρ c)
theorem w2_v7 : W2 m ρ c (Proc.devRef .tc main_v7) = Glue.ones9 :=
  (where_keep (W1 m ρ c) main_v7 (.inr (.inr rfl))).trans (w1_v7 m ρ c)

/-- The edge weights with the factor 0.1 folded in. -/
abbrev weff : FVec Ideal S900000 .f32 :=
  mulf (broadcastInDim S900000 ![] Facts₀.bcast_S_S900000 (constant (F := Ideal) S_ .f32 0x3DCCCCCD#32)) (Glue.wnorm (edges m c))

set_option maxHeartbeats 4000000 in
theorem entry_v34 (V : Valuation τ sig (Elt Ideal)) (d : FVec Ideal S100000 .f32) (s t : IVec S900000 32) (o : FVec Ideal S900000 .f32)
    (hd : V (Proc.devRef .tc main_v16) = d) (hs : V (Proc.devRef .tc main_v3) = s) (ht : V (Proc.devRef .tc main_v6) = t)
    (ho : V (Proc.devRef .tc main_v7) = o) :
    StableHlo.after hostOps0_2 V (Proc.devRef .tc main_v34)
      = mulf (broadcastInDim S900000 ![] Facts₀.bcast_S_S900000 (constant (F := Ideal) S_ .f32 0x3DCCCCCD#32))
          (mulf (mulf (Host.gather gather_S100000_S900000x1_S900000_n_0_n_n_0_1_1 d (Glue.col1 (Glue.wrap s))) o)
            (Host.gather gather_S100000_S900000x1_S900000_n_0_n_n_0_1_1 d (Glue.col1 (Glue.wrap t)))) := by
  subst hd hs ht ho
  after_results
  rfl

theorem w3_v34 : W3 m ρ c (Proc.devRef .tc main_v34) = weff m c :=
  entry_v34 (W2 m ρ c) _ _ _ _ (w2_v16 m ρ c) (w2_v3 m ρ c) (w2_v6 m ρ c) (w2_v7 m ρ c)

theorem w3_v3 : W3 m ρ c (Proc.devRef .tc main_v3) = Glue.src (edges m c) := by
  show StableHlo.after hostOps0_2 (StableHlo.after hostOps0_1 (StableHlo.after hostOps0 (W0 m ρ c))) _ = _
  after_results
  rfl

theorem w3_v6 : W3 m ρ c (Proc.devRef .tc main_v6) = Glue.dst (edges m c) := by
  show StableHlo.after hostOps0_2 (StableHlo.after hostOps0_1 (StableHlo.after hostOps0 (W0 m ρ c))) _ = _
  after_results
  rfl

/-- No host operation before the first kernel call writes an argument. -/
theorem w3_arg (b : Ref sig .tc) (hb : b = main_arg0 ∨ b = main_arg2 ∨ b = main_arg3 ∨ b = main_arg4 ∨ b = main_arg5 ∨ b = main_arg6 ∨ b = main_arg7) :
    W3 m ρ c (Proc.devRef .tc b) = m ((c.tc : Thread nD τ).loc b) := by
  show StableHlo.after hostOps0_2 (StableHlo.after hostOps0_1 (StableHlo.after hostOps0 (W0 m ρ c))) _ = _
  rcases hb with rfl | rfl | rfl | rfl | rfl | rfl | rfl <;> (after_results_simp <;> rfl)

/-! ## The arguments as matrices and vectors -/

abbrev argX : Cert.Spec.Mat 100000 256 := m ((c.tc : Thread nD τ).loc main_arg0)
abbrev argW1 : Cert.Spec.Mat 256 128 := m ((c.tc : Thread nD τ).loc main_arg2)
abbrev argb1 : FVec Ideal S128 .f32 := m ((c.tc : Thread nD τ).loc main_arg3)
abbrev argW2 : Cert.Spec.Mat 128 128 := m ((c.tc : Thread nD τ).loc main_arg4)
abbrev argb2 : FVec Ideal S128 .f32 := m ((c.tc : Thread nD τ).loc main_arg5)
abbrev argWf : Cert.Spec.Mat 128 16 := m ((c.tc : Thread nD τ).loc main_arg6)
abbrev argbf : FVec Ideal S16 .f32 := m ((c.tc : Thread nD τ).loc main_arg7)

/-! ## Across the first kernel call -/

/-- Layer 1's projected features. -/
abbrev P1 : Cert.Spec.Mat 100000 128 := Cert.Spec.mm (argX m c) (argW1 m c)

theorem w4_v35_0 : W4 m ρ c (Proc.devRef .tc main_v35_0) = P1 m c := by
  refine (W4_arr m ρ c 2).trans ((Cert.KernelIdeal.Region0.arr2 (V3 m ρ) c).trans ?_)
  show Cert.Spec.mm (W3 m ρ c (Proc.devRef .tc main_arg0)) (W3 m ρ c (Proc.devRef .tc main_arg2)) = _
  rw [w3_arg m ρ c main_arg0 (.inl rfl), w3_arg m ρ c main_arg2 (.inr (.inl rfl))]

theorem w4_v35_1 : W4 m ρ c (Proc.devRef .tc main_v35_1) = Cert.Spec.gramHalf (P1 m c) := by
  refine (W4_arr m ρ c 3).trans ((Cert.KernelIdeal.Region0.arr3 (V3 m ρ) c).trans ?_)
  show Cert.Spec.gramHalf (Cert.Spec.mm (W3 m ρ c (Proc.devRef .tc main_arg0)) (W3 m ρ c (Proc.devRef .tc main_arg2))) = _
  rw [w3_arg m ρ c main_arg0 (.inl rfl), w3_arg m ρ c main_arg2 (.inr (.inl rfl))]

theorem w4_v3 : W4 m ρ c (Proc.devRef .tc main_v3) = Glue.src (edges m c) :=
  (W4_of_ne m ρ c main_v3 (by decide)).trans (w3_v3 m ρ c)
theorem w4_v6 : W4 m ρ c (Proc.devRef .tc main_v6) = Glue.dst (edges m c) :=
  (W4_of_ne m ρ c main_v6 (by decide)).trans (w3_v6 m ρ c)
theorem w4_v34 : W4 m ρ c (Proc.devRef .tc main_v34) = weff m c :=
  (W4_of_ne m ρ c main_v34 (by decide)).trans (w3_v34 m ρ c)
theorem w4_arg3 : W4 m ρ c (Proc.devRef .tc main_arg3) = argb1 m c :=
  (W4_of_ne m ρ c main_arg3 (by decide)).trans (w3_arg m ρ c main_arg3 (.inr (.inr (.inl rfl))))
theorem w4_arg4 : W4 m ρ c (Proc.devRef .tc main_arg4) = argW2 m c :=
  (W4_of_ne m ρ c main_arg4 (by decide)).trans (w3_arg m ρ c main_arg4 (.inr (.inr (.inr (.inl rfl)))))
theorem w4_arg5 : W4 m ρ c (Proc.devRef .tc main_arg5) = argb2 m c :=
  (W4_of_ne m ρ c main_arg5 (by decide)).trans (w3_arg m ρ c main_arg5 (.inr (.inr (.inr (.inr (.inl rfl))))))
theorem w4_arg6 : W4 m ρ c (Proc.devRef .tc main_arg6) = argWf m c :=
  (W4_of_ne m ρ c main_arg6 (by decide)).trans (w3_arg m ρ c main_arg6 (.inr (.inr (.inr (.inr (.inr (.inl rfl)))))))
theorem w4_arg7 : W4 m ρ c (Proc.devRef .tc main_arg7) = argbf m c :=
  (W4_of_ne m ρ c main_arg7 (by decide)).trans (w3_arg m ρ c main_arg7 (.inr (.inr (.inr (.inr (.inr (.inr rfl)))))))

/-! ## Between the first and second kernel calls -/

theorem w5_v35_0 : W5 m ρ c (Proc.devRef .tc main_v35_0) = P1 m c :=
  (Cert.KernelIdeal.Stretch.s1_keep_v35_0 (W4 m ρ c)).trans (w4_v35_0 m ρ c)
theorem w5_v3 : W5 m ρ c (Proc.devRef .tc main_v3) = Glue.src (edges m c) :=
  (Cert.KernelIdeal.Stretch.s1_keep_v3 (W4 m ρ c)).trans (w4_v3 m ρ c)
theorem w5_v6 : W5 m ρ c (Proc.devRef .tc main_v6) = Glue.dst (edges m c) :=
  (Cert.KernelIdeal.Stretch.s1_keep_v6 (W4 m ρ c)).trans (w4_v6 m ρ c)
theorem w5_v34 : W5 m ρ c (Proc.devRef .tc main_v34) = weff m c :=
  (Cert.KernelIdeal.Stretch.s1_keep_v34 (W4 m ρ c)).trans (w4_v34 m ρ c)
theorem w5_arg4 : W5 m ρ c (Proc.devRef .tc main_arg4) = argW2 m c :=
  (Cert.KernelIdeal.Stretch.s1_keep_arg4 (W4 m ρ c)).trans (w4_arg4 m ρ c)
theorem w5_arg5 : W5 m ρ c (Proc.devRef .tc main_arg5) = argb2 m c :=
  (Cert.KernelIdeal.Stretch.s1_keep_arg5 (W4 m ρ c)).trans (w4_arg5 m ρ c)
theorem w5_arg6 : W5 m ρ c (Proc.devRef .tc main_arg6) = argWf m c :=
  (Cert.KernelIdeal.Stretch.s1_keep_arg6 (W4 m ρ c)).trans (w4_arg6 m ρ c)
theorem w5_arg7 : W5 m ρ c (Proc.devRef .tc main_arg7) = argbf m c :=
  (Cert.KernelIdeal.Stretch.s1_keep_arg7 (W4 m ρ c)).trans (w4_arg7 m ρ c)

/-- The host's sum of a kernel call's two partial Gram matrices is the Gram matrix of all the rows. -/
theorem halves_sum (G : FVec Ideal S2x128x128 .f32) (P : Cert.Spec.Mat 100000 128) (hG : G = Cert.Spec.gramHalf P) :
    (Host.reduceAdd (F := Ideal) G (constant (F := Ideal) S_ .f32 0x00000000#32) Facts₀.reducesTo_S2x128x128_S128x128_d0 Facts₀.h_S_
      : Cert.Spec.Mat 128 128) = Cert.Spec.gram P := by
  subst hG
  funext i
  obtain ⟨p, q, rfl⟩ : ∃ (p : Fin 128) (q : Fin 128), i = ValueIdx.ix2 p q := ⟨i 0, i 1, ValueIdx.eq_ix2 i⟩
  exact (Cert.KernelIdeal.Layout.sumHalves _ p q).trans (Cert.Algebra.gram_eq_halves P p q)

theorem w5_v36 : W5 m ρ c (Proc.devRef .tc main_v36) = Cert.Spec.gram (P1 m c) :=
  (Cert.KernelIdeal.Stretch.s1_v36 (W4 m ρ c)).trans (halves_sum _ _ (w4_v35_1 m ρ c))

/-- Layer 1's aggregate, the factor 0.1 inside the weights. -/
abbrev S1 : Cert.Spec.Mat 100000 128 := Glue.aggW (weff m c) (edges m c) (P1 m c)

theorem w5_v49 : W5 m ρ c (Proc.devRef .tc main_v49) = S1 m c :=
  (Cert.KernelIdeal.Stretch.s1_v49 (W4 m ρ c)).trans
    ((congr (congr (congr (congrArg Cert.KernelIdeal.Stretch.agg' (w4_v34 m ρ c)) (w4_v6 m ρ c)) (w4_v3 m ρ c)) (w4_v35_0 m ρ c)).trans
      (Cert.KernelIdeal.Stretch.aggW_eq _ _ _).symm)

theorem w5_v50 : W5 m ρ c (Proc.devRef .tc main_v50) = shapeCast S1x128 (argb1 m c) Facts₀.shapeCasts_S128_S1x128 :=
  (Cert.KernelIdeal.Stretch.s1_v50 (W4 m ρ c)).trans
    (congrArg (fun b : FVec Ideal S128 .f32 => shapeCast S1x128 b Facts₀.shapeCasts_S128_S1x128) (w4_arg3 m ρ c))

/-! ## Across the second kernel call -/

/-- Layer 1's activations and layer 2's projected features. -/
abbrev H1 : Cert.Spec.Mat 100000 128 :=
  Cert.Spec.act (P1 m c) (Cert.Spec.gram (P1 m c)) (S1 m c) (fun k => argb1 m c (ValueIdx.ix1 k))
abbrev P2 : Cert.Spec.Mat 100000 128 := Cert.Spec.mm (H1 m c) (argW2 m c)

theorem bias_row (B : FVec Ideal S1x128 .f32) (b : FVec Ideal S128 .f32) (hB : B = shapeCast S1x128 b Facts₀.shapeCasts_S128_S1x128) :
    (fun k : Fin 128 => B (ValueIdx.ix2 (0 : Fin 1) k)) = fun k => b (ValueIdx.ix1 k) := by
  subst hB
  exact funext fun k => Cert.KernelIdeal.Layout.bias128 b k

theorem y1_eq :
    Cert.Spec.mm (Cert.Spec.act (V5 m ρ c (Pipeline.arrRef spec1 0) : Cert.Spec.Mat 100000 128) (V5 m ρ c (Pipeline.arrRef spec1 1) : Cert.Spec.Mat 128 128)
        (V5 m ρ c (Pipeline.arrRef spec1 2) : Cert.Spec.Mat 100000 128)
        (fun k => (V5 m ρ c (Pipeline.arrRef spec1 3) : Cert.Spec.Mat 1 128) (ValueIdx.ix2 (0 : Fin 1) k)))
      (V5 m ρ c (Pipeline.arrRef spec1 4) : Cert.Spec.Mat 128 128) = P2 m c :=
  congr (congrArg Cert.Spec.mm (congr (congr (congr (congrArg Cert.Spec.act (w5_v35_0 m ρ c)) (w5_v36 m ρ c)) (w5_v49 m ρ c))
    (bias_row _ _ (w5_v50 m ρ c)))) (w5_arg4 m ρ c)

theorem w6_v51_0 : W6 m ρ c (Proc.devRef .tc main_v51_0) = P2 m c :=
  (W6_arr m ρ c 5).trans ((Cert.KernelIdeal.Region1.arr5 (V5 m ρ) c).trans (y1_eq m ρ c))
theorem w6_v51_1 : W6 m ρ c (Proc.devRef .tc main_v51_1) = Cert.Spec.gramHalf (P2 m c) :=
  (W6_arr m ρ c 6).trans ((Cert.KernelIdeal.Region1.arr6 (V5 m ρ) c).trans (congrArg Cert.Spec.gramHalf (y1_eq m ρ c)))

theorem w6_v3 : W6 m ρ c (Proc.devRef .tc main_v3) = Glue.src (edges m c) :=
  (W6_of_ne m ρ c main_v3 (by decide)).trans (w5_v3 m ρ c)
theorem w6_v6 : W6 m ρ c (Proc.devRef .tc main_v6) = Glue.dst (edges m c) :=
  (W6_of_ne m ρ c main_v6 (by decide)).trans (w5_v6 m ρ c)
theorem w6_v34 : W6 m ρ c (Proc.devRef .tc main_v34) = weff m c :=
  (W6_of_ne m ρ c main_v34 (by decide)).trans (w5_v34 m ρ c)
theorem w6_arg5 : W6 m ρ c (Proc.devRef .tc main_arg5) = argb2 m c :=
  (W6_of_ne m ρ c main_arg5 (by decide)).trans (w5_arg5 m ρ c)
theorem w6_arg6 : W6 m ρ c (Proc.devRef .tc main_arg6) = argWf m c :=
  (W6_of_ne m ρ c main_arg6 (by decide)).trans (w5_arg6 m ρ c)
theorem w6_arg7 : W6 m ρ c (Proc.devRef .tc main_arg7) = argbf m c :=
  (W6_of_ne m ρ c main_arg7 (by decide)).trans (w5_arg7 m ρ c)

/-! ## Between the second and third kernel calls -/

theorem w7_v51_0 : W7 m ρ c (Proc.devRef .tc main_v51_0) = P2 m c :=
  (Cert.KernelIdeal.Stretch.s2_keep_v51_0 (W6 m ρ c)).trans (w6_v51_0 m ρ c)
theorem w7_arg6 : W7 m ρ c (Proc.devRef .tc main_arg6) = argWf m c :=
  (Cert.KernelIdeal.Stretch.s2_keep_arg6 (W6 m ρ c)).trans (w6_arg6 m ρ c)
theorem w7_v52 : W7 m ρ c (Proc.devRef .tc main_v52) = Cert.Spec.gram (P2 m c) :=
  (Cert.KernelIdeal.Stretch.s2_v52 (W6 m ρ c)).trans (halves_sum _ _ (w6_v51_1 m ρ c))

/-- Layer 2's aggregate, the factor 0.1 inside the weights. -/
abbrev S2 : Cert.Spec.Mat 100000 128 := Glue.aggW (weff m c) (edges m c) (P2 m c)

theorem w7_v65 : W7 m ρ c (Proc.devRef .tc main_v65) = S2 m c :=
  (Cert.KernelIdeal.Stretch.s2_v65 (W6 m ρ c)).trans
    ((congr (congr (congr (congrArg Cert.KernelIdeal.Stretch.agg' (w6_v34 m ρ c)) (w6_v6 m ρ c)) (w6_v3 m ρ c)) (w6_v51_0 m ρ c)).trans
      (Cert.KernelIdeal.Stretch.aggW_eq _ _ _).symm)

theorem w7_v66 : W7 m ρ c (Proc.devRef .tc main_v66) = shapeCast S1x128 (argb2 m c) Facts₀.shapeCasts_S128_S1x128 :=
  (Cert.KernelIdeal.Stretch.s2_v66 (W6 m ρ c)).trans
    (congrArg (fun b : FVec Ideal S128 .f32 => shapeCast S1x128 b Facts₀.shapeCasts_S128_S1x128) (w6_arg5 m ρ c))
theorem w7_v67 : W7 m ρ c (Proc.devRef .tc main_v67) = shapeCast S1x16 (argbf m c) Facts₀.shapeCasts_S16_S1x16 :=
  (Cert.KernelIdeal.Stretch.s2_v67 (W6 m ρ c)).trans
    (congrArg (fun b : FVec Ideal S16 .f32 => shapeCast S1x16 b Facts₀.shapeCasts_S16_S1x16) (w6_arg7 m ρ c))

theorem bias_row16 (B : FVec Ideal S1x16 .f32) (b : FVec Ideal S16 .f32) (hB : B = shapeCast S1x16 b Facts₀.shapeCasts_S16_S1x16) :
    (fun q : Fin 16 => B (ValueIdx.ix2 (0 : Fin 1) q)) = fun q => b (ValueIdx.ix1 q) := by
  subst hB
  exact funext fun q => Cert.KernelIdeal.Layout.bias16 b q

/-! ## The result -/

/-- The kernel program's result: the log-softmax of the class scores of layer 2's activations. -/
abbrev result : Cert.Spec.Mat 100000 16 :=
  Cert.Spec.lsm (Cert.Spec.logits
    (Cert.Spec.act (P2 m c) (Cert.Spec.gram (P2 m c)) (S2 m c) (fun k => argb2 m c (ValueIdx.ix1 k)))
    (argWf m c) (fun q => argbf m c (ValueIdx.ix1 q)))

theorem w8_v68 : W8 m ρ c (Proc.devRef .tc main_v68) = result m c :=
  (W8_arr m ρ c 6).trans ((Cert.KernelIdeal.Region2.arr6 (V7 m ρ) c).trans
    (congrArg Cert.Spec.lsm (congr (congr (congrArg Cert.Spec.logits
      (congr (congr (congr (congrArg Cert.Spec.act (w7_v51_0 m ρ c)) (w7_v52 m ρ c)) (w7_v65 m ρ c)) (bias_row _ _ (w7_v66 m ρ c))))
      (w7_arg6 m ρ c)) (bias_row16 _ _ (w7_v67 m ρ c)))))

end Cert.KernelIdeal.HostValue

end
-- ==== Proof.LibScatterScale.lean ====
/-
  THE ACCUMULATING SCATTER COMMUTES WITH A NON-NEGATIVE REAL FACTOR.

  On the extended reals multiplication does not distribute over addition in general (∞ − ∞ is at fault), but it does
  for a factor c that is a non-negative real: c · (y + z) = c · y + c · z for all extended reals y, z.  Hence
  c · ∑ f = ∑ c · f over any finite set, and an accumulating scatter (each operand entry plus the sum of the update
  entries landing on it) of an operand and updates all scaled by c is c times the scatter of the unscaled ones — for
  any dimension numbers, shapes and index width, and whatever the values (finite or not).
-/
import Idealize.ShloMosaic.PureOps.Ideal

noncomputable section

open scoped BigOperators

namespace Cert.LibScatterScale

open Idealize.ShloMosaic

/-- A non-negative real factor moves inside a finite sum of extended reals. -/
theorem mul_sum_of_nonneg {ι : Type} (s : Finset ι) (f : ι → EReal) (c : EReal) (h0 : 0 ≤ c) (ht : c ≠ ⊤) :
    c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top h0 ht, ih]

/-- The scatter of a scaled operand and scaled updates is the scaled scatter, entry by entry. -/
theorem hostScatterAdd_scale {s si su : Shape} (d : ScatterDims s si su) {w : Nat} (x : s.Idx → EReal) (idx : IVec si w)
    (upd : su.Idx → EReal) (c : EReal) (h0 : 0 ≤ c) (ht : c ≠ ⊤) (i : s.Idx) :
    Ideal.hostScatterAdd d (fun i => c * x i) idx (fun j => c * upd j) i = c * Ideal.hostScatterAdd d x idx upd i := by
  unfold Ideal.hostScatterAdd
  rw [EReal.left_distrib_of_nonneg_of_ne_top h0 ht, mul_sum_of_nonneg _ _ c h0 ht]

/-- The same for the host's scatter of float arrays: an operand of zeros, and two update arrays related entry by entry
    by the factor c. -/
theorem scatterAdd_scale_updates {s si su : Shape} (d : ScatterDims s si su) {w : Nat} {φ : FTy} (x : FVec Ideal s φ)
    (idx : IVec si w) (u' u : FVec Ideal su φ) (c : EReal) (h0 : 0 ≤ c) (ht : c ≠ ⊤) (hx : ∀ i, x i = 0)
    (hu : ∀ j, u' j = c * u j) (i : s.Idx) :
    Host.scatterAdd (F := Ideal) d x idx u' i = c * Host.scatterAdd (F := Ideal) d x idx u i := by
  have hz : x = fun i => c * x i := funext fun j => by rw [hx j, mul_zero]
  have hu' : u' = fun j => c * u j := funext hu
  show Ideal.hostScatterAdd d x idx u' i = c * Ideal.hostScatterAdd d x idx u i
  rw [hu']
  conv_lhs => rw [hz]
  exact hostScatterAdd_scale d x idx u c h0 ht i

/-- A host broadcast reads its operand at one index: a relation that holds between two operands entry by entry holds
    between their broadcasts entry by entry. -/
theorem broadcastInDim_rel {α : Type} {s t : Shape} (dims : Fin s.rank → Fin t.rank) (h : s.BroadcastsInDim t dims)
    (x y : s.Idx → α) (R : α → α → Prop) (hxy : ∀ k, R (x k) (y k)) (j : t.Idx) :
    R (broadcastInDim t dims h x j) (broadcastInDim t dims h y j) := by
  unfold broadcastInDim
  exact hxy _

end Cert.LibScatterScale

end
-- ==== Proof.Scale.lean ====
/-
  The factor 0.1 folded into the edge weights comes out of the aggregate.  The kernel program scales every edge weight
  by 0.1 before aggregating; the reference aggregates with the unscaled weights and scales the result.  The word
  0x3DCCCCCD denotes a non-negative real, and a non-negative real factor distributes over any finite sum of extended
  reals, so the two agree entry by entry whatever the features and weights are.
-/
import proofs.«170132_j54760833024262_2_alg».proof.Proof.GlueKernel
import proofs.«170132_j54760833024262_2_alg».proof.Proof.LibScatterScale
import proofs.«170132_j54760833024262_2_alg».proof.Proof.Spec
import Idealize.ShloMosaic.PureOps.Ideal.Laws

noncomputable section

namespace Cert.KernelIdeal.Scale

open Idealize.ShloMosaic Cert.KernelIdeal

variable [Facts₀]
open Facts₀

/-- The weight 0.1 is a non-negative real. -/
theorem c10_nonneg : 0 ≤ Cert.Spec.c10 ∧ Cert.Spec.c10 ≠ ⊤ := by
  have h : ∃ r : ℝ, Ideal.ofBits .f32 0x3DCCCCCD#32 = (r : EReal) ∧ 0 ≤ r := by
    simp [Ideal.ofBits, Ideal.ieee, -EReal.coe_mul]
  obtain ⟨r, hr, h0⟩ := h
  show 0 ≤ Ideal.ofBits .f32 0x3DCCCCCD#32 ∧ Ideal.ofBits .f32 0x3DCCCCCD#32 ≠ ⊤
  rw [hr]
  exact ⟨EReal.coe_nonneg.mpr h0, EReal.coe_ne_top r⟩

/-- The edge weights w with the factor 0.1 folded in. -/
abbrev scaled (w : FVec Ideal S900000 .f32) : FVec Ideal S900000 .f32 :=
  mulf (broadcastInDim S900000 ![] bcast_S_S900000 (constant (F := Ideal) S_ .f32 0x3DCCCCCD#32)) w

/-- A scaled weight is 0.1 times the weight, entry by entry. -/
theorem scaled_apply (w : FVec Ideal S900000 .f32) (k : S900000.Idx) : scaled w k = Cert.Spec.c10 * w k := rfl

/-- Aggregating with every edge weight scaled by 0.1 is 0.1 times aggregating with the weights as they are. -/
theorem aggW_scale (w : FVec Ideal S900000 .f32) (e : IVec S2x800000 32) (P : FVec Ideal S100000x128 .f32)
    (i : S100000x128.Idx) :
    Glue.aggW (scaled w) e P i = Cert.Spec.c10 * Glue.aggW w e P i := by
  unfold Glue.aggW
  refine Cert.LibScatterScale.scatterAdd_scale_updates _ _ _ _ _ Cert.Spec.c10 c10_nonneg.1 c10_nonneg.2
    (fun _ => Ideal.ofBits_zero_f32) (fun j => ?_) i
  show broadcastInDim S900000x128 ![0, 1] bcast_S900000x1_S900000x128_0_1 (Glue.col1 (scaled w)) j * _
    = Cert.Spec.c10 * (broadcastInDim S900000x128 ![0, 1] bcast_S900000x1_S900000x128_0_1 (Glue.col1 w) j * _)
  rw [← mul_assoc]
  refine congrArg (· * _) ?_
  refine Cert.LibScatterScale.broadcastInDim_rel _ _ _ _ (fun a b => a = Cert.Spec.c10 * b) (fun k => ?_) j
  unfold Glue.col1
  exact Cert.LibScatterScale.broadcastInDim_rel _ _ _ _ (fun a b => a = Cert.Spec.c10 * b) (scaled_apply w) k

end Cert.KernelIdeal.Scale

end
-- ==== Proof.GlueReference.lean ====
/-
  The graph's edge data and the neighbourhood aggregation, as the reference's host operations compute them from the
  edge list e (two rows of 800000 node numbers: sources, then targets).

  Every node gets a self loop, so the source list is row 0 followed by 0 … 99999 and the target list is row 1
  followed by the same.  The degree of a node is the number of list entries whose target it is (a scatter-add of
  ones; an entry outside 0 … 99999 lands nowhere).  A node of positive degree weighs 1/√(max(degree, 1)), any other
  0, and an edge weighs the product of its two ends' weights, the ends read with a negative node number wrapped by
  100000 and then clamped into range.  The aggregate of a feature matrix P under edge weights w puts at node n the sum
  over the edges with target n of w(edge) · P(source row of the edge).
-/
import proofs.«170132_j54760833024262_2_alg».proof.ReferenceIdeal
import Idealize.ShloMosaic.PureOps.Ideal

noncomputable section

namespace Cert.ReferenceIdeal.Glue

open Idealize.ShloMosaic Cert.ReferenceIdeal

variable [Facts₀]
open Facts₀

/-- The source of every edge: row 0 of the edge list, then every node once (the self loops). -/
def src (e : IVec S2x800000 32) : IVec S900000 32 :=
  concatenate S900000 0 [⟨S800000, shapeCast S800000 (extractStridedSlice S1x800000 ![0, 0] e slices_S2x800000_S1x800000_0_0) shapeCasts_S1x800000_S800000⟩, ⟨S100000, iotaInDim S100000 32 0⟩] concatenates_S800000_S100000_S900000_d0

/-- The target of every edge: row 1 of the edge list, then every node once. -/
def dst (e : IVec S2x800000 32) : IVec S900000 32 :=
  concatenate S900000 0 [⟨S800000, shapeCast S800000 (extractStridedSlice S1x800000 ![1, 0] e slices_S2x800000_S1x800000_1_0) shapeCasts_S1x800000_S800000⟩, ⟨S100000, iotaInDim S100000 32 0⟩] concatenates_S800000_S100000_S900000_d0

/-- A list of node numbers with each negative entry increased by the node count. -/
def wrap (v : IVec S900000 32) : IVec S900000 32 :=
  select (cmpi .slt v (broadcastInDim S900000 ![] bcast_S_S900000 (constantI S_ 32 0#32)))
    (addi v (broadcastInDim S900000 ![] bcast_S_S900000 (constantI S_ 32 100000#32))) v

/-- A list laid out as a one-column matrix, the form in which gathers and scatters take their indices. -/
def col1 {α : Type} (v : S900000.Idx → α) : S900000x1.Idx → α := broadcastInDim S900000x1 ![0] bcast_S900000_S900000x1_0 v

/-- One per edge. -/
def ones9 : FVec Ideal S900000 .f32 := broadcastInDim S900000 ![] bcast_S_S900000 (constant (F := Ideal) S_ .f32 0x3F800000#32)

/-- The degree of every node. -/
def deg (e : IVec S2x800000 32) : FVec Ideal S100000 .f32 :=
  Host.scatterAdd (F := Ideal) scatter_S100000_S900000x1_S900000_n_0_0_1
    (broadcastInDim S100000 ![] bcast_S_S100000 (constant (F := Ideal) S_ .f32 0x00000000#32)) (col1 (dst e)) ones9

/-- The weight of every node: 1/√(max(degree, 1)) where the degree is positive, else 0. -/
def dinv (e : IVec S2x800000 32) : FVec Ideal S100000 .f32 :=
  select (cmpf .ogt (deg e) (broadcastInDim S100000 ![] bcast_S_S100000 (constant (F := Ideal) S_ .f32 0x00000000#32)))
    (Host.rsqrt (maximumf (deg e) (broadcastInDim S100000 ![] bcast_S_S100000 (constant (F := Ideal) S_ .f32 0x3F800000#32))))
    (broadcastInDim S100000 ![] bcast_S_S100000 (id (constant (F := Ideal) S_ .f32 0x00000000#32)))

/-- The weight of every edge: its source's weight, times one, times its target's weight. -/
def wnorm (e : IVec S2x800000 32) : FVec Ideal S900000 .f32 :=
  mulf (mulf (Host.gather gather_S100000_S900000x1_S900000_n_0_n_n_0_1_1 (dinv e) (col1 (wrap (src e)))) ones9)
    (Host.gather gather_S100000_S900000x1_S900000_n_0_n_n_0_1_1 (dinv e) (col1 (wrap (dst e))))

/-- The aggregate of the feature matrix P under the edge weights w: at node n, the sum over the edges with target n of
    the edge's weight times the source's row of P. -/
def aggW (w : FVec Ideal S900000 .f32) (e : IVec S2x800000 32) (P : FVec Ideal S100000x128 .f32) : FVec Ideal S100000x128 .f32 :=
  Host.scatterAdd (F := Ideal) scatter_S100000x128_S900000x1_S900000x128_1_0_0_1
    (broadcastInDim S100000x128 ![] bcast_S_S100000x128 (constant (F := Ideal) S_ .f32 0x00000000#32)) (col1 (dst e))
    (mulf (broadcastInDim S900000x128 ![0, 1] bcast_S900000x1_S900000x128_0_1 (col1 w))
      (Host.gather gather_S100000x128_S900000x1_S900000x128_1_0_n_n_0_1_1128 P (col1 (wrap (src e)))))

end Cert.ReferenceIdeal.Glue

end
-- ==== Proof.GlueEq.lean ====
/-
  The two programs' edge data and aggregation are the same functions: both spell them with the same operations and
  the same dimension numbers.
-/
import proofs.«170132_j54760833024262_2_alg».proof.Proof.GlueKernel
import proofs.«170132_j54760833024262_2_alg».proof.Proof.GlueReference

noncomputable section

namespace Cert.GlueEq

open Idealize.ShloMosaic

variable [Cert.KernelIdeal.Facts₀] [Cert.ReferenceIdeal.Facts₀]

theorem wnorm_eq (e : IVec ⟨2, ![2, 800000]⟩ 32) : Cert.KernelIdeal.Glue.wnorm e = Cert.ReferenceIdeal.Glue.wnorm e := rfl

theorem aggW_eq (w : FVec Ideal ⟨1, ![900000]⟩ .f32) (e : IVec ⟨2, ![2, 800000]⟩ 32) (P : FVec Ideal ⟨2, ![100000, 128]⟩ .f32) :
    Cert.KernelIdeal.Glue.aggW w e P = Cert.ReferenceIdeal.Glue.aggW w e P := rfl

end Cert.GlueEq

end
-- ==== Proof.RefRun.lean ====
/-
  The reference program's run, read back: every execution ends with the result buffer holding a composed term of the
  eight arguments, stated in stages.

  One layer takes the projected features P, scales them by 0.95, adds 0.1 times the neighbourhood aggregate of P under the
  normalised edge weights, subtracts 0.05 times P·(PᵀP), adds the bias row to every row and takes the maximum with zero.
  The network projects the input by W1, applies a layer, projects by W2, applies a layer, maps affinely to 16 classes, and
  takes a row-wise log-softmax: each entry less its row's maximum (taken from −∞, and once more against −∞), less the
  logarithm of the row's sum (from zero) of the exponentials of those differences.
-/
import proofs.«170132_j54760833024262_2_alg».proof.Proof.Gen.ReferenceIdeal
import proofs.«170132_j54760833024262_2_alg».proof.Proof.GlueReference
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The reference's 137 operations, in order; the operations of a called function (the select, the two rectifiers, the
    log-softmax) stand in the call's place. -/
abbrev ops : List (HloOp τ sig (Elt F)) :=
  [ nullary main_v0 (iotaInDim S100000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    nullary main_cst (constant S_ .f32 0x3F800000#32),
    unary main_cst main_v7 (broadcastInDim S900000 ![] bcast_S_S900000 : (⟨S_, .f32⟩ : BufTy).Contents (Elt F) → (⟨S900000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S900000x1 ![0] bcast_S900000_S900000x1_0 : (⟨S900000, .i32⟩ : BufTy).Contents (Elt F) → (⟨S900000x1, .i32⟩ : BufTy).Contents (Elt F)),
    ternary main_v8 main_v9 main_v7 main_v10 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S900000 ![] bcast_S_S900000 : (⟨S_, .i32⟩ : BufTy).Contents (Elt F) → (⟨S900000, .i32⟩ : BufTy).Contents (Elt F)),
    binary main_v3 main_v17 main_v18 (cmpi .slt : (⟨S900000, .i32⟩ : BufTy).Contents (Elt F) → (⟨S900000, .i32⟩ : BufTy).Contents (Elt F) → (⟨S900000, .i1⟩ : BufTy).Contents (Elt F)),
    nullary main_c_4 (constantI S_ 32 100000#32),
    unary main_c_4 main_v19 (broadcastInDim S900000 ![] bcast_S_S900000 : (⟨S_, .i32⟩ : BufTy).Contents (Elt F) → (⟨S900000, .i32⟩ : BufTy).Contents (Elt F)),
    binary main_v3 main_v19 main_v20 (addi : (⟨S900000, .i32⟩ : BufTy).Contents (Elt F) → (⟨S900000, .i32⟩ : BufTy).Contents (Elt F) → (⟨S900000, .i32⟩ : BufTy).Contents (Elt F)),
    ternary main_v18 main_v20 main_v3 main_v21 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v21 main_v22 (broadcastInDim S900000x1 ![0] bcast_S900000_S900000x1_0 : (⟨S900000, .i32⟩ : BufTy).Contents (Elt F) → (⟨S900000x1, .i32⟩ : BufTy).Contents (Elt F)),
    binary main_v16 main_v22 main_v23 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v23 main_v7 main_v24 (mulf : (⟨S900000, .f32⟩ : BufTy).Contents (Elt F) → (⟨S900000, .f32⟩ : BufTy).Contents (Elt F) → (⟨S900000, .f32⟩ : BufTy).Contents (Elt F)),
    nullary main_c_5 (constantI S_ 32 0#32),
    unary main_c_5 main_v25 (broadcastInDim S900000 ![] bcast_S_S900000 : (⟨S_, .i32⟩ : BufTy).Contents (Elt F) → (⟨S900000, .i32⟩ : BufTy).Contents (Elt F)),
    binary main_v6 main_v25 main_v26 (cmpi .slt : (⟨S900000, .i32⟩ : BufTy).Contents (Elt F) → (⟨S900000, .i32⟩ : BufTy).Contents (Elt F) → (⟨S900000, .i1⟩ : BufTy).Contents (Elt F)),
    nullary main_c_6 (constantI S_ 32 100000#32),
    unary main_c_6 main_v27 (broadcastInDim S900000 ![] bcast_S_S900000 : (⟨S_, .i32⟩ : BufTy).Contents (Elt F) → (⟨S900000, .i32⟩ : BufTy).Contents (Elt F)),
    binary main_v6 main_v27 main_v28 (addi : (⟨S900000, .i32⟩ : BufTy).Contents (Elt F) → (⟨S900000, .i32⟩ : BufTy).Contents (Elt F) → (⟨S900000, .i32⟩ : BufTy).Contents (Elt F)),
    ternary main_v26 main_v28 main_v6 main_v29 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v29 main_v30 (broadcastInDim S900000x1 ![0] bcast_S900000_S900000x1_0 : (⟨S900000, .i32⟩ : BufTy).Contents (Elt F) → (⟨S900000x1, .i32⟩ : BufTy).Contents (Elt F)),
    binary main_v16 main_v30 main_v31 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v24 main_v31 main_v32 (mulf : (⟨S900000, .f32⟩ : BufTy).Contents (Elt F) → (⟨S900000, .f32⟩ : BufTy).Contents (Elt F) → (⟨S900000, .f32⟩ : BufTy).Contents (Elt F)),
    binary main_arg0 main_arg2 main_v33 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_cst_7 (constant S_ .f32 0x3F733333#32),
    unary main_cst_7 main_v34 (broadcastInDim S100000x128 ![] bcast_S_S100000x128 : (⟨S_, .f32⟩ : BufTy).Contents (Elt F) → (⟨S100000x128, .f32⟩ : BufTy).Contents (Elt F)),
    binary main_v34 main_v33 main_v35 (mulf : (⟨S100000x128, .f32⟩ : BufTy).Contents (Elt F) → (⟨S100000x128, .f32⟩ : BufTy).Contents (Elt F) → (⟨S100000x128, .f32⟩ : BufTy).Contents (Elt F)),
    unary main_v32 main_v36 (broadcastInDim S900000x1 ![0] bcast_S900000_S900000x1_0 : (⟨S900000, .f32⟩ : BufTy).Contents (Elt F) → (⟨S900000x1, .f32⟩ : BufTy).Contents (Elt F)),
    nullary main_c_8 (constantI S_ 32 0#32),
    unary main_c_8 main_v37 (broadcastInDim S900000 ![] bcast_S_S900000 : (⟨S_, .i32⟩ : BufTy).Contents (Elt F) → (⟨S900000, .i32⟩ : BufTy).Contents (Elt F)),
    binary main_v3 main_v37 main_v38 (cmpi .slt : (⟨S900000, .i32⟩ : BufTy).Contents (Elt F) → (⟨S900000, .i32⟩ : BufTy).Contents (Elt F) → (⟨S900000, .i1⟩ : BufTy).Contents (Elt F)),
    nullary main_c_9 (constantI S_ 32 100000#32),
    unary main_c_9 main_v39 (broadcastInDim S900000 ![] bcast_S_S900000 : (⟨S_, .i32⟩ : BufTy).Contents (Elt F) → (⟨S900000, .i32⟩ : BufTy).Contents (Elt F)),
    binary main_v3 main_v39 main_v40 (addi : (⟨S900000, .i32⟩ : BufTy).Contents (Elt F) → (⟨S900000, .i32⟩ : BufTy).Contents (Elt F) → (⟨S900000, .i32⟩ : BufTy).Contents (Elt F)),
    ternary main_v38 main_v40 main_v3 main_v41 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v41 main_v42 (broadcastInDim S900000x1 ![0] bcast_S900000_S900000x1_0 : (⟨S900000, .i32⟩ : BufTy).Contents (Elt F) → (⟨S900000x1, .i32⟩ : BufTy).Contents (Elt F)),
    binary main_v33 main_v42 main_v43 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    unary main_v36 main_v44 (broadcastInDim S900000x128 ![0, 1] bcast_S900000x1_S900000x128_0_1 : (⟨S900000x1, .f32⟩ : BufTy).Contents (Elt F) → (⟨S900000x128, .f32⟩ : BufTy).Contents (Elt F)),
    binary main_v44 main_v43 main_v45 (mulf : (⟨S900000x128, .f32⟩ : BufTy).Contents (Elt F) → (⟨S900000x128, .f32⟩ : BufTy).Contents (Elt F) → (⟨S900000x128, .f32⟩ : BufTy).Contents (Elt F)),
    nullary main_cst_10 (constant S_ .f32 0x00000000#32),
    unary main_cst_10 main_v46 (broadcastInDim S100000x128 ![] bcast_S_S100000x128 : (⟨S_, .f32⟩ : BufTy).Contents (Elt F) → (⟨S100000x128, .f32⟩ : BufTy).Contents (Elt F)),
    unary main_v6 main_v47 (broadcastInDim S900000x1 ![0] bcast_S900000_S900000x1_0 : (⟨S900000, .i32⟩ : BufTy).Contents (Elt F) → (⟨S900000x1, .i32⟩ : BufTy).Contents (Elt F)),
    ternary main_v46 main_v47 main_v45 main_v48 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    nullary main_cst_11 (constant S_ .f32 0x3DCCCCCD#32),
    unary main_cst_11 main_v49 (broadcastInDim S100000x128 ![] bcast_S_S100000x128 : (⟨S_, .f32⟩ : BufTy).Contents (Elt F) → (⟨S100000x128, .f32⟩ : BufTy).Contents (Elt F)),
    binary main_v49 main_v48 main_v50 (mulf : (⟨S100000x128, .f32⟩ : BufTy).Contents (Elt F) → (⟨S100000x128, .f32⟩ : BufTy).Contents (Elt F) → (⟨S100000x128, .f32⟩ : BufTy).Contents (Elt F)),
    unary main_v33 main_v51 ((transpose S128x100000 [1, 0] · transposes_S100000x128_S128x100000_1_0) : (⟨S100000x128, .f32⟩ : BufTy).Contents (Elt F) → (⟨S128x100000, .f32⟩ : BufTy).Contents (Elt F)),
    binary main_v51 main_v33 main_v52 ((fun l r => Host.dotGeneral dot_S128x100000_S100000x128_S128x128_1_0_0_1_n_n none l r) : (⟨S128x100000, .f32⟩ : BufTy).Contents (Elt F) → (⟨S100000x128, .f32⟩ : BufTy).Contents (Elt F) → (⟨S128x128, .f32⟩ : BufTy).Contents (Elt F)),
    binary main_v33 main_v52 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_12 (constant S_ .f32 0x3D4CCCCD#32),
    unary main_cst_12 main_v54 (broadcastInDim S100000x128 ![] bcast_S_S100000x128 : (⟨S_, .f32⟩ : BufTy).Contents (Elt F) → (⟨S100000x128, .f32⟩ : BufTy).Contents (Elt F)),
    binary main_v54 main_v53 main_v55 (mulf : (⟨S100000x128, .f32⟩ : BufTy).Contents (Elt F) → (⟨S100000x128, .f32⟩ : BufTy).Contents (Elt F) → (⟨S100000x128, .f32⟩ : BufTy).Contents (Elt F)),
    binary main_v35 main_v50 main_v56 (addf : (⟨S100000x128, .f32⟩ : BufTy).Contents (Elt F) → (⟨S100000x128, .f32⟩ : BufTy).Contents (Elt F) → (⟨S100000x128, .f32⟩ : BufTy).Contents (Elt F)),
    binary main_v56 main_v55 main_v57 (subf : (⟨S100000x128, .f32⟩ : BufTy).Contents (Elt F) → (⟨S100000x128, .f32⟩ : BufTy).Contents (Elt F) → (⟨S100000x128, .f32⟩ : BufTy).Contents (Elt F)),
    unary main_arg3 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v57 main_v59 main_v60 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v60) (TRef.of (T := ⟨S100000x128, .f32⟩) main_call1_v0) (TRef.of (T := ⟨S100000x128, .f32⟩) main_v61) maximumf,
    binary main_v61 main_arg4 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_13 (constant S_ .f32 0x3F733333#32),
    unary main_cst_13 main_v63 (broadcastInDim S100000x128 ![] bcast_S_S100000x128 : (⟨S_, .f32⟩ : BufTy).Contents (Elt F) → (⟨S100000x128, .f32⟩ : BufTy).Contents (Elt F)),
    binary main_v63 main_v62 main_v64 (mulf : (⟨S100000x128, .f32⟩ : BufTy).Contents (Elt F) → (⟨S100000x128, .f32⟩ : BufTy).Contents (Elt F) → (⟨S100000x128, .f32⟩ : BufTy).Contents (Elt F)),
    unary main_v32 main_v65 (broadcastInDim S900000x1 ![0] bcast_S900000_S900000x1_0 : (⟨S900000, .f32⟩ : BufTy).Contents (Elt F) → (⟨S900000x1, .f32⟩ : BufTy).Contents (Elt F)),
    nullary main_c_14 (constantI S_ 32 0#32),
    unary main_c_14 main_v66 (broadcastInDim S900000 ![] bcast_S_S900000 : (⟨S_, .i32⟩ : BufTy).Contents (Elt F) → (⟨S900000, .i32⟩ : BufTy).Contents (Elt F)),
    binary main_v3 main_v66 main_v67 (cmpi .slt : (⟨S900000, .i32⟩ : BufTy).Contents (Elt F) → (⟨S900000, .i32⟩ : BufTy).Contents (Elt F) → (⟨S900000, .i1⟩ : BufTy).Contents (Elt F)),
    nullary main_c_15 (constantI S_ 32 100000#32),
    unary main_c_15 main_v68 (broadcastInDim S900000 ![] bcast_S_S900000 : (⟨S_, .i32⟩ : BufTy).Contents (Elt F) → (⟨S900000, .i32⟩ : BufTy).Contents (Elt F)),
    binary main_v3 main_v68 main_v69 (addi : (⟨S900000, .i32⟩ : BufTy).Contents (Elt F) → (⟨S900000, .i32⟩ : BufTy).Contents (Elt F) → (⟨S900000, .i32⟩ : BufTy).Contents (Elt F)),
    ternary main_v67 main_v69 main_v3 main_v70 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v70 main_v71 (broadcastInDim S900000x1 ![0] bcast_S900000_S900000x1_0 : (⟨S900000, .i32⟩ : BufTy).Contents (Elt F) → (⟨S900000x1, .i32⟩ : BufTy).Contents (Elt F)),
    binary main_v62 main_v71 main_v72 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    unary main_v65 main_v73 (broadcastInDim S900000x128 ![0, 1] bcast_S900000x1_S900000x128_0_1 : (⟨S900000x1, .f32⟩ : BufTy).Contents (Elt F) → (⟨S900000x128, .f32⟩ : BufTy).Contents (Elt F)),
    binary main_v73 main_v72 main_v74 (mulf : (⟨S900000x128, .f32⟩ : BufTy).Contents (Elt F) → (⟨S900000x128, .f32⟩ : BufTy).Contents (Elt F) → (⟨S900000x128, .f32⟩ : BufTy).Contents (Elt F)),
    nullary main_cst_16 (constant S_ .f32 0x00000000#32),
    unary main_cst_16 main_v75 (broadcastInDim S100000x128 ![] bcast_S_S100000x128 : (⟨S_, .f32⟩ : BufTy).Contents (Elt F) → (⟨S100000x128, .f32⟩ : BufTy).Contents (Elt F)),
    unary main_v6 main_v76 (broadcastInDim S900000x1 ![0] bcast_S900000_S900000x1_0 : (⟨S900000, .i32⟩ : BufTy).Contents (Elt F) → (⟨S900000x1, .i32⟩ : BufTy).Contents (Elt F)),
    ternary main_v75 main_v76 main_v74 main_v77 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    nullary main_cst_17 (constant S_ .f32 0x3DCCCCCD#32),
    unary main_cst_17 main_v78 (broadcastInDim S100000x128 ![] bcast_S_S100000x128 : (⟨S_, .f32⟩ : BufTy).Contents (Elt F) → (⟨S100000x128, .f32⟩ : BufTy).Contents (Elt F)),
    binary main_v78 main_v77 main_v79 (mulf : (⟨S100000x128, .f32⟩ : BufTy).Contents (Elt F) → (⟨S100000x128, .f32⟩ : BufTy).Contents (Elt F) → (⟨S100000x128, .f32⟩ : BufTy).Contents (Elt F)),
    unary main_v62 main_v80 ((transpose S128x100000 [1, 0] · transposes_S100000x128_S128x100000_1_0) : (⟨S100000x128, .f32⟩ : BufTy).Contents (Elt F) → (⟨S128x100000, .f32⟩ : BufTy).Contents (Elt F)),
    binary main_v80 main_v62 main_v81 ((fun l r => Host.dotGeneral dot_S128x100000_S100000x128_S128x128_1_0_0_1_n_n none l r) : (⟨S128x100000, .f32⟩ : BufTy).Contents (Elt F) → (⟨S100000x128, .f32⟩ : BufTy).Contents (Elt F) → (⟨S128x128, .f32⟩ : BufTy).Contents (Elt F)),
    binary main_v62 main_v81 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_18 (constant S_ .f32 0x3D4CCCCD#32),
    unary main_cst_18 main_v83 (broadcastInDim S100000x128 ![] bcast_S_S100000x128 : (⟨S_, .f32⟩ : BufTy).Contents (Elt F) → (⟨S100000x128, .f32⟩ : BufTy).Contents (Elt F)),
    binary main_v83 main_v82 main_v84 (mulf : (⟨S100000x128, .f32⟩ : BufTy).Contents (Elt F) → (⟨S100000x128, .f32⟩ : BufTy).Contents (Elt F) → (⟨S100000x128, .f32⟩ : BufTy).Contents (Elt F)),
    binary main_v64 main_v79 main_v85 (addf : (⟨S100000x128, .f32⟩ : BufTy).Contents (Elt F) → (⟨S100000x128, .f32⟩ : BufTy).Contents (Elt F) → (⟨S100000x128, .f32⟩ : BufTy).Contents (Elt F)),
    binary main_v85 main_v84 main_v86 (subf : (⟨S100000x128, .f32⟩ : BufTy).Contents (Elt F) → (⟨S100000x128, .f32⟩ : BufTy).Contents (Elt F) → (⟨S100000x128, .f32⟩ : BufTy).Contents (Elt F)),
    unary main_arg5 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v86 main_v88 main_v89 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v89) (TRef.of (T := ⟨S100000x128, .f32⟩) main_call2_v0) (TRef.of (T := ⟨S100000x128, .f32⟩) main_v90) maximumf,
    binary main_v90 main_arg6 main_v91 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg7 main_v92 (broadcastInDim S1x16 ![1] bcast_S16_S1x16_1 : (⟨S16, .f32⟩ : BufTy).Contents (Elt F) → (⟨S1x16, .f32⟩ : BufTy).Contents (Elt F)),
    unary main_v92 main_v93 (broadcastInDim S100000x16 ![0, 1] bcast_S1x16_S100000x16_0_1 : (⟨S1x16, .f32⟩ : BufTy).Contents (Elt F) → (⟨S100000x16, .f32⟩ : BufTy).Contents (Elt F)),
    binary main_v91 main_v93 main_v94 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call3_cst) (constant S_ .f32 0xFF800000#32),
    TRef.binary (TRef.of (T := ⟨S100000x16, .f32⟩) main_v94) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v94) (TRef.of (T := ⟨S100000x16, .f32⟩) main_call3_v4) (TRef.of (T := ⟨S100000x16, .f32⟩) main_call3_v5) subf,
    TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v95) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., unary_bufs_sub .., binary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., unary_bufs_sub .., binary_bufs_sub .., binary_bufs_sub .., nullary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The staged result -/

/-- One layer on the projected features P with bias b, in the reference's own operations and order: 0.95·P, plus 0.1 times
    the aggregate of P under the normalised edge weights, minus 0.05·(P·(PᵀP)), plus the bias broadcast down the rows,
    rectified. -/
def layer (e : IVec S2x800000 32) (P : FVec Ideal S100000x128 .f32) (b : FVec Ideal S128 .f32) : FVec Ideal S100000x128 .f32 :=
  maximumf
    (addf
      (subf
        (addf
          (mulf (broadcastInDim S100000x128 ![] bcast_S_S100000x128 (constant (F := Ideal) S_ .f32 0x3F733333#32)) P)
          (mulf (broadcastInDim S100000x128 ![] bcast_S_S100000x128 (constant (F := Ideal) S_ .f32 0x3DCCCCCD#32))
            (Glue.aggW (Glue.wnorm e) e P)))
        (mulf (broadcastInDim S100000x128 ![] bcast_S_S100000x128 (constant (F := Ideal) S_ .f32 0x3D4CCCCD#32))
          (Host.dotGeneral (F := Ideal) dot_S100000x128_S128x128_S100000x128_1_0_0_1_n_n none P
            (Host.dotGeneral (F := Ideal) dot_S128x100000_S100000x128_S128x128_1_0_0_1_n_n none
              (transpose S128x100000 [1, 0] P transposes_S100000x128_S128x100000_1_0) P))))
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The class scores: two layers, each after its projection, then the affine map to 16 classes. -/
def scores (e : IVec S2x800000 32) (x : FVec Ideal S100000x256 .f32) (W1 : FVec Ideal S256x128 .f32) (b1 : FVec Ideal S128 .f32)
    (W2 : FVec Ideal S128x128 .f32) (b2 : FVec Ideal S128 .f32) (Wf : FVec Ideal S128x16 .f32) (bf : FVec Ideal S16 .f32) :
    FVec Ideal S100000x16 .f32 :=
  addf
    (Host.dotGeneral (F := Ideal) dot_S100000x128_S128x16_S100000x16_1_0_0_1_n_n none
      (layer e
        (Host.dotGeneral (F := Ideal) dot_S100000x128_S128x128_S100000x128_1_0_0_1_n_n none
          (layer e (Host.dotGeneral (F := Ideal) dot_S100000x256_S256x128_S100000x128_1_0_0_1_n_n none x W1) b1) W2) b2) Wf)
    (broadcastInDim S100000x16 ![0, 1] bcast_S1x16_S100000x16_0_1 (broadcastInDim S1x16 ![1] bcast_S16_S1x16_1 bf))

/-- A row's maximum as the reference takes it, laid out over the whole matrix: the fold of max from −∞ along each row, once
    more against −∞, as a column, along the rows. -/
def rowMaxB (Z : FVec Ideal S100000x16 .f32) : FVec Ideal S100000x16 .f32 :=
  broadcastInDim S100000x16 ![0, 1] bcast_S100000x1_S100000x16_0_1 (broadcastInDim S100000x1 ![0] bcast_S100000_S100000x1_0
    (maximumf (broadcastInDim S100000 ![] bcast_S_S100000 (constant (F := Ideal) S_ .f32 0xFF800000#32))
      (Host.reduce FloatOps.maximumf Z (constant (F := Ideal) S_ .f32 0xFF800000#32) reducesTo_S100000x16_S100000_d1 h_S_)))

/-- The row-wise log-softmax in the reference's operations. -/
def lsmOf (Z : FVec Ideal S100000x16 .f32) : FVec Ideal S100000x16 .f32 :=
  subf (subf Z (rowMaxB Z))
    (broadcastInDim S100000x16 ![0, 1] bcast_S100000x1_S100000x16_0_1 (Host.log (broadcastInDim S100000x1 ![0] bcast_S100000_S100000x1_0
      (Host.reduceAdd (Host.exp (subf Z (rowMaxB Z))) (constant (F := Ideal) S_ .f32 0x00000000#32)
        reducesTo_S100000x16_S100000_d1 h_S_))))

/-- The result buffer's final contents on device c, from the launch memory m. -/
def out (m : (ℓ : Loc nD τ sig) → Buf (Elt Ideal) ℓ) (c : Dev nD) : Buf (Elt Ideal) ((c.tc : Thread nD τ).loc main_v95) :=
  lsmOf (scores (m ((c.tc : Thread nD τ).loc main_arg1)) (m ((c.tc : Thread nD τ).loc main_arg0))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7)))

/-! ## The operations in stretches, each read at an arbitrary valuation -/

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ### %0 … %6: the two edge lists -/

abbrev opsE1 : List (HloOp τ sig (Elt F)) :=
  [ nullary main_v0 (iotaInDim S100000 32 0),
        unary main_arg1 main_v1 ((extractStridedSlice S1x800000 ![0, 0] · slices_S2x800000_S1x800000_0_0) : (⟨S2x800000, .i32⟩ : BufTy).Contents (Elt F) → (⟨S1x800000, .i32⟩ : BufTy).Contents (Elt F)),
        reshape main_v1 main_v2 rfl shapeCasts_S1x800000_S800000,
        binary main_v2 main_v0 main_v3 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
        unary main_arg1 main_v4 ((extractStridedSlice S1x800000 ![1, 0] · slices_S2x800000_S1x800000_1_0) : (⟨S2x800000, .i32⟩ : BufTy).Contents (Elt F) → (⟨S1x800000, .i32⟩ : BufTy).Contents (Elt F)),
        reshape main_v4 main_v5 rfl shapeCasts_S1x800000_S800000,
        binary main_v5 main_v0 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)) ]

theorem E1_src (V : Valuation τ sig (Elt Ideal)) :
    after (opsE1 (F := Ideal)) V (Proc.devRef (τ := τ) .tc main_v3) = Glue.src (V (Proc.devRef (τ := τ) .tc main_arg1)) := by
  after_results
  rfl
theorem E1_dst (V : Valuation τ sig (Elt Ideal)) :
    after (opsE1 (F := Ideal)) V (Proc.devRef (τ := τ) .tc main_v6) = Glue.dst (V (Proc.devRef (τ := τ) .tc main_arg1)) := by
  after_results
  rfl
theorem keepE1_arg0 (V : Valuation τ sig (Elt Ideal)) : after (opsE1 (F := Ideal)) V (Proc.devRef (τ := τ) .tc main_arg0) = V (Proc.devRef (τ := τ) .tc main_arg0) := by
  after_results_simp
theorem keepE1_arg2 (V : Valuation τ sig (Elt Ideal)) : after (opsE1 (F := Ideal)) V (Proc.devRef (τ := τ) .tc main_arg2) = V (Proc.devRef (τ := τ) .tc main_arg2) := by
  after_results_simp
theorem keepE1_arg3 (V : Valuation τ sig (Elt Ideal)) : after (opsE1 (F := Ideal)) V (Proc.devRef (τ := τ) .tc main_arg3) = V (Proc.devRef (τ := τ) .tc main_arg3) := by
  after_results_simp
theorem keepE1_arg4 (V : Valuation τ sig (Elt Ideal)) : after (opsE1 (F := Ideal)) V (Proc.devRef (τ := τ) .tc main_arg4) = V (Proc.devRef (τ := τ) .tc main_arg4) := by
  after_results_simp
theorem keepE1_arg5 (V : Valuation τ sig (Elt Ideal)) : after (opsE1 (F := Ideal)) V (Proc.devRef (τ := τ) .tc main_arg5) = V (Proc.devRef (τ := τ) .tc main_arg5) := by
  after_results_simp
theorem keepE1_arg6 (V : Valuation τ sig (Elt Ideal)) : after (opsE1 (F := Ideal)) V (Proc.devRef (τ := τ) .tc main_arg6) = V (Proc.devRef (τ := τ) .tc main_arg6) := by
  after_results_simp
theorem keepE1_arg7 (V : Valuation τ sig (Elt Ideal)) : after (opsE1 (F := Ideal)) V (Proc.devRef (τ := τ) .tc main_arg7) = V (Proc.devRef (τ := τ) .tc main_arg7) := by
  after_results_simp

/-! ### %cst … %cst_3: the degrees, and what the select of the node weights reads -/

abbrev opsE2a : List (HloOp τ sig (Elt F)) :=
  [     nullary main_cst (constant S_ .f32 0x3F800000#32),
        unary main_cst main_v7 (broadcastInDim S900000 ![] bcast_S_S900000 : (⟨S_, .f32⟩ : BufTy).Contents (Elt F) → (⟨S900000, .f32⟩ : BufTy).Contents (Elt F)),
        nullary main_cst_0 (constant S_ .f32 0x00000000#32),
        unary main_cst_0 main_v8 (broadcastInDim S100000 ![] bcast_S_S100000 : (⟨S_, .f32⟩ : BufTy).Contents (Elt F) → (⟨S100000, .f32⟩ : BufTy).Contents (Elt F)),
        unary main_v6 main_v9 (broadcastInDim S900000x1 ![0] bcast_S900000_S900000x1_0 : (⟨S900000, .i32⟩ : BufTy).Contents (Elt F) → (⟨S900000x1, .i32⟩ : BufTy).Contents (Elt F)),
        ternary main_v8 main_v9 main_v7 main_v10 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
        nullary main_cst_1 (constant S_ .f32 0x00000000#32),
        unary main_cst_1 main_v11 (broadcastInDim S100000 ![] bcast_S_S100000 : (⟨S_, .f32⟩ : BufTy).Contents (Elt F) → (⟨S100000, .f32⟩ : BufTy).Contents (Elt F)),
        binary main_v10 main_v11 main_v12 (cmpf .ogt : (⟨S100000, .f32⟩ : BufTy).Contents (Elt F) → (⟨S100000, .f32⟩ : BufTy).Contents (Elt F) → (⟨S100000, .i1⟩ : BufTy).Contents (Elt F)),
        nullary main_cst_2 (constant S_ .f32 0x3F800000#32),
        unary main_cst_2 main_v13 (broadcastInDim S100000 ![] bcast_S_S100000 : (⟨S_, .f32⟩ : BufTy).Contents (Elt F) → (⟨S100000, .f32⟩ : BufTy).Contents (Elt F)),
        binary main_v10 main_v13 main_v14 (maximumf : (⟨S100000, .f32⟩ : BufTy).Contents (Elt F) → (⟨S100000, .f32⟩ : BufTy).Contents (Elt F) → (⟨S100000, .f32⟩ : BufTy).Contents (Elt F)),
        unary main_v14 main_v15 (Host.rsqrt : (⟨S100000, .f32⟩ : BufTy).Contents (Elt F) → (⟨S100000, .f32⟩ : BufTy).Contents (Elt F)),
        nullary main_cst_3 (constant S_ .f32 0x00000000#32) ]

theorem E2a_v7 (V : Valuation τ sig (Elt Ideal)) : after (opsE2a (F := Ideal)) V (Proc.devRef (τ := τ) .tc main_v7) = Glue.ones9 := by
  after_results_simp
  rfl
theorem E2a_v12 (V : Valuation τ sig (Elt Ideal)) (d : IVec S900000 32) (hd : V (Proc.devRef (τ := τ) .tc main_v6) = d) :
    after (opsE2a (F := Ideal)) V (Proc.devRef (τ := τ) .tc main_v12)
      = cmpf .ogt (Host.scatterAdd (F := Ideal) scatter_S100000_S900000x1_S900000_n_0_0_1
          (broadcastInDim S100000 ![] bcast_S_S100000 (constant (F := Ideal) S_ .f32 0x00000000#32)) (Glue.col1 d) Glue.ones9)
        (broadcastInDim S100000 ![] bcast_S_S100000 (constant (F := Ideal) S_ .f32 0x00000000#32)) := by
  subst hd
  after_results_simp
  rfl
theorem E2a_v15 (V : Valuation τ sig (Elt Ideal)) (d : IVec S900000 32) (hd : V (Proc.devRef (τ := τ) .tc main_v6) = d) :
    after (opsE2a (F := Ideal)) V (Proc.devRef (τ := τ) .tc main_v15)
      = Host.rsqrt (maximumf (Host.scatterAdd (F := Ideal) scatter_S100000_S900000x1_S900000_n_0_0_1
          (broadcastInDim S100000 ![] bcast_S_S100000 (constant (F := Ideal) S_ .f32 0x00000000#32)) (Glue.col1 d) Glue.ones9)
        (broadcastInDim S100000 ![] bcast_S_S100000 (constant (F := Ideal) S_ .f32 0x3F800000#32))) := by
  subst hd
  after_results_simp
  rfl
theorem E2a_cst3 (V : Valuation τ sig (Elt Ideal)) : after (opsE2a (F := Ideal)) V (Proc.devRef (τ := τ) .tc main_cst_3) = constant (F := Ideal) S_ .f32 0x00000000#32 := by
  after_results_simp
theorem keepE2a_v3 (V : Valuation τ sig (Elt Ideal)) : after (opsE2a (F := Ideal)) V (Proc.devRef (τ := τ) .tc main_v3) = V (Proc.devRef (τ := τ) .tc main_v3) := by
  after_results_simp
theorem keepE2a_v6 (V : Valuation τ sig (Elt Ideal)) : after (opsE2a (F := Ideal)) V (Proc.devRef (τ := τ) .tc main_v6) = V (Proc.devRef (τ := τ) .tc main_v6) := by
  after_results_simp
theorem keepE2a_arg0 (V : Valuation τ sig (Elt Ideal)) : after (opsE2a (F := Ideal)) V (Proc.devRef (τ := τ) .tc main_arg0) = V (Proc.devRef (τ := τ) .tc main_arg0) := by
  after_results_simp
theorem keepE2a_arg2 (V : Valuation τ sig (Elt Ideal)) : after (opsE2a (F := Ideal)) V (Proc.devRef (τ := τ) .tc main_arg2) = V (Proc.devRef (τ := τ) .tc main_arg2) := by
  after_results_simp
theorem keepE2a_arg3 (V : Valuation τ sig (Elt Ideal)) : after (opsE2a (F := Ideal)) V (Proc.devRef (τ := τ) .tc main_arg3) = V (Proc.devRef (τ := τ) .tc main_arg3) := by
  after_results_simp
theorem keepE2a_arg4 (V : Valuation τ sig (Elt Ideal)) : after (opsE2a (F := Ideal)) V (Proc.devRef (τ := τ) .tc main_arg4) = V (Proc.devRef (τ := τ) .tc main_arg4) := by
  after_results_simp
theorem keepE2a_arg5 (V : Valuation τ sig (Elt Ideal)) : after (opsE2a (F := Ideal)) V (Proc.devRef (τ := τ) .tc main_arg5) = V (Proc.devRef (τ := τ) .tc main_arg5) := by
  after_results_simp
theorem keepE2a_arg6 (V : Valuation τ sig (Elt Ideal)) : after (opsE2a (F := Ideal)) V (Proc.devRef (τ := τ) .tc main_arg6) = V (Proc.devRef (τ := τ) .tc main_arg6) := by
  after_results_simp
theorem keepE2a_arg7 (V : Valuation τ sig (Elt Ideal)) : after (opsE2a (F := Ideal)) V (Proc.devRef (τ := τ) .tc main_arg7) = V (Proc.devRef (τ := τ) .tc main_arg7) := by
  after_results_simp

/-! ### The select of the node weights -/

abbrev opsW : List (HloOp τ sig (Elt F)) :=
  [     TRef.unary (TRef.of (T := ⟨S_, .f32⟩) main_cst_3) (TRef.of (T := ⟨S_, .f32⟩) main_call0_v0) id,
        TRef.unary (TRef.of (T := ⟨S_, .f32⟩) main_call0_v0) (TRef.of (T := ⟨S100000, .f32⟩) main_call0_v1) (broadcastInDim S100000 ![] bcast_S_S100000),
        TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select ]

theorem W_v16 (V : Valuation τ sig (Elt Ideal)) (a : IVec S100000 1) (b : FVec Ideal S100000 .f32) (z : FVec Ideal S_ .f32)
    (ha : V (Proc.devRef (τ := τ) .tc main_v12) = a) (hb : V (Proc.devRef (τ := τ) .tc main_v15) = b) (hz : V (Proc.devRef (τ := τ) .tc main_cst_3) = z) :
    after (opsW (F := Ideal)) V (Proc.devRef (τ := τ) .tc main_v16) = select a b (broadcastInDim S100000 ![] bcast_S_S100000 (id z)) := by
  subst ha hb hz
  after_results
  rfl
theorem keepW_v3 (V : Valuation τ sig (Elt Ideal)) : after (opsW (F := Ideal)) V (Proc.devRef (τ := τ) .tc main_v3) = V (Proc.devRef (τ := τ) .tc main_v3) := by
  after_results_simp
theorem keepW_v6 (V : Valuation τ sig (Elt Ideal)) : after (opsW (F := Ideal)) V (Proc.devRef (τ := τ) .tc main_v6) = V (Proc.devRef (τ := τ) .tc main_v6) := by
  after_results_simp
theorem keepW_v7 (V : Valuation τ sig (Elt Ideal)) : after (opsW (F := Ideal)) V (Proc.devRef (τ := τ) .tc main_v7) = V (Proc.devRef (τ := τ) .tc main_v7) := by
  after_results_simp
theorem keepW_arg0 (V : Valuation τ sig (Elt Ideal)) : after (opsW (F := Ideal)) V (Proc.devRef (τ := τ) .tc main_arg0) = V (Proc.devRef (τ := τ) .tc main_arg0) := by
  after_results_simp
theorem keepW_arg2 (V : Valuation τ sig (Elt Ideal)) : after (opsW (F := Ideal)) V (Proc.devRef (τ := τ) .tc main_arg2) = V (Proc.devRef (τ := τ) .tc main_arg2) := by
  after_results_simp
theorem keepW_arg3 (V : Valuation τ sig (Elt Ideal)) : after (opsW (F := Ideal)) V (Proc.devRef (τ := τ) .tc main_arg3) = V (Proc.devRef (τ := τ) .tc main_arg3) := by
  after_results_simp
theorem keepW_arg4 (V : Valuation τ sig (Elt Ideal)) : after (opsW (F := Ideal)) V (Proc.devRef (τ := τ) .tc main_arg4) = V (Proc.devRef (τ := τ) .tc main_arg4) := by
  after_results_simp
theorem keepW_arg5 (V : Valuation τ sig (Elt Ideal)) : after (opsW (F := Ideal)) V (Proc.devRef (τ := τ) .tc main_arg5) = V (Proc.devRef (τ := τ) .tc main_arg5) := by
  after_results_simp
theorem keepW_arg6 (V : Valuation τ sig (Elt Ideal)) : after (opsW (F := Ideal)) V (Proc.devRef (τ := τ) .tc main_arg6) = V (Proc.devRef (τ := τ) .tc main_arg6) := by
  after_results_simp
theorem keepW_arg7 (V : Valuation τ sig (Elt Ideal)) : after (opsW (F := Ideal)) V (Proc.devRef (τ := τ) .tc main_arg7) = V (Proc.devRef (τ := τ) .tc main_arg7) := by
  after_results_simp

/-! ### %c … %32: the edge weights -/

abbrev opsE2b : List (HloOp τ sig (Elt F)) :=
  [     nullary main_c (constantI S_ 32 0#32),
        unary main_c main_v17 (broadcastInDim S900000 ![] bcast_S_S900000 : (⟨S_, .i32⟩ : BufTy).Contents (Elt F) → (⟨S900000, .i32⟩ : BufTy).Contents (Elt F)),
        binary main_v3 main_v17 main_v18 (cmpi .slt : (⟨S900000, .i32⟩ : BufTy).Contents (Elt F) → (⟨S900000, .i32⟩ : BufTy).Contents (Elt F) → (⟨S900000, .i1⟩ : BufTy).Contents (Elt F)),
        nullary main_c_4 (constantI S_ 32 100000#32),
        unary main_c_4 main_v19 (broadcastInDim S900000 ![] bcast_S_S900000 : (⟨S_, .i32⟩ : BufTy).Contents (Elt F) → (⟨S900000, .i32⟩ : BufTy).Contents (Elt F)),
        binary main_v3 main_v19 main_v20 (addi : (⟨S900000, .i32⟩ : BufTy).Contents (Elt F) → (⟨S900000, .i32⟩ : BufTy).Contents (Elt F) → (⟨S900000, .i32⟩ : BufTy).Contents (Elt F)),
        ternary main_v18 main_v20 main_v3 main_v21 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
        unary main_v21 main_v22 (broadcastInDim S900000x1 ![0] bcast_S900000_S900000x1_0 : (⟨S900000, .i32⟩ : BufTy).Contents (Elt F) → (⟨S900000x1, .i32⟩ : BufTy).Contents (Elt F)),
        binary main_v16 main_v22 main_v23 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
        binary main_v23 main_v7 main_v24 (mulf : (⟨S900000, .f32⟩ : BufTy).Contents (Elt F) → (⟨S900000, .f32⟩ : BufTy).Contents (Elt F) → (⟨S900000, .f32⟩ : BufTy).Contents (Elt F)),
        nullary main_c_5 (constantI S_ 32 0#32),
        unary main_c_5 main_v25 (broadcastInDim S900000 ![] bcast_S_S900000 : (⟨S_, .i32⟩ : BufTy).Contents (Elt F) → (⟨S900000, .i32⟩ : BufTy).Contents (Elt F)),
        binary main_v6 main_v25 main_v26 (cmpi .slt : (⟨S900000, .i32⟩ : BufTy).Contents (Elt F) → (⟨S900000, .i32⟩ : BufTy).Contents (Elt F) → (⟨S900000, .i1⟩ : BufTy).Contents (Elt F)),
        nullary main_c_6 (constantI S_ 32 100000#32),
        unary main_c_6 main_v27 (broadcastInDim S900000 ![] bcast_S_S900000 : (⟨S_, .i32⟩ : BufTy).Contents (Elt F) → (⟨S900000, .i32⟩ : BufTy).Contents (Elt F)),
        binary main_v6 main_v27 main_v28 (addi : (⟨S900000, .i32⟩ : BufTy).Contents (Elt F) → (⟨S900000, .i32⟩ : BufTy).Contents (Elt F) → (⟨S900000, .i32⟩ : BufTy).Contents (Elt F)),
        ternary main_v26 main_v28 main_v6 main_v29 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
        unary main_v29 main_v30 (broadcastInDim S900000x1 ![0] bcast_S900000_S900000x1_0 : (⟨S900000, .i32⟩ : BufTy).Contents (Elt F) → (⟨S900000x1, .i32⟩ : BufTy).Contents (Elt F)),
        binary main_v16 main_v30 main_v31 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
        binary main_v24 main_v31 main_v32 (mulf : (⟨S900000, .f32⟩ : BufTy).Contents (Elt F) → (⟨S900000, .f32⟩ : BufTy).Contents (Elt F) → (⟨S900000, .f32⟩ : BufTy).Contents (Elt F)) ]

set_option maxHeartbeats 4000000 in
theorem E2b_v32 (V : Valuation τ sig (Elt Ideal)) (s d : IVec S900000 32) (dv : FVec Ideal S100000 .f32) (o : FVec Ideal S900000 .f32)
    (hs : V (Proc.devRef (τ := τ) .tc main_v3) = s) (hd : V (Proc.devRef (τ := τ) .tc main_v6) = d) (h16 : V (Proc.devRef (τ := τ) .tc main_v16) = dv) (h7 : V (Proc.devRef (τ := τ) .tc main_v7) = o) :
    after (opsE2b (F := Ideal)) V (Proc.devRef (τ := τ) .tc main_v32)
      = mulf (mulf (Host.gather gather_S100000_S900000x1_S900000_n_0_n_n_0_1_1 dv (Glue.col1 (Glue.wrap s))) o) (Host.gather gather_S100000_S900000x1_S900000_n_0_n_n_0_1_1 dv (Glue.col1 (Glue.wrap d))) := by
  subst hs hd h16 h7
  after_results_simp
  rfl
theorem keepE2b_v3 (V : Valuation τ sig (Elt Ideal)) : after (opsE2b (F := Ideal)) V (Proc.devRef (τ := τ) .tc main_v3) = V (Proc.devRef (τ := τ) .tc main_v3) := by
  after_results_simp
theorem keepE2b_v6 (V : Valuation τ sig (Elt Ideal)) : after (opsE2b (F := Ideal)) V (Proc.devRef (τ := τ) .tc main_v6) = V (Proc.devRef (τ := τ) .tc main_v6) := by
  after_results_simp
theorem keepE2b_arg0 (V : Valuation τ sig (Elt Ideal)) : after (opsE2b (F := Ideal)) V (Proc.devRef (τ := τ) .tc main_arg0) = V (Proc.devRef (τ := τ) .tc main_arg0) := by
  after_results_simp
theorem keepE2b_arg2 (V : Valuation τ sig (Elt Ideal)) : after (opsE2b (F := Ideal)) V (Proc.devRef (τ := τ) .tc main_arg2) = V (Proc.devRef (τ := τ) .tc main_arg2) := by
  after_results_simp
theorem keepE2b_arg3 (V : Valuation τ sig (Elt Ideal)) : after (opsE2b (F := Ideal)) V (Proc.devRef (τ := τ) .tc main_arg3) = V (Proc.devRef (τ := τ) .tc main_arg3) := by
  after_results_simp
theorem keepE2b_arg4 (V : Valuation τ sig (Elt Ideal)) : after (opsE2b (F := Ideal)) V (Proc.devRef (τ := τ) .tc main_arg4) = V (Proc.devRef (τ := τ) .tc main_arg4) := by
  after_results_simp
theorem keepE2b_arg5 (V : Valuation τ sig (Elt Ideal)) : after (opsE2b (F := Ideal)) V (Proc.devRef (τ := τ) .tc main_arg5) = V (Proc.devRef (τ := τ) .tc main_arg5) := by
  after_results_simp
theorem keepE2b_arg6 (V : Valuation τ sig (Elt Ideal)) : after (opsE2b (F := Ideal)) V (Proc.devRef (τ := τ) .tc main_arg6) = V (Proc.devRef (τ := τ) .tc main_arg6) := by
  after_results_simp
theorem keepE2b_arg7 (V : Valuation τ sig (Elt Ideal)) : after (opsE2b (F := Ideal)) V (Proc.devRef (τ := τ) .tc main_arg7) = V (Proc.devRef (τ := τ) .tc main_arg7) := by
  after_results_simp

/-! ### %33 … %60: the first projection and what its layer rectifies -/

abbrev opsL1 : List (HloOp τ sig (Elt F)) :=
  [     binary main_arg0 main_arg2 main_v33 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
        nullary main_cst_7 (constant S_ .f32 0x3F733333#32),
        unary main_cst_7 main_v34 (broadcastInDim S100000x128 ![] bcast_S_S100000x128 : (⟨S_, .f32⟩ : BufTy).Contents (Elt F) → (⟨S100000x128, .f32⟩ : BufTy).Contents (Elt F)),
        binary main_v34 main_v33 main_v35 (mulf : (⟨S100000x128, .f32⟩ : BufTy).Contents (Elt F) → (⟨S100000x128, .f32⟩ : BufTy).Contents (Elt F) → (⟨S100000x128, .f32⟩ : BufTy).Contents (Elt F)),
        unary main_v32 main_v36 (broadcastInDim S900000x1 ![0] bcast_S900000_S900000x1_0 : (⟨S900000, .f32⟩ : BufTy).Contents (Elt F) → (⟨S900000x1, .f32⟩ : BufTy).Contents (Elt F)),
        nullary main_c_8 (constantI S_ 32 0#32),
        unary main_c_8 main_v37 (broadcastInDim S900000 ![] bcast_S_S900000 : (⟨S_, .i32⟩ : BufTy).Contents (Elt F) → (⟨S900000, .i32⟩ : BufTy).Contents (Elt F)),
        binary main_v3 main_v37 main_v38 (cmpi .slt : (⟨S900000, .i32⟩ : BufTy).Contents (Elt F) → (⟨S900000, .i32⟩ : BufTy).Contents (Elt F) → (⟨S900000, .i1⟩ : BufTy).Contents (Elt F)),
        nullary main_c_9 (constantI S_ 32 100000#32),
        unary main_c_9 main_v39 (broadcastInDim S900000 ![] bcast_S_S900000 : (⟨S_, .i32⟩ : BufTy).Contents (Elt F) → (⟨S900000, .i32⟩ : BufTy).Contents (Elt F)),
        binary main_v3 main_v39 main_v40 (addi : (⟨S900000, .i32⟩ : BufTy).Contents (Elt F) → (⟨S900000, .i32⟩ : BufTy).Contents (Elt F) → (⟨S900000, .i32⟩ : BufTy).Contents (Elt F)),
        ternary main_v38 main_v40 main_v3 main_v41 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
        unary main_v41 main_v42 (broadcastInDim S900000x1 ![0] bcast_S900000_S900000x1_0 : (⟨S900000, .i32⟩ : BufTy).Contents (Elt F) → (⟨S900000x1, .i32⟩ : BufTy).Contents (Elt F)),
        binary main_v33 main_v42 main_v43 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
        unary main_v36 main_v44 (broadcastInDim S900000x128 ![0, 1] bcast_S900000x1_S900000x128_0_1 : (⟨S900000x1, .f32⟩ : BufTy).Contents (Elt F) → (⟨S900000x128, .f32⟩ : BufTy).Contents (Elt F)),
        binary main_v44 main_v43 main_v45 (mulf : (⟨S900000x128, .f32⟩ : BufTy).Contents (Elt F) → (⟨S900000x128, .f32⟩ : BufTy).Contents (Elt F) → (⟨S900000x128, .f32⟩ : BufTy).Contents (Elt F)),
        nullary main_cst_10 (constant S_ .f32 0x00000000#32),
        unary main_cst_10 main_v46 (broadcastInDim S100000x128 ![] bcast_S_S100000x128 : (⟨S_, .f32⟩ : BufTy).Contents (Elt F) → (⟨S100000x128, .f32⟩ : BufTy).Contents (Elt F)),
        unary main_v6 main_v47 (broadcastInDim S900000x1 ![0] bcast_S900000_S900000x1_0 : (⟨S900000, .i32⟩ : BufTy).Contents (Elt F) → (⟨S900000x1, .i32⟩ : BufTy).Contents (Elt F)),
        ternary main_v46 main_v47 main_v45 main_v48 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
        nullary main_cst_11 (constant S_ .f32 0x3DCCCCCD#32),
        unary main_cst_11 main_v49 (broadcastInDim S100000x128 ![] bcast_S_S100000x128 : (⟨S_, .f32⟩ : BufTy).Contents (Elt F) → (⟨S100000x128, .f32⟩ : BufTy).Contents (Elt F)),
        binary main_v49 main_v48 main_v50 (mulf : (⟨S100000x128, .f32⟩ : BufTy).Contents (Elt F) → (⟨S100000x128, .f32⟩ : BufTy).Contents (Elt F) → (⟨S100000x128, .f32⟩ : BufTy).Contents (Elt F)),
        unary main_v33 main_v51 ((transpose S128x100000 [1, 0] · transposes_S100000x128_S128x100000_1_0) : (⟨S100000x128, .f32⟩ : BufTy).Contents (Elt F) → (⟨S128x100000, .f32⟩ : BufTy).Contents (Elt F)),
        binary main_v51 main_v33 main_v52 ((fun l r => Host.dotGeneral dot_S128x100000_S100000x128_S128x128_1_0_0_1_n_n none l r) : (⟨S128x100000, .f32⟩ : BufTy).Contents (Elt F) → (⟨S100000x128, .f32⟩ : BufTy).Contents (Elt F) → (⟨S128x128, .f32⟩ : BufTy).Contents (Elt F)),
        binary main_v33 main_v52 main_v53 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
        nullary main_cst_12 (constant S_ .f32 0x3D4CCCCD#32),
        unary main_cst_12 main_v54 (broadcastInDim S100000x128 ![] bcast_S_S100000x128 : (⟨S_, .f32⟩ : BufTy).Contents (Elt F) → (⟨S100000x128, .f32⟩ : BufTy).Contents (Elt F)),
        binary main_v54 main_v53 main_v55 (mulf : (⟨S100000x128, .f32⟩ : BufTy).Contents (Elt F) → (⟨S100000x128, .f32⟩ : BufTy).Contents (Elt F) → (⟨S100000x128, .f32⟩ : BufTy).Contents (Elt F)),
        binary main_v35 main_v50 main_v56 (addf : (⟨S100000x128, .f32⟩ : BufTy).Contents (Elt F) → (⟨S100000x128, .f32⟩ : BufTy).Contents (Elt F) → (⟨S100000x128, .f32⟩ : BufTy).Contents (Elt F)),
        binary main_v56 main_v55 main_v57 (subf : (⟨S100000x128, .f32⟩ : BufTy).Contents (Elt F) → (⟨S100000x128, .f32⟩ : BufTy).Contents (Elt F) → (⟨S100000x128, .f32⟩ : BufTy).Contents (Elt F)),
        unary main_arg3 main_v58 (broadcastInDim S1x128 ![1] bcast_S128_S1x128_1 : (⟨S128, .f32⟩ : BufTy).Contents (Elt F) → (⟨S1x128, .f32⟩ : BufTy).Contents (Elt F)),
        unary main_v58 main_v59 (broadcastInDim S100000x128 ![0, 1] bcast_S1x128_S100000x128_0_1 : (⟨S1x128, .f32⟩ : BufTy).Contents (Elt F) → (⟨S100000x128, .f32⟩ : BufTy).Contents (Elt F)),
        binary main_v57 main_v59 main_v60 (addf : (⟨S100000x128, .f32⟩ : BufTy).Contents (Elt F) → (⟨S100000x128, .f32⟩ : BufTy).Contents (Elt F) → (⟨S100000x128, .f32⟩ : BufTy).Contents (Elt F)) ]

set_option maxHeartbeats 4000000 in
theorem L1_v60 (V : Valuation τ sig (Elt Ideal)) (s d : IVec S900000 32) (w : FVec Ideal S900000 .f32) (x : FVec Ideal S100000x256 .f32)
    (W1 : FVec Ideal S256x128 .f32) (b1 : FVec Ideal S128 .f32)
    (hs : V (Proc.devRef (τ := τ) .tc main_v3) = s) (hd : V (Proc.devRef (τ := τ) .tc main_v6) = d) (hw : V (Proc.devRef (τ := τ) .tc main_v32) = w)
    (hx : V (Proc.devRef (τ := τ) .tc main_arg0) = x) (hW : V (Proc.devRef (τ := τ) .tc main_arg2) = W1) (hb : V (Proc.devRef (τ := τ) .tc main_arg3) = b1) :
    after (opsL1 (F := Ideal)) V (Proc.devRef (τ := τ) .tc main_v60)
      = addf
        (subf
          (addf
            (mulf (broadcastInDim S100000x128 ![] bcast_S_S100000x128 (constant (F := Ideal) S_ .f32 0x3F733333#32)) (Host.dotGeneral (F := Ideal) dot_S100000x256_S256x128_S100000x128_1_0_0_1_n_n none x W1))
            (mulf (broadcastInDim S100000x128 ![] bcast_S_S100000x128 (constant (F := Ideal) S_ .f32 0x3DCCCCCD#32))
              (Host.scatterAdd (F := Ideal) scatter_S100000x128_S900000x1_S900000x128_1_0_0_1
                (broadcastInDim S100000x128 ![] bcast_S_S100000x128 (constant (F := Ideal) S_ .f32 0x00000000#32)) (Glue.col1 d)
                (mulf (broadcastInDim S900000x128 ![0, 1] bcast_S900000x1_S900000x128_0_1 (Glue.col1 w))
                  (Host.gather gather_S100000x128_S900000x1_S900000x128_1_0_n_n_0_1_1128 (Host.dotGeneral (F := Ideal) dot_S100000x256_S256x128_S100000x128_1_0_0_1_n_n none x W1) (Glue.col1 (Glue.wrap s)))))))
          (mulf (broadcastInDim S100000x128 ![] bcast_S_S100000x128 (constant (F := Ideal) S_ .f32 0x3D4CCCCD#32))
            (Host.dotGeneral (F := Ideal) dot_S100000x128_S128x128_S100000x128_1_0_0_1_n_n none (Host.dotGeneral (F := Ideal) dot_S100000x256_S256x128_S100000x128_1_0_0_1_n_n none x W1)
              (Host.dotGeneral (F := Ideal) dot_S128x100000_S100000x128_S128x128_1_0_0_1_n_n none
                (transpose S128x100000 [1, 0] (Host.dotGeneral (F := Ideal) dot_S100000x256_S256x128_S100000x128_1_0_0_1_n_n none x W1) transposes_S100000x128_S128x100000_1_0) (Host.dotGeneral (F := Ideal) dot_S100000x256_S256x128_S100000x128_1_0_0_1_n_n none x W1)))))
        (broadcastInDim S100000x128 ![0, 1] bcast_S1x128_S100000x128_0_1 (broadcastInDim S1x128 ![1] bcast_S128_S1x128_1 b1)) := by
  subst hs hd hw hx hW hb
  after_results_simp
  rfl
theorem keepL1_v3 (V : Valuation τ sig (Elt Ideal)) : after (opsL1 (F := Ideal)) V (Proc.devRef (τ := τ) .tc main_v3) = V (Proc.devRef (τ := τ) .tc main_v3) := by
  after_results_simp
theorem keepL1_v6 (V : Valuation τ sig (Elt Ideal)) : after (opsL1 (F := Ideal)) V (Proc.devRef (τ := τ) .tc main_v6) = V (Proc.devRef (τ := τ) .tc main_v6) := by
  after_results_simp
theorem keepL1_v32 (V : Valuation τ sig (Elt Ideal)) : after (opsL1 (F := Ideal)) V (Proc.devRef (τ := τ) .tc main_v32) = V (Proc.devRef (τ := τ) .tc main_v32) := by
  after_results_simp
theorem keepL1_arg4 (V : Valuation τ sig (Elt Ideal)) : after (opsL1 (F := Ideal)) V (Proc.devRef (τ := τ) .tc main_arg4) = V (Proc.devRef (τ := τ) .tc main_arg4) := by
  after_results_simp
theorem keepL1_arg5 (V : Valuation τ sig (Elt Ideal)) : after (opsL1 (F := Ideal)) V (Proc.devRef (τ := τ) .tc main_arg5) = V (Proc.devRef (τ := τ) .tc main_arg5) := by
  after_results_simp
theorem keepL1_arg6 (V : Valuation τ sig (Elt Ideal)) : after (opsL1 (F := Ideal)) V (Proc.devRef (τ := τ) .tc main_arg6) = V (Proc.devRef (τ := τ) .tc main_arg6) := by
  after_results_simp
theorem keepL1_arg7 (V : Valuation τ sig (Elt Ideal)) : after (opsL1 (F := Ideal)) V (Proc.devRef (τ := τ) .tc main_arg7) = V (Proc.devRef (τ := τ) .tc main_arg7) := by
  after_results_simp

/-! ### The first rectifier -/

abbrev opsR1 : List (HloOp τ sig (Elt F)) :=
  [     TRef.nullary (TRef.of (T := ⟨S_, .f32⟩) main_call1_cst) (constant S_ .f32 0x00000000#32),
        TRef.unary (TRef.of (T := ⟨S_, .f32⟩) main_call1_cst) (TRef.of (T := ⟨S100000x128, .f32⟩) main_call1_v0) (broadcastInDim S100000x128 ![] bcast_S_S100000x128),
        TRef.binary (TRef.of (T := ⟨S100000x128, .f32⟩) main_v60) (TRef.of (T := ⟨S100000x128, .f32⟩) main_call1_v0) (TRef.of (T := ⟨S100000x128, .f32⟩) main_v61) maximumf ]

theorem R1_v61 (V : Valuation τ sig (Elt Ideal)) (y : FVec Ideal S100000x128 .f32) (hy : V (Proc.devRef (τ := τ) .tc main_v60) = y) :
    after (opsR1 (F := Ideal)) V (Proc.devRef (τ := τ) .tc main_v61) = maximumf y (broadcastInDim S100000x128 ![] bcast_S_S100000x128 (constant (F := Ideal) S_ .f32 0x00000000#32)) := by
  subst hy
  after_results
  rfl
theorem keepR1_v3 (V : Valuation τ sig (Elt Ideal)) : after (opsR1 (F := Ideal)) V (Proc.devRef (τ := τ) .tc main_v3) = V (Proc.devRef (τ := τ) .tc main_v3) := by
  after_results_simp
theorem keepR1_v6 (V : Valuation τ sig (Elt Ideal)) : after (opsR1 (F := Ideal)) V (Proc.devRef (τ := τ) .tc main_v6) = V (Proc.devRef (τ := τ) .tc main_v6) := by
  after_results_simp
theorem keepR1_v32 (V : Valuation τ sig (Elt Ideal)) : after (opsR1 (F := Ideal)) V (Proc.devRef (τ := τ) .tc main_v32) = V (Proc.devRef (τ := τ) .tc main_v32) := by
  after_results_simp
theorem keepR1_arg4 (V : Valuation τ sig (Elt Ideal)) : after (opsR1 (F := Ideal)) V (Proc.devRef (τ := τ) .tc main_arg4) = V (Proc.devRef (τ := τ) .tc main_arg4) := by
  after_results_simp
theorem keepR1_arg5 (V : Valuation τ sig (Elt Ideal)) : after (opsR1 (F := Ideal)) V (Proc.devRef (τ := τ) .tc main_arg5) = V (Proc.devRef (τ := τ) .tc main_arg5) := by
  after_results_simp
theorem keepR1_arg6 (V : Valuation τ sig (Elt Ideal)) : after (opsR1 (F := Ideal)) V (Proc.devRef (τ := τ) .tc main_arg6) = V (Proc.devRef (τ := τ) .tc main_arg6) := by
  after_results_simp
theorem keepR1_arg7 (V : Valuation τ sig (Elt Ideal)) : after (opsR1 (F := Ideal)) V (Proc.devRef (τ := τ) .tc main_arg7) = V (Proc.devRef (τ := τ) .tc main_arg7) := by
  after_results_simp

/-! ### The first half, chained: what the buffers hold after the first rectifier -/

section Chain

variable (m : (ℓ : Loc nD τ sig) → Buf (Elt Ideal) ℓ) (c : Dev nD)

/-- The device's buffers at the launch and after each of the first six stretches. -/
def V0 : Valuation τ sig (Elt Ideal) := launchContents m c
def V1 : Valuation τ sig (Elt Ideal) := after (opsE1 (F := Ideal)) (V0 m c)
def V2 : Valuation τ sig (Elt Ideal) := after (opsE2a (F := Ideal)) (V1 m c)
def V3 : Valuation τ sig (Elt Ideal) := after (opsW (F := Ideal)) (V2 m c)
def V4 : Valuation τ sig (Elt Ideal) := after (opsE2b (F := Ideal)) (V3 m c)
def V5 : Valuation τ sig (Elt Ideal) := after (opsL1 (F := Ideal)) (V4 m c)
def V6 : Valuation τ sig (Elt Ideal) := after (opsR1 (F := Ideal)) (V5 m c)

theorem v0_arg0 : V0 m c (Proc.devRef (τ := τ) .tc main_arg0) = m ((c.tc : Thread nD τ).loc main_arg0) :=
  rfl
theorem v0_arg1 : V0 m c (Proc.devRef (τ := τ) .tc main_arg1) = m ((c.tc : Thread nD τ).loc main_arg1) :=
  rfl
theorem v0_arg2 : V0 m c (Proc.devRef (τ := τ) .tc main_arg2) = m ((c.tc : Thread nD τ).loc main_arg2) :=
  rfl
theorem v0_arg3 : V0 m c (Proc.devRef (τ := τ) .tc main_arg3) = m ((c.tc : Thread nD τ).loc main_arg3) :=
  rfl
theorem v0_arg4 : V0 m c (Proc.devRef (τ := τ) .tc main_arg4) = m ((c.tc : Thread nD τ).loc main_arg4) :=
  rfl
theorem v0_arg5 : V0 m c (Proc.devRef (τ := τ) .tc main_arg5) = m ((c.tc : Thread nD τ).loc main_arg5) :=
  rfl
theorem v0_arg6 : V0 m c (Proc.devRef (τ := τ) .tc main_arg6) = m ((c.tc : Thread nD τ).loc main_arg6) :=
  rfl
theorem v0_arg7 : V0 m c (Proc.devRef (τ := τ) .tc main_arg7) = m ((c.tc : Thread nD τ).loc main_arg7) :=
  rfl
theorem v1_v3 : V1 m c (Proc.devRef (τ := τ) .tc main_v3) = Glue.src (m ((c.tc : Thread nD τ).loc main_arg1)) :=
  E1_src (V0 m c)
theorem v1_v6 : V1 m c (Proc.devRef (τ := τ) .tc main_v6) = Glue.dst (m ((c.tc : Thread nD τ).loc main_arg1)) :=
  E1_dst (V0 m c)
theorem v1_arg0 : V1 m c (Proc.devRef (τ := τ) .tc main_arg0) = m ((c.tc : Thread nD τ).loc main_arg0) :=
  keepE1_arg0 (V0 m c)
theorem v1_arg2 : V1 m c (Proc.devRef (τ := τ) .tc main_arg2) = m ((c.tc : Thread nD τ).loc main_arg2) :=
  keepE1_arg2 (V0 m c)
theorem v1_arg3 : V1 m c (Proc.devRef (τ := τ) .tc main_arg3) = m ((c.tc : Thread nD τ).loc main_arg3) :=
  keepE1_arg3 (V0 m c)
theorem v1_arg4 : V1 m c (Proc.devRef (τ := τ) .tc main_arg4) = m ((c.tc : Thread nD τ).loc main_arg4) :=
  keepE1_arg4 (V0 m c)
theorem v1_arg5 : V1 m c (Proc.devRef (τ := τ) .tc main_arg5) = m ((c.tc : Thread nD τ).loc main_arg5) :=
  keepE1_arg5 (V0 m c)
theorem v1_arg6 : V1 m c (Proc.devRef (τ := τ) .tc main_arg6) = m ((c.tc : Thread nD τ).loc main_arg6) :=
  keepE1_arg6 (V0 m c)
theorem v1_arg7 : V1 m c (Proc.devRef (τ := τ) .tc main_arg7) = m ((c.tc : Thread nD τ).loc main_arg7) :=
  keepE1_arg7 (V0 m c)
theorem v2_v3 : V2 m c (Proc.devRef (τ := τ) .tc main_v3) = Glue.src (m ((c.tc : Thread nD τ).loc main_arg1)) :=
  (keepE2a_v3 (V1 m c)).trans (v1_v3 m c)
theorem v2_v6 : V2 m c (Proc.devRef (τ := τ) .tc main_v6) = Glue.dst (m ((c.tc : Thread nD τ).loc main_arg1)) :=
  (keepE2a_v6 (V1 m c)).trans (v1_v6 m c)
theorem v2_v7 : V2 m c (Proc.devRef (τ := τ) .tc main_v7) = Glue.ones9 :=
  E2a_v7 (V1 m c)
theorem v2_v12 : V2 m c (Proc.devRef (τ := τ) .tc main_v12) = cmpf .ogt (Glue.deg (m ((c.tc : Thread nD τ).loc main_arg1))) (broadcastInDim S100000 ![] bcast_S_S100000 (constant (F := Ideal) S_ .f32 0x00000000#32)) :=
  E2a_v12 (V1 m c) (Glue.dst (m ((c.tc : Thread nD τ).loc main_arg1))) (v1_v6 m c)
theorem v2_v15 : V2 m c (Proc.devRef (τ := τ) .tc main_v15) = Host.rsqrt (maximumf (Glue.deg (m ((c.tc : Thread nD τ).loc main_arg1))) (broadcastInDim S100000 ![] bcast_S_S100000 (constant (F := Ideal) S_ .f32 0x3F800000#32))) :=
  E2a_v15 (V1 m c) (Glue.dst (m ((c.tc : Thread nD τ).loc main_arg1))) (v1_v6 m c)
theorem v2_cst3 : V2 m c (Proc.devRef (τ := τ) .tc main_cst_3) = constant (F := Ideal) S_ .f32 0x00000000#32 :=
  E2a_cst3 (V1 m c)
theorem v2_arg0 : V2 m c (Proc.devRef (τ := τ) .tc main_arg0) = m ((c.tc : Thread nD τ).loc main_arg0) :=
  (keepE2a_arg0 (V1 m c)).trans (v1_arg0 m c)
theorem v2_arg2 : V2 m c (Proc.devRef (τ := τ) .tc main_arg2) = m ((c.tc : Thread nD τ).loc main_arg2) :=
  (keepE2a_arg2 (V1 m c)).trans (v1_arg2 m c)
theorem v2_arg3 : V2 m c (Proc.devRef (τ := τ) .tc main_arg3) = m ((c.tc : Thread nD τ).loc main_arg3) :=
  (keepE2a_arg3 (V1 m c)).trans (v1_arg3 m c)
theorem v2_arg4 : V2 m c (Proc.devRef (τ := τ) .tc main_arg4) = m ((c.tc : Thread nD τ).loc main_arg4) :=
  (keepE2a_arg4 (V1 m c)).trans (v1_arg4 m c)
theorem v2_arg5 : V2 m c (Proc.devRef (τ := τ) .tc main_arg5) = m ((c.tc : Thread nD τ).loc main_arg5) :=
  (keepE2a_arg5 (V1 m c)).trans (v1_arg5 m c)
theorem v2_arg6 : V2 m c (Proc.devRef (τ := τ) .tc main_arg6) = m ((c.tc : Thread nD τ).loc main_arg6) :=
  (keepE2a_arg6 (V1 m c)).trans (v1_arg6 m c)
theorem v2_arg7 : V2 m c (Proc.devRef (τ := τ) .tc main_arg7) = m ((c.tc : Thread nD τ).loc main_arg7) :=
  (keepE2a_arg7 (V1 m c)).trans (v1_arg7 m c)
theorem v3_v16 : V3 m c (Proc.devRef (τ := τ) .tc main_v16) = Glue.dinv (m ((c.tc : Thread nD τ).loc main_arg1)) :=
  W_v16 (V2 m c) _ _ _ (v2_v12 m c) (v2_v15 m c) (v2_cst3 m c)
theorem v3_v3 : V3 m c (Proc.devRef (τ := τ) .tc main_v3) = Glue.src (m ((c.tc : Thread nD τ).loc main_arg1)) :=
  (keepW_v3 (V2 m c)).trans (v2_v3 m c)
theorem v3_v6 : V3 m c (Proc.devRef (τ := τ) .tc main_v6) = Glue.dst (m ((c.tc : Thread nD τ).loc main_arg1)) :=
  (keepW_v6 (V2 m c)).trans (v2_v6 m c)
theorem v3_v7 : V3 m c (Proc.devRef (τ := τ) .tc main_v7) = Glue.ones9 :=
  (keepW_v7 (V2 m c)).trans (v2_v7 m c)
theorem v3_arg0 : V3 m c (Proc.devRef (τ := τ) .tc main_arg0) = m ((c.tc : Thread nD τ).loc main_arg0) :=
  (keepW_arg0 (V2 m c)).trans (v2_arg0 m c)
theorem v3_arg2 : V3 m c (Proc.devRef (τ := τ) .tc main_arg2) = m ((c.tc : Thread nD τ).loc main_arg2) :=
  (keepW_arg2 (V2 m c)).trans (v2_arg2 m c)
theorem v3_arg3 : V3 m c (Proc.devRef (τ := τ) .tc main_arg3) = m ((c.tc : Thread nD τ).loc main_arg3) :=
  (keepW_arg3 (V2 m c)).trans (v2_arg3 m c)
theorem v3_arg4 : V3 m c (Proc.devRef (τ := τ) .tc main_arg4) = m ((c.tc : Thread nD τ).loc main_arg4) :=
  (keepW_arg4 (V2 m c)).trans (v2_arg4 m c)
theorem v3_arg5 : V3 m c (Proc.devRef (τ := τ) .tc main_arg5) = m ((c.tc : Thread nD τ).loc main_arg5) :=
  (keepW_arg5 (V2 m c)).trans (v2_arg5 m c)
theorem v3_arg6 : V3 m c (Proc.devRef (τ := τ) .tc main_arg6) = m ((c.tc : Thread nD τ).loc main_arg6) :=
  (keepW_arg6 (V2 m c)).trans (v2_arg6 m c)
theorem v3_arg7 : V3 m c (Proc.devRef (τ := τ) .tc main_arg7) = m ((c.tc : Thread nD τ).loc main_arg7) :=
  (keepW_arg7 (V2 m c)).trans (v2_arg7 m c)
theorem v4_v32 : V4 m c (Proc.devRef (τ := τ) .tc main_v32) = Glue.wnorm (m ((c.tc : Thread nD τ).loc main_arg1)) :=
  E2b_v32 (V3 m c) _ _ _ _ (v3_v3 m c) (v3_v6 m c) (v3_v16 m c) (v3_v7 m c)
theorem v4_v3 : V4 m c (Proc.devRef (τ := τ) .tc main_v3) = Glue.src (m ((c.tc : Thread nD τ).loc main_arg1)) :=
  (keepE2b_v3 (V3 m c)).trans (v3_v3 m c)
theorem v4_v6 : V4 m c (Proc.devRef (τ := τ) .tc main_v6) = Glue.dst (m ((c.tc : Thread nD τ).loc main_arg1)) :=
  (keepE2b_v6 (V3 m c)).trans (v3_v6 m c)
theorem v4_arg0 : V4 m c (Proc.devRef (τ := τ) .tc main_arg0) = m ((c.tc : Thread nD τ).loc main_arg0) :=
  (keepE2b_arg0 (V3 m c)).trans (v3_arg0 m c)
theorem v4_arg2 : V4 m c (Proc.devRef (τ := τ) .tc main_arg2) = m ((c.tc : Thread nD τ).loc main_arg2) :=
  (keepE2b_arg2 (V3 m c)).trans (v3_arg2 m c)
theorem v4_arg3 : V4 m c (Proc.devRef (τ := τ) .tc main_arg3) = m ((c.tc : Thread nD τ).loc main_arg3) :=
  (keepE2b_arg3 (V3 m c)).trans (v3_arg3 m c)
theorem v4_arg4 : V4 m c (Proc.devRef (τ := τ) .tc main_arg4) = m ((c.tc : Thread nD τ).loc main_arg4) :=
  (keepE2b_arg4 (V3 m c)).trans (v3_arg4 m c)
theorem v4_arg5 : V4 m c (Proc.devRef (τ := τ) .tc main_arg5) = m ((c.tc : Thread nD τ).loc main_arg5) :=
  (keepE2b_arg5 (V3 m c)).trans (v3_arg5 m c)
theorem v4_arg6 : V4 m c (Proc.devRef (τ := τ) .tc main_arg6) = m ((c.tc : Thread nD τ).loc main_arg6) :=
  (keepE2b_arg6 (V3 m c)).trans (v3_arg6 m c)
theorem v4_arg7 : V4 m c (Proc.devRef (τ := τ) .tc main_arg7) = m ((c.tc : Thread nD τ).loc main_arg7) :=
  (keepE2b_arg7 (V3 m c)).trans (v3_arg7 m c)
theorem v5_v60 : V5 m c (Proc.devRef (τ := τ) .tc main_v60) = addf
        (subf
          (addf
            (mulf (broadcastInDim S100000x128 ![] bcast_S_S100000x128 (constant (F := Ideal) S_ .f32 0x3F733333#32)) (Host.dotGeneral (F := Ideal) (φ₁ := .f32) (φ₂ := .f32) dot_S100000x256_S256x128_S100000x128_1_0_0_1_n_n none (m ((c.tc : Thread nD τ).loc main_arg0)) (m ((c.tc : Thread nD τ).loc main_arg2))))
            (mulf (broadcastInDim S100000x128 ![] bcast_S_S100000x128 (constant (F := Ideal) S_ .f32 0x3DCCCCCD#32))
              (Host.scatterAdd (F := Ideal) scatter_S100000x128_S900000x1_S900000x128_1_0_0_1
                (broadcastInDim S100000x128 ![] bcast_S_S100000x128 (constant (F := Ideal) S_ .f32 0x00000000#32)) (Glue.col1 (Glue.dst (m ((c.tc : Thread nD τ).loc main_arg1))))
                (mulf (broadcastInDim S900000x128 ![0, 1] bcast_S900000x1_S900000x128_0_1 (Glue.col1 (Glue.wnorm (m ((c.tc : Thread nD τ).loc main_arg1)))))
                  (Host.gather gather_S100000x128_S900000x1_S900000x128_1_0_n_n_0_1_1128 (Host.dotGeneral (F := Ideal) (φ₁ := .f32) (φ₂ := .f32) dot_S100000x256_S256x128_S100000x128_1_0_0_1_n_n none (m ((c.tc : Thread nD τ).loc main_arg0)) (m ((c.tc : Thread nD τ).loc main_arg2))) (Glue.col1 (Glue.wrap (Glue.src (m ((c.tc : Thread nD τ).loc main_arg1))))))))))
          (mulf (broadcastInDim S100000x128 ![] bcast_S_S100000x128 (constant (F := Ideal) S_ .f32 0x3D4CCCCD#32))
            (Host.dotGeneral (F := Ideal) dot_S100000x128_S128x128_S100000x128_1_0_0_1_n_n none (Host.dotGeneral (F := Ideal) (φ₁ := .f32) (φ₂ := .f32) dot_S100000x256_S256x128_S100000x128_1_0_0_1_n_n none (m ((c.tc : Thread nD τ).loc main_arg0)) (m ((c.tc : Thread nD τ).loc main_arg2)))
              (Host.dotGeneral (F := Ideal) dot_S128x100000_S100000x128_S128x128_1_0_0_1_n_n none
                (transpose S128x100000 [1, 0] (Host.dotGeneral (F := Ideal) (φ₁ := .f32) (φ₂ := .f32) dot_S100000x256_S256x128_S100000x128_1_0_0_1_n_n none (m ((c.tc : Thread nD τ).loc main_arg0)) (m ((c.tc : Thread nD τ).loc main_arg2))) transposes_S100000x128_S128x100000_1_0) (Host.dotGeneral (F := Ideal) (φ₁ := .f32) (φ₂ := .f32) dot_S100000x256_S256x128_S100000x128_1_0_0_1_n_n none (m ((c.tc : Thread nD τ).loc main_arg0)) (m ((c.tc : Thread nD τ).loc main_arg2)))))))
        (broadcastInDim S100000x128 ![0, 1] bcast_S1x128_S100000x128_0_1 (broadcastInDim S1x128 ![1] bcast_S128_S1x128_1 (m ((c.tc : Thread nD τ).loc main_arg3)))) :=
  L1_v60 (V4 m c) _ _ _ _ _ _ (v4_v3 m c) (v4_v6 m c) (v4_v32 m c) (v4_arg0 m c) (v4_arg2 m c) (v4_arg3 m c)
theorem v5_v3 : V5 m c (Proc.devRef (τ := τ) .tc main_v3) = Glue.src (m ((c.tc : Thread nD τ).loc main_arg1)) :=
  (keepL1_v3 (V4 m c)).trans (v4_v3 m c)
theorem v5_v6 : V5 m c (Proc.devRef (τ := τ) .tc main_v6) = Glue.dst (m ((c.tc : Thread nD τ).loc main_arg1)) :=
  (keepL1_v6 (V4 m c)).trans (v4_v6 m c)
theorem v5_v32 : V5 m c (Proc.devRef (τ := τ) .tc main_v32) = Glue.wnorm (m ((c.tc : Thread nD τ).loc main_arg1)) :=
  (keepL1_v32 (V4 m c)).trans (v4_v32 m c)
theorem v5_arg4 : V5 m c (Proc.devRef (τ := τ) .tc main_arg4) = m ((c.tc : Thread nD τ).loc main_arg4) :=
  (keepL1_arg4 (V4 m c)).trans (v4_arg4 m c)
theorem v5_arg5 : V5 m c (Proc.devRef (τ := τ) .tc main_arg5) = m ((c.tc : Thread nD τ).loc main_arg5) :=
  (keepL1_arg5 (V4 m c)).trans (v4_arg5 m c)
theorem v5_arg6 : V5 m c (Proc.devRef (τ := τ) .tc main_arg6) = m ((c.tc : Thread nD τ).loc main_arg6) :=
  (keepL1_arg6 (V4 m c)).trans (v4_arg6 m c)
theorem v5_arg7 : V5 m c (Proc.devRef (τ := τ) .tc main_arg7) = m ((c.tc : Thread nD τ).loc main_arg7) :=
  (keepL1_arg7 (V4 m c)).trans (v4_arg7 m c)
theorem v6_v61 : V6 m c (Proc.devRef (τ := τ) .tc main_v61) = layer (m ((c.tc : Thread nD τ).loc main_arg1)) (Host.dotGeneral (F := Ideal) (φ₁ := .f32) (φ₂ := .f32) dot_S100000x256_S256x128_S100000x128_1_0_0_1_n_n none (m ((c.tc : Thread nD τ).loc main_arg0)) (m ((c.tc : Thread nD τ).loc main_arg2))) (m ((c.tc : Thread nD τ).loc main_arg3)) :=
  R1_v61 (V5 m c) _ (v5_v60 m c)
theorem v6_v3 : V6 m c (Proc.devRef (τ := τ) .tc main_v3) = Glue.src (m ((c.tc : Thread nD τ).loc main_arg1)) :=
  (keepR1_v3 (V5 m c)).trans (v5_v3 m c)
theorem v6_v6 : V6 m c (Proc.devRef (τ := τ) .tc main_v6) = Glue.dst (m ((c.tc : Thread nD τ).loc main_arg1)) :=
  (keepR1_v6 (V5 m c)).trans (v5_v6 m c)
theorem v6_v32 : V6 m c (Proc.devRef (τ := τ) .tc main_v32) = Glue.wnorm (m ((c.tc : Thread nD τ).loc main_arg1)) :=
  (keepR1_v32 (V5 m c)).trans (v5_v32 m c)
theorem v6_arg4 : V6 m c (Proc.devRef (τ := τ) .tc main_arg4) = m ((c.tc : Thread nD τ).loc main_arg4) :=
  (keepR1_arg4 (V5 m c)).trans (v5_arg4 m c)
theorem v6_arg5 : V6 m c (Proc.devRef (τ := τ) .tc main_arg5) = m ((c.tc : Thread nD τ).loc main_arg5) :=
  (keepR1_arg5 (V5 m c)).trans (v5_arg5 m c)
theorem v6_arg6 : V6 m c (Proc.devRef (τ := τ) .tc main_arg6) = m ((c.tc : Thread nD τ).loc main_arg6) :=
  (keepR1_arg6 (V5 m c)).trans (v5_arg6 m c)
theorem v6_arg7 : V6 m c (Proc.devRef (τ := τ) .tc main_arg7) = m ((c.tc : Thread nD τ).loc main_arg7) :=
  (keepR1_arg7 (V5 m c)).trans (v5_arg7 m c)

end Chain

/-! ### %62 … %89: the second projection and what its layer rectifies -/

/-- The second layer's operations up to the rectifier's operand. -/
abbrev opsL2 : List (HloOp τ sig (Elt F)) :=
  [ binary main_v61 main_arg4 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_13 (constant S_ .f32 0x3F733333#32),
    unary main_cst_13 main_v63 (broadcastInDim S100000x128 ![] bcast_S_S100000x128 : (⟨S_, .f32⟩ : BufTy).Contents (Elt F) → (⟨S100000x128, .f32⟩ : BufTy).Contents (Elt F)),
    binary main_v63 main_v62 main_v64 (mulf : (⟨S100000x128, .f32⟩ : BufTy).Contents (Elt F) → (⟨S100000x128, .f32⟩ : BufTy).Contents (Elt F) → (⟨S100000x128, .f32⟩ : BufTy).Contents (Elt F)),
    unary main_v32 main_v65 (broadcastInDim S900000x1 ![0] bcast_S900000_S900000x1_0 : (⟨S900000, .f32⟩ : BufTy).Contents (Elt F) → (⟨S900000x1, .f32⟩ : BufTy).Contents (Elt F)),
    nullary main_c_14 (constantI S_ 32 0#32),
    unary main_c_14 main_v66 (broadcastInDim S900000 ![] bcast_S_S900000 : (⟨S_, .i32⟩ : BufTy).Contents (Elt F) → (⟨S900000, .i32⟩ : BufTy).Contents (Elt F)),
    binary main_v3 main_v66 main_v67 (cmpi .slt : (⟨S900000, .i32⟩ : BufTy).Contents (Elt F) → (⟨S900000, .i32⟩ : BufTy).Contents (Elt F) → (⟨S900000, .i1⟩ : BufTy).Contents (Elt F)),
    nullary main_c_15 (constantI S_ 32 100000#32),
    unary main_c_15 main_v68 (broadcastInDim S900000 ![] bcast_S_S900000 : (⟨S_, .i32⟩ : BufTy).Contents (Elt F) → (⟨S900000, .i32⟩ : BufTy).Contents (Elt F)),
    binary main_v3 main_v68 main_v69 (addi : (⟨S900000, .i32⟩ : BufTy).Contents (Elt F) → (⟨S900000, .i32⟩ : BufTy).Contents (Elt F) → (⟨S900000, .i32⟩ : BufTy).Contents (Elt F)),
    ternary main_v67 main_v69 main_v3 main_v70 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v70 main_v71 (broadcastInDim S900000x1 ![0] bcast_S900000_S900000x1_0 : (⟨S900000, .i32⟩ : BufTy).Contents (Elt F) → (⟨S900000x1, .i32⟩ : BufTy).Contents (Elt F)),
    binary main_v62 main_v71 main_v72 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    unary main_v65 main_v73 (broadcastInDim S900000x128 ![0, 1] bcast_S900000x1_S900000x128_0_1 : (⟨S900000x1, .f32⟩ : BufTy).Contents (Elt F) → (⟨S900000x128, .f32⟩ : BufTy).Contents (Elt F)),
    binary main_v73 main_v72 main_v74 (mulf : (⟨S900000x128, .f32⟩ : BufTy).Contents (Elt F) → (⟨S900000x128, .f32⟩ : BufTy).Contents (Elt F) → (⟨S900000x128, .f32⟩ : BufTy).Contents (Elt F)),
    nullary main_cst_16 (constant S_ .f32 0x00000000#32),
    unary main_cst_16 main_v75 (broadcastInDim S100000x128 ![] bcast_S_S100000x128 : (⟨S_, .f32⟩ : BufTy).Contents (Elt F) → (⟨S100000x128, .f32⟩ : BufTy).Contents (Elt F)),
    unary main_v6 main_v76 (broadcastInDim S900000x1 ![0] bcast_S900000_S900000x1_0 : (⟨S900000, .i32⟩ : BufTy).Contents (Elt F) → (⟨S900000x1, .i32⟩ : BufTy).Contents (Elt F)),
    ternary main_v75 main_v76 main_v74 main_v77 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    nullary main_cst_17 (constant S_ .f32 0x3DCCCCCD#32),
    unary main_cst_17 main_v78 (broadcastInDim S100000x128 ![] bcast_S_S100000x128 : (⟨S_, .f32⟩ : BufTy).Contents (Elt F) → (⟨S100000x128, .f32⟩ : BufTy).Contents (Elt F)),
    binary main_v78 main_v77 main_v79 (mulf : (⟨S100000x128, .f32⟩ : BufTy).Contents (Elt F) → (⟨S100000x128, .f32⟩ : BufTy).Contents (Elt F) → (⟨S100000x128, .f32⟩ : BufTy).Contents (Elt F)),
    unary main_v62 main_v80 ((transpose S128x100000 [1, 0] · transposes_S100000x128_S128x100000_1_0) : (⟨S100000x128, .f32⟩ : BufTy).Contents (Elt F) → (⟨S128x100000, .f32⟩ : BufTy).Contents (Elt F)),
    binary main_v80 main_v62 main_v81 ((fun l r => Host.dotGeneral dot_S128x100000_S100000x128_S128x128_1_0_0_1_n_n none l r) : (⟨S128x100000, .f32⟩ : BufTy).Contents (Elt F) → (⟨S100000x128, .f32⟩ : BufTy).Contents (Elt F) → (⟨S128x128, .f32⟩ : BufTy).Contents (Elt F)),
    binary main_v62 main_v81 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_18 (constant S_ .f32 0x3D4CCCCD#32),
    unary main_cst_18 main_v83 (broadcastInDim S100000x128 ![] bcast_S_S100000x128 : (⟨S_, .f32⟩ : BufTy).Contents (Elt F) → (⟨S100000x128, .f32⟩ : BufTy).Contents (Elt F)),
    binary main_v83 main_v82 main_v84 (mulf : (⟨S100000x128, .f32⟩ : BufTy).Contents (Elt F) → (⟨S100000x128, .f32⟩ : BufTy).Contents (Elt F) → (⟨S100000x128, .f32⟩ : BufTy).Contents (Elt F)),
    binary main_v64 main_v79 main_v85 (addf : (⟨S100000x128, .f32⟩ : BufTy).Contents (Elt F) → (⟨S100000x128, .f32⟩ : BufTy).Contents (Elt F) → (⟨S100000x128, .f32⟩ : BufTy).Contents (Elt F)),
    binary main_v85 main_v84 main_v86 (subf : (⟨S100000x128, .f32⟩ : BufTy).Contents (Elt F) → (⟨S100000x128, .f32⟩ : BufTy).Contents (Elt F) → (⟨S100000x128, .f32⟩ : BufTy).Contents (Elt F)),
    unary main_arg5 main_v87 (broadcastInDim S1x128 ![1] bcast_S128_S1x128_1 : (⟨S128, .f32⟩ : BufTy).Contents (Elt F) → (⟨S1x128, .f32⟩ : BufTy).Contents (Elt F)),
    unary main_v87 main_v88 (broadcastInDim S100000x128 ![0, 1] bcast_S1x128_S100000x128_0_1 : (⟨S1x128, .f32⟩ : BufTy).Contents (Elt F) → (⟨S100000x128, .f32⟩ : BufTy).Contents (Elt F)),
    binary main_v86 main_v88 main_v89 (addf : (⟨S100000x128, .f32⟩ : BufTy).Contents (Elt F) → (⟨S100000x128, .f32⟩ : BufTy).Contents (Elt F) → (⟨S100000x128, .f32⟩ : BufTy).Contents (Elt F)) ]

set_option maxHeartbeats 4000000 in
theorem L2_v89 (V : Valuation τ sig (Elt Ideal)) (s d : IVec S900000 32) (w : FVec Ideal S900000 .f32) (y : FVec Ideal S100000x128 .f32)
    (W2 : FVec Ideal S128x128 .f32) (b2 : FVec Ideal S128 .f32)
    (hs : V (Proc.devRef (τ := τ) .tc main_v3) = s) (hd : V (Proc.devRef (τ := τ) .tc main_v6) = d) (hw : V (Proc.devRef (τ := τ) .tc main_v32) = w)
    (hy : V (Proc.devRef (τ := τ) .tc main_v61) = y) (hW : V (Proc.devRef (τ := τ) .tc main_arg4) = W2) (hb : V (Proc.devRef (τ := τ) .tc main_arg5) = b2) :
    after (opsL2 (F := Ideal)) V (Proc.devRef (τ := τ) .tc main_v89)
      = addf
        (subf
          (addf
            (mulf (broadcastInDim S100000x128 ![] bcast_S_S100000x128 (constant (F := Ideal) S_ .f32 0x3F733333#32)) (Host.dotGeneral (F := Ideal) dot_S100000x128_S128x128_S100000x128_1_0_0_1_n_n none y W2))
            (mulf (broadcastInDim S100000x128 ![] bcast_S_S100000x128 (constant (F := Ideal) S_ .f32 0x3DCCCCCD#32))
              (Host.scatterAdd (F := Ideal) scatter_S100000x128_S900000x1_S900000x128_1_0_0_1
                (broadcastInDim S100000x128 ![] bcast_S_S100000x128 (constant (F := Ideal) S_ .f32 0x00000000#32)) (Glue.col1 d)
                (mulf (broadcastInDim S900000x128 ![0, 1] bcast_S900000x1_S900000x128_0_1 (Glue.col1 w))
                  (Host.gather gather_S100000x128_S900000x1_S900000x128_1_0_n_n_0_1_1128 (Host.dotGeneral (F := Ideal) dot_S100000x128_S128x128_S100000x128_1_0_0_1_n_n none y W2) (Glue.col1 (Glue.wrap s)))))))
          (mulf (broadcastInDim S100000x128 ![] bcast_S_S100000x128 (constant (F := Ideal) S_ .f32 0x3D4CCCCD#32))
            (Host.dotGeneral (F := Ideal) dot_S100000x128_S128x128_S100000x128_1_0_0_1_n_n none (Host.dotGeneral (F := Ideal) dot_S100000x128_S128x128_S100000x128_1_0_0_1_n_n none y W2)
              (Host.dotGeneral (F := Ideal) dot_S128x100000_S100000x128_S128x128_1_0_0_1_n_n none
                (transpose S128x100000 [1, 0] (Host.dotGeneral (F := Ideal) dot_S100000x128_S128x128_S100000x128_1_0_0_1_n_n none y W2) transposes_S100000x128_S128x100000_1_0) (Host.dotGeneral (F := Ideal) dot_S100000x128_S128x128_S100000x128_1_0_0_1_n_n none y W2)))))
        (broadcastInDim S100000x128 ![0, 1] bcast_S1x128_S100000x128_0_1 (broadcastInDim S1x128 ![1] bcast_S128_S1x128_1 b2)) := by
  subst hs hd hw hy hW hb
  after_results_simp
  rfl
theorem keepL2_arg6 (V : Valuation τ sig (Elt Ideal)) : after (opsL2 (F := Ideal)) V (Proc.devRef (τ := τ) .tc main_arg6) = V (Proc.devRef (τ := τ) .tc main_arg6) := by
  after_results_simp
theorem keepL2_arg7 (V : Valuation τ sig (Elt Ideal)) : after (opsL2 (F := Ideal)) V (Proc.devRef (τ := τ) .tc main_arg7) = V (Proc.devRef (τ := τ) .tc main_arg7) := by
  after_results_simp

/-! ### The second rectifier -/

/-- The second rectifier: zero, its splat, the maximum. -/
abbrev opsR2 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v89) (TRef.of (T := ⟨S100000x128, .f32⟩) main_call2_v0) (TRef.of (T := ⟨S100000x128, .f32⟩) main_v90) maximumf ]

theorem R2_v90 (V : Valuation τ sig (Elt Ideal)) (y : FVec Ideal S100000x128 .f32) (hy : V (Proc.devRef (τ := τ) .tc main_v89) = y) :
    after (opsR2 (F := Ideal)) V (Proc.devRef (τ := τ) .tc main_v90) = maximumf y (broadcastInDim S100000x128 ![] bcast_S_S100000x128 (constant (F := Ideal) S_ .f32 0x00000000#32)) := by
  subst hy
  after_results
  rfl
theorem keepR2_arg6 (V : Valuation τ sig (Elt Ideal)) : after (opsR2 (F := Ideal)) V (Proc.devRef (τ := τ) .tc main_arg6) = V (Proc.devRef (τ := τ) .tc main_arg6) := by
  after_results_simp
theorem keepR2_arg7 (V : Valuation τ sig (Elt Ideal)) : after (opsR2 (F := Ideal)) V (Proc.devRef (τ := τ) .tc main_arg7) = V (Proc.devRef (τ := τ) .tc main_arg7) := by
  after_results_simp

/-! ### %91 … %94: the class scores -/

/-- The affine map to the classes. -/
abbrev opsS : List (HloOp τ sig (Elt F)) :=
  [ binary main_v90 main_arg6 main_v91 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg7 main_v92 (broadcastInDim S1x16 ![1] bcast_S16_S1x16_1 : (⟨S16, .f32⟩ : BufTy).Contents (Elt F) → (⟨S1x16, .f32⟩ : BufTy).Contents (Elt F)),
    unary main_v92 main_v93 (broadcastInDim S100000x16 ![0, 1] bcast_S1x16_S100000x16_0_1 : (⟨S1x16, .f32⟩ : BufTy).Contents (Elt F) → (⟨S100000x16, .f32⟩ : BufTy).Contents (Elt F)),
    binary main_v91 main_v93 main_v94 (addf : (⟨S100000x16, .f32⟩ : BufTy).Contents (Elt F) → (⟨S100000x16, .f32⟩ : BufTy).Contents (Elt F) → (⟨S100000x16, .f32⟩ : BufTy).Contents (Elt F)) ]

theorem S_v94 (V : Valuation τ sig (Elt Ideal)) (h : FVec Ideal S100000x128 .f32) (Wf : FVec Ideal S128x16 .f32) (bf : FVec Ideal S16 .f32)
    (hh : V (Proc.devRef (τ := τ) .tc main_v90) = h) (hW : V (Proc.devRef (τ := τ) .tc main_arg6) = Wf) (hb : V (Proc.devRef (τ := τ) .tc main_arg7) = bf) :
    after (opsS (F := Ideal)) V (Proc.devRef (τ := τ) .tc main_v94)
      = addf (Host.dotGeneral (F := Ideal) dot_S100000x128_S128x16_S100000x16_1_0_0_1_n_n none h Wf)
          (broadcastInDim S100000x16 ![0, 1] bcast_S1x16_S100000x16_0_1 (broadcastInDim S1x16 ![1] bcast_S16_S1x16_1 bf)) := by
  subst hh hW hb
  after_results_simp

/-! ### The log-softmax -/

/-- The row maximum: the fold from −∞, and once more against −∞. -/
abbrev opsLSa : List (HloOp τ sig (Elt F)) :=
  [ TRef.nullary (TRef.of (T := ⟨S_, .f32⟩) main_call3_cst) (constant S_ .f32 0xFF800000#32),
    TRef.binary (TRef.of (T := ⟨S100000x16, .f32⟩) main_v94) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf ]

/-- The entries less their row's maximum, and their exponentials. -/
abbrev opsLSb : List (HloOp τ sig (Elt F)) :=
  [ TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v94) (TRef.of (T := ⟨S100000x16, .f32⟩) main_call3_v4) (TRef.of (T := ⟨S100000x16, .f32⟩) main_call3_v5) subf,
    TRef.unary (TRef.of (T := ⟨S100000x16, .f32⟩) main_call3_v5) (TRef.of (T := ⟨S100000x16, .f32⟩) main_call3_v6) Host.exp ]

/-- The row sums from zero, their logarithms, and the final difference. -/
abbrev opsLSc : List (HloOp τ sig (Elt F)) :=
  [ TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v95) subf ]

/-- Contents carried to a buffer's own type are unchanged … -/
theorem toBuf_of_self {Val : EltTy → Type} (r : Ref sig .tc) (p : r.space ≠ .host) (q : r.isScoped = false) (v : r.ty.Contents Val) :
    (TRef.of (T := r.ty) r rfl p q).toBuf v = v := rfl
/-- … and so are contents carried back. -/
theorem ofBuf_of_self {Val : EltTy → Type} (r : Ref sig .tc) (p : r.space ≠ .host) (q : r.isScoped = false) (v : r.ty.Contents Val) :
    (TRef.of (T := r.ty) r rfl p q).ofBuf v = v := rfl

/-- The row maximum as a vector. -/
def rowMaxV (Z : FVec Ideal S100000x16 .f32) : FVec Ideal S100000 .f32 :=
  maximumf (broadcastInDim S100000 ![] bcast_S_S100000 (constant (F := Ideal) S_ .f32 0xFF800000#32))
      (Host.reduce FloatOps.maximumf Z (constant (F := Ideal) S_ .f32 0xFF800000#32) reducesTo_S100000x16_S100000_d1 h_S_)

theorem LSa_v2 (V : Valuation τ sig (Elt Ideal)) (Z : FVec Ideal S100000x16 .f32) (hZ : V (Proc.devRef (τ := τ) .tc main_v94) = Z) :
    after (opsLSa (F := Ideal)) V (Proc.devRef (τ := τ) .tc main_call3_v2) = rowMaxV Z := by
  subst hZ
  after_results
  repeat rw [toBuf_of_self]
  repeat rw [ofBuf_of_self]
  rfl
theorem keepLSa_v94 (V : Valuation τ sig (Elt Ideal)) : after (opsLSa (F := Ideal)) V (Proc.devRef (τ := τ) .tc main_v94) = V (Proc.devRef (τ := τ) .tc main_v94) := by
  after_results_simp

theorem LSb_v5 (V : Valuation τ sig (Elt Ideal)) (Z : FVec Ideal S100000x16 .f32) (M : FVec Ideal S100000 .f32)
    (hZ : V (Proc.devRef (τ := τ) .tc main_v94) = Z) (hM : V (Proc.devRef (τ := τ) .tc main_call3_v2) = M) :
    after (opsLSb (F := Ideal)) V (Proc.devRef (τ := τ) .tc main_call3_v5)
      = subf Z (broadcastInDim S100000x16 ![0, 1] bcast_S100000x1_S100000x16_0_1 (broadcastInDim S100000x1 ![0] bcast_S100000_S100000x1_0 M)) := by
  subst hZ hM
  after_results
  rfl
theorem LSb_v6 (V : Valuation τ sig (Elt Ideal)) (Z : FVec Ideal S100000x16 .f32) (M : FVec Ideal S100000 .f32)
    (hZ : V (Proc.devRef (τ := τ) .tc main_v94) = Z) (hM : V (Proc.devRef (τ := τ) .tc main_call3_v2) = M) :
    after (opsLSb (F := Ideal)) V (Proc.devRef (τ := τ) .tc main_call3_v6)
      = Host.exp (subf Z (broadcastInDim S100000x16 ![0, 1] bcast_S100000x1_S100000x16_0_1 (broadcastInDim S100000x1 ![0] bcast_S100000_S100000x1_0 M))) := by
  subst hZ hM
  after_results
  rfl
theorem LSc_v95 (V : Valuation τ sig (Elt Ideal)) (D E : FVec Ideal S100000x16 .f32)
    (hD : V (Proc.devRef (τ := τ) .tc main_call3_v5) = D) (hE : V (Proc.devRef (τ := τ) .tc main_call3_v6) = E) :
    after (opsLSc (F := Ideal)) V (Proc.devRef (τ := τ) .tc main_v95)
      = subf D (broadcastInDim S100000x16 ![0, 1] bcast_S100000x1_S100000x16_0_1 (Host.log (broadcastInDim S100000x1 ![0] bcast_S100000_S100000x1_0
          (Host.reduceAdd E (constant (F := Ideal) S_ .f32 0x00000000#32) reducesTo_S100000x16_S100000_d1 h_S_)))) := by
  subst hD hE
  after_results
  rfl

/-! ### The second half, chained, and the whole line -/

section Chain2

variable (m : (ℓ : Loc nD τ sig) → Buf (Elt Ideal) ℓ) (c : Dev nD)

/-- The device's buffers after each of the remaining stretches. -/
def V7 : Valuation τ sig (Elt Ideal) := after (opsL2 (F := Ideal)) (V6 m c)
def V8 : Valuation τ sig (Elt Ideal) := after (opsR2 (F := Ideal)) (V7 m c)
def V9 : Valuation τ sig (Elt Ideal) := after (opsS (F := Ideal)) (V8 m c)
def V10 : Valuation τ sig (Elt Ideal) := after (opsLSa (F := Ideal)) (V9 m c)
def V11 : Valuation τ sig (Elt Ideal) := after (opsLSb (F := Ideal)) (V10 m c)
def V12 : Valuation τ sig (Elt Ideal) := after (opsLSc (F := Ideal)) (V11 m c)

theorem v7_v89 : V7 m c (Proc.devRef (τ := τ) .tc main_v89) = addf
        (subf
          (addf
            (mulf (broadcastInDim S100000x128 ![] bcast_S_S100000x128 (constant (F := Ideal) S_ .f32 0x3F733333#32)) (Host.dotGeneral (F := Ideal) (φ₁ := .f32) (φ₂ := .f32) dot_S100000x128_S128x128_S100000x128_1_0_0_1_n_n none (layer (m ((c.tc : Thread nD τ).loc main_arg1)) (Host.dotGeneral (F := Ideal) (φ₁ := .f32) (φ₂ := .f32) dot_S100000x256_S256x128_S100000x128_1_0_0_1_n_n none (m ((c.tc : Thread nD τ).loc main_arg0)) (m ((c.tc : Thread nD τ).loc main_arg2))) (m ((c.tc : Thread nD τ).loc main_arg3))) (m ((c.tc : Thread nD τ).loc main_arg4))))
            (mulf (broadcastInDim S100000x128 ![] bcast_S_S100000x128 (constant (F := Ideal) S_ .f32 0x3DCCCCCD#32))
              (Host.scatterAdd (F := Ideal) scatter_S100000x128_S900000x1_S900000x128_1_0_0_1
                (broadcastInDim S100000x128 ![] bcast_S_S100000x128 (constant (F := Ideal) S_ .f32 0x00000000#32)) (Glue.col1 (Glue.dst (m ((c.tc : Thread nD τ).loc main_arg1))))
                (mulf (broadcastInDim S900000x128 ![0, 1] bcast_S900000x1_S900000x128_0_1 (Glue.col1 (Glue.wnorm (m ((c.tc : Thread nD τ).loc main_arg1)))))
                  (Host.gather gather_S100000x128_S900000x1_S900000x128_1_0_n_n_0_1_1128 (Host.dotGeneral (F := Ideal) (φ₁ := .f32) (φ₂ := .f32) dot_S100000x128_S128x128_S100000x128_1_0_0_1_n_n none (layer (m ((c.tc : Thread nD τ).loc main_arg1)) (Host.dotGeneral (F := Ideal) (φ₁ := .f32) (φ₂ := .f32) dot_S100000x256_S256x128_S100000x128_1_0_0_1_n_n none (m ((c.tc : Thread nD τ).loc main_arg0)) (m ((c.tc : Thread nD τ).loc main_arg2))) (m ((c.tc : Thread nD τ).loc main_arg3))) (m ((c.tc : Thread nD τ).loc main_arg4))) (Glue.col1 (Glue.wrap (Glue.src (m ((c.tc : Thread nD τ).loc main_arg1))))))))))
          (mulf (broadcastInDim S100000x128 ![] bcast_S_S100000x128 (constant (F := Ideal) S_ .f32 0x3D4CCCCD#32))
            (Host.dotGeneral (F := Ideal) dot_S100000x128_S128x128_S100000x128_1_0_0_1_n_n none (Host.dotGeneral (F := Ideal) (φ₁ := .f32) (φ₂ := .f32) dot_S100000x128_S128x128_S100000x128_1_0_0_1_n_n none (layer (m ((c.tc : Thread nD τ).loc main_arg1)) (Host.dotGeneral (F := Ideal) (φ₁ := .f32) (φ₂ := .f32) dot_S100000x256_S256x128_S100000x128_1_0_0_1_n_n none (m ((c.tc : Thread nD τ).loc main_arg0)) (m ((c.tc : Thread nD τ).loc main_arg2))) (m ((c.tc : Thread nD τ).loc main_arg3))) (m ((c.tc : Thread nD τ).loc main_arg4)))
              (Host.dotGeneral (F := Ideal) dot_S128x100000_S100000x128_S128x128_1_0_0_1_n_n none
                (transpose S128x100000 [1, 0] (Host.dotGeneral (F := Ideal) (φ₁ := .f32) (φ₂ := .f32) dot_S100000x128_S128x128_S100000x128_1_0_0_1_n_n none (layer (m ((c.tc : Thread nD τ).loc main_arg1)) (Host.dotGeneral (F := Ideal) (φ₁ := .f32) (φ₂ := .f32) dot_S100000x256_S256x128_S100000x128_1_0_0_1_n_n none (m ((c.tc : Thread nD τ).loc main_arg0)) (m ((c.tc : Thread nD τ).loc main_arg2))) (m ((c.tc : Thread nD τ).loc main_arg3))) (m ((c.tc : Thread nD τ).loc main_arg4))) transposes_S100000x128_S128x100000_1_0) (Host.dotGeneral (F := Ideal) (φ₁ := .f32) (φ₂ := .f32) dot_S100000x128_S128x128_S100000x128_1_0_0_1_n_n none (layer (m ((c.tc : Thread nD τ).loc main_arg1)) (Host.dotGeneral (F := Ideal) (φ₁ := .f32) (φ₂ := .f32) dot_S100000x256_S256x128_S100000x128_1_0_0_1_n_n none (m ((c.tc : Thread nD τ).loc main_arg0)) (m ((c.tc : Thread nD τ).loc main_arg2))) (m ((c.tc : Thread nD τ).loc main_arg3))) (m ((c.tc : Thread nD τ).loc main_arg4)))))))
        (broadcastInDim S100000x128 ![0, 1] bcast_S1x128_S100000x128_0_1 (broadcastInDim S1x128 ![1] bcast_S128_S1x128_1 (m ((c.tc : Thread nD τ).loc main_arg5)))) :=
  L2_v89 (V6 m c) _ _ _ _ _ _ (v6_v3 m c) (v6_v6 m c) (v6_v32 m c) (v6_v61 m c) (v6_arg4 m c) (v6_arg5 m c)
theorem v7_arg6 : V7 m c (Proc.devRef (τ := τ) .tc main_arg6) = (m ((c.tc : Thread nD τ).loc main_arg6)) :=
  (keepL2_arg6 (V6 m c)).trans (v6_arg6 m c)
theorem v7_arg7 : V7 m c (Proc.devRef (τ := τ) .tc main_arg7) = (m ((c.tc : Thread nD τ).loc main_arg7)) :=
  (keepL2_arg7 (V6 m c)).trans (v6_arg7 m c)
theorem v8_v90 : V8 m c (Proc.devRef (τ := τ) .tc main_v90) = (layer (m ((c.tc : Thread nD τ).loc main_arg1)) (Host.dotGeneral (F := Ideal) (φ₁ := .f32) (φ₂ := .f32) dot_S100000x128_S128x128_S100000x128_1_0_0_1_n_n none (layer (m ((c.tc : Thread nD τ).loc main_arg1)) (Host.dotGeneral (F := Ideal) (φ₁ := .f32) (φ₂ := .f32) dot_S100000x256_S256x128_S100000x128_1_0_0_1_n_n none (m ((c.tc : Thread nD τ).loc main_arg0)) (m ((c.tc : Thread nD τ).loc main_arg2))) (m ((c.tc : Thread nD τ).loc main_arg3))) (m ((c.tc : Thread nD τ).loc main_arg4))) (m ((c.tc : Thread nD τ).loc main_arg5))) :=
  R2_v90 (V7 m c) _ (v7_v89 m c)
theorem v8_arg6 : V8 m c (Proc.devRef (τ := τ) .tc main_arg6) = (m ((c.tc : Thread nD τ).loc main_arg6)) :=
  (keepR2_arg6 (V7 m c)).trans (v7_arg6 m c)
theorem v8_arg7 : V8 m c (Proc.devRef (τ := τ) .tc main_arg7) = (m ((c.tc : Thread nD τ).loc main_arg7)) :=
  (keepR2_arg7 (V7 m c)).trans (v7_arg7 m c)
theorem v9_v94 : V9 m c (Proc.devRef (τ := τ) .tc main_v94) = (scores (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  S_v94 (V8 m c) _ _ _ (v8_v90 m c) (v8_arg6 m c) (v8_arg7 m c)
theorem v10_v2 : V10 m c (Proc.devRef (τ := τ) .tc main_call3_v2) = rowMaxV (scores (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  LSa_v2 (V9 m c) _ (v9_v94 m c)
theorem v10_v94 : V10 m c (Proc.devRef (τ := τ) .tc main_v94) = (scores (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) :=
  (keepLSa_v94 (V9 m c)).trans (v9_v94 m c)
theorem v11_v5 : V11 m c (Proc.devRef (τ := τ) .tc main_call3_v5) = subf (scores (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (rowMaxB (scores (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))) :=
  LSb_v5 (V10 m c) _ _ (v10_v94 m c) (v10_v2 m c)
theorem v11_v6 : V11 m c (Proc.devRef (τ := τ) .tc main_call3_v6) = Host.exp (subf (scores (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (rowMaxB (scores (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))))) :=
  LSb_v6 (V10 m c) _ _ (v10_v94 m c) (v10_v2 m c)
theorem v12_v95 : V12 m c (Proc.devRef (τ := τ) .tc main_v95) = out m c :=
  LSc_v95 (V11 m c) _ _ (v11_v5 m c) (v11_v6 m c)

end Chain2

/-! ## The whole line -/

set_option maxRecDepth 8192 in
/-- The 137 operations are the twelve stretches, in order. -/
theorem ops_split : (ops : List (HloOp τ sig (Elt F)))
    = opsE1 ++ (opsE2a ++ (opsW ++ (opsE2b ++ (opsL1 ++ (opsR1 ++ (opsL2 ++ (opsR2 ++ (opsS ++ (opsLSa ++ (opsLSb ++ opsLSc)))))))))) := rfl

/-- The result buffer after the 137 operations, from the launch contents: the staged term. -/
theorem res_eq (m : (ℓ : Loc nD τ sig) → Buf (Elt Ideal) ℓ) (c : Dev nD) :
    after (ops (F := Ideal)) (launchContents m c) (Proc.devRef (τ := τ) .tc main_v95) = out m c := by
  rw [ops_split]
  simp only [after_append]
  exact v12_v95 m c

/-! No operation writes an argument. -/

set_option maxRecDepth 8192 in
set_option maxHeartbeats 54800000 in
theorem arg0_eq (m : (ℓ : Loc nD τ sig) → Buf (Elt Ideal) ℓ) (c : Dev nD) :
    after (ops (F := Ideal)) (launchContents m c) (Proc.devRef (τ := τ) .tc main_arg0) = m ((c.tc : Thread nD τ).loc main_arg0) := by
  after_results_simp <;> rfl

set_option maxRecDepth 8192 in
set_option maxHeartbeats 54800000 in
theorem arg1_eq (m : (ℓ : Loc nD τ sig) → Buf (Elt Ideal) ℓ) (c : Dev nD) :
    after (ops (F := Ideal)) (launchContents m c) (Proc.devRef (τ := τ) .tc main_arg1) = m ((c.tc : Thread nD τ).loc main_arg1) := by
  after_results_simp <;> rfl

set_option maxRecDepth 8192 in
set_option maxHeartbeats 54800000 in
theorem arg2_eq (m : (ℓ : Loc nD τ sig) → Buf (Elt Ideal) ℓ) (c : Dev nD) :
    after (ops (F := Ideal)) (launchContents m c) (Proc.devRef (τ := τ) .tc main_arg2) = m ((c.tc : Thread nD τ).loc main_arg2) := by
  after_results_simp <;> rfl

set_option maxRecDepth 8192 in
set_option maxHeartbeats 54800000 in
theorem arg3_eq (m : (ℓ : Loc nD τ sig) → Buf (Elt Ideal) ℓ) (c : Dev nD) :
    after (ops (F := Ideal)) (launchContents m c) (Proc.devRef (τ := τ) .tc main_arg3) = m ((c.tc : Thread nD τ).loc main_arg3) := by
  after_results_simp <;> rfl

set_option maxRecDepth 8192 in
set_option maxHeartbeats 54800000 in
theorem arg4_eq (m : (ℓ : Loc nD τ sig) → Buf (Elt Ideal) ℓ) (c : Dev nD) :
    after (ops (F := Ideal)) (launchContents m c) (Proc.devRef (τ := τ) .tc main_arg4) = m ((c.tc : Thread nD τ).loc main_arg4) := by
  after_results_simp <;> rfl

set_option maxRecDepth 8192 in
set_option maxHeartbeats 54800000 in
theorem arg5_eq (m : (ℓ : Loc nD τ sig) → Buf (Elt Ideal) ℓ) (c : Dev nD) :
    after (ops (F := Ideal)) (launchContents m c) (Proc.devRef (τ := τ) .tc main_arg5) = m ((c.tc : Thread nD τ).loc main_arg5) := by
  after_results_simp <;> rfl

set_option maxRecDepth 8192 in
set_option maxHeartbeats 54800000 in
theorem arg6_eq (m : (ℓ : Loc nD τ sig) → Buf (Elt Ideal) ℓ) (c : Dev nD) :
    after (ops (F := Ideal)) (launchContents m c) (Proc.devRef (τ := τ) .tc main_arg6) = m ((c.tc : Thread nD τ).loc main_arg6) := by
  after_results_simp <;> rfl

set_option maxRecDepth 8192 in
set_option maxHeartbeats 54800000 in
theorem arg7_eq (m : (ℓ : Loc nD τ sig) → Buf (Elt Ideal) ℓ) (c : Dev nD) :
    after (ops (F := Ideal)) (launchContents m c) (Proc.devRef (τ := τ) .tc main_arg7) = m ((c.tc : Thread nD τ).loc main_arg7) := by
  after_results_simp <;> rfl

/-- On every device, from any memory with zero counters: every weakly fair execution of the reference terminates with the
    result buffer at the staged term of the arguments' launch contents and the eight arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v95).trans (res_eq m c),
      (h c main_arg0).trans (arg0_eq m c), (h c main_arg1).trans (arg1_eq m c), (h c main_arg2).trans (arg2_eq m c),
      (h c main_arg3).trans (arg3_eq m c), (h c main_arg4).trans (arg4_eq m c), (h c main_arg5).trans (arg5_eq m c),
      (h c main_arg6).trans (arg6_eq m c), (h c main_arg7).trans (arg7_eq m c)⟩)
    (run_seq scopedRefs_eq scopedSems_eq defs main (fun _ => ops) main_eq (fun _ => ops_sub) m ρ)

end Cert.ReferenceIdeal.RefValue

end
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.LibConcat3.lean ====
/-
  Three arrays laid end to end along one axis, the transpose of a matrix, and the regrouping of the leading two axes of
  a rank-3 array into one axis of rows, each read at an index written by coordinates.

  Along the joined axis a position below the first extent lies in the first piece; a position that is the first extent
  plus an offset below the second extent lies in the second piece at that offset; a position that is the first two
  extents plus an offset lies in the third piece.  A transposed matrix at (j, i) is the matrix at (i, j).  Row
  n * b + s of the regrouped array is row s of plane n, because both orders are row-major.
-/
import Idealize.ShloMosaic.Lib.Pipeline.Value
import Idealize.ShloMosaic.Lib.ValueIdx

namespace Cert.LibConcat3

open Idealize.ShloMosaic Idealize.ShloMosaic.ValueIdx

variable {α : Type}

/-! ## Three vectors end to end -/

/-- Three vectors laid end to end, read at a position below the first extent: the first vector there. -/
theorem concat3_vec_apply_fst {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₀) (hj : j.val = c.val) :
    concatenate ⟨1, ![b]⟩ 0 [⟨⟨1, ![b₀]⟩, x₀⟩, ⟨⟨1, ![b₁]⟩, x₁⟩, ⟨⟨1, ![b₂]⟩, x₂⟩] h (ix1 j) = x₀ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 0 (by simp) _ x₀ rfl rfl 0 rfl (ix1 c)
    (fun d hd => by match d with | ⟨0, _⟩ => exact absurd rfl hd)
    (by show 0 + c.val = j.val; omega)

/-- Three vectors laid end to end, read at the first extent plus an offset: the second vector at the offset. -/
theorem concat3_vec_apply_snd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₁) (hj : j.val = b₀ + c.val) :
    concatenate ⟨1, ![b]⟩ 0 [⟨⟨1, ![b₀]⟩, x₀⟩, ⟨⟨1, ![b₁]⟩, x₁⟩, ⟨⟨1, ![b₂]⟩, x₂⟩] h (ix1 j) = x₁ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 1 (by simp) _ x₁ rfl rfl b₀ (Nat.add_zero b₀) (ix1 c)
    (fun d hd => by match d with | ⟨0, _⟩ => exact absurd rfl hd)
    (by show b₀ + c.val = j.val; omega)

/-- Three vectors laid end to end, read at the first two extents plus an offset: the third vector at the offset. -/
theorem concat3_vec_apply_thd {b₀ b₁ b₂ b : ℕ} (x₀ : (⟨1, ![b₀]⟩ : Shape).Idx → α) (x₁ : (⟨1, ![b₁]⟩ : Shape).Idx → α)
    (x₂ : (⟨1, ![b₂]⟩ : Shape).Idx → α)
    (h : Shape.Concatenates [(⟨1, ![b₀]⟩ : Shape), ⟨1, ![b₁]⟩, ⟨1, ![b₂]⟩] ⟨1, ![b]⟩ 0)
    (j : Fin b) (c : Fin b₂) (hj : j.val = b₀ + b₁ + c.val) :
    concatenate ⟨1, ![b]⟩ 0 [⟨⟨1, ![b₀]⟩, x₀⟩, ⟨⟨1, ![b₁]⟩, x₁⟩, ⟨⟨1, ![b₂]⟩, x₂⟩] h (ix1 j) = x₂ (ix1 c) :=
  concatenate_apply_piece (t := ⟨1, ![b]⟩) 0 [⟨⟨1, ![b₀]⟩, x₀⟩, ⟨⟨1, ![b₁]⟩, x₁⟩, ⟨⟨1, ![b₂]⟩, x₂⟩] h (ix1 j) 2 (by simp) _ x₂ rfl rfl (b₀ + (b₁ + 0)) rfl (ix1 c)
    (fun d hd => by match d with | ⟨0, _⟩ => exact absurd rfl hd)
    (by show b₀ + (b₁ + 0) + c.val = j.val; omega)

/-! ## Three matrices side by side -/

/-- Three matrices of one height laid side by side, read at a column below the first width: the first matrix there. -/
theorem concat3_cols_apply_fst {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₀) (hj : j.val = c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₀ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 0 (by simp) _ x₀ rfl rfl 0 rfl (ix2 r c)
    (fun d hd => by match d with | ⟨0, _⟩ => rfl | ⟨1, _⟩ => exact absurd rfl hd)
    (by show 0 + c.val = j.val; omega)

/-- Three matrices of one height laid side by side, read at the first width plus an offset: the second matrix at the
    offset. -/
theorem concat3_cols_apply_snd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₁) (hj : j.val = b₀ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₁ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 1 (by simp) _ x₁ rfl rfl b₀ (Nat.add_zero b₀) (ix2 r c)
    (fun d hd => by match d with | ⟨0, _⟩ => rfl | ⟨1, _⟩ => exact absurd rfl hd)
    (by show b₀ + c.val = j.val; omega)

/-- Three matrices of one height laid side by side, read at the first two widths plus an offset: the third matrix at
    the offset. -/
theorem concat3_cols_apply_thd {a b₀ b₁ b₂ b : ℕ} (x₀ : (⟨2, ![a, b₀]⟩ : Shape).Idx → α)
    (x₁ : (⟨2, ![a, b₁]⟩ : Shape).Idx → α) (x₂ : (⟨2, ![a, b₂]⟩ : Shape).Idx → α)
    (h : Shape.Concatenates [(⟨2, ![a, b₀]⟩ : Shape), ⟨2, ![a, b₁]⟩, ⟨2, ![a, b₂]⟩] ⟨2, ![a, b]⟩ 1)
    (r : Fin a) (j : Fin b) (c : Fin b₂) (hj : j.val = b₀ + b₁ + c.val) :
    concatenate ⟨2, ![a, b]⟩ 1 [⟨⟨2, ![a, b₀]⟩, x₀⟩, ⟨⟨2, ![a, b₁]⟩, x₁⟩, ⟨⟨2, ![a, b₂]⟩, x₂⟩] h (ix2 r j)
      = x₂ (ix2 r c) :=
  concatenate_apply_piece (t := ⟨2, ![a, b]⟩) 1 [⟨⟨2, ![a, b₀]⟩, x₀⟩, ⟨⟨2, ![a, b₁]⟩, x₁⟩, ⟨⟨2, ![a, b₂]⟩, x₂⟩] h (ix2 r j) 2 (by simp) _ x₂ rfl rfl (b₀ + (b₁ + 0)) rfl (ix2 r c)
    (fun d hd => by match d with | ⟨0, _⟩ => rfl | ⟨1, _⟩ => exact absurd rfl hd)
    (by show b₀ + (b₁ + 0) + c.val = j.val; omega)

/-! ## The transpose of a matrix -/

/-- The transpose of an `[a, b]` matrix reads, at (j, i), the matrix at (i, j). -/
theorem transpose_10_apply {a b : ℕ} (x : (⟨2, ![a, b]⟩ : Shape).Idx → α)
    (h : (⟨2, ![a, b]⟩ : Shape).Transposes [1, 0] ⟨2, ![b, a]⟩) (i : Fin a) (j : Fin b) :
    transpose ⟨2, ![b, a]⟩ [1, 0] x h (ix2 j i) = x (ix2 i j) :=
  transpose_apply [1, 0] x h (ix2 j i) (ix2 i j) fun d => by
    match d with
    | ⟨0, _⟩ => rfl
    | ⟨1, _⟩ => rfl

/-! ## Planes of rows as one run of rows, and back -/

/-- An `[a, b, c]` array regrouped as `[m, c]` reads, at row `n * b + s`, row `s` of plane `n`. -/
theorem shapeCast_planes_rows_apply {a b c m : ℕ} (x : (⟨3, ![a, b, c]⟩ : Shape).Idx → α)
    (h : (⟨3, ![a, b, c]⟩ : Shape).ShapeCasts ⟨2, ![m, c]⟩) (n : Fin a) (s : Fin b) (e : Fin c) (row : Fin m)
    (hrow : row.val = n.val * b + s.val) :
    shapeCast ⟨2, ![m, c]⟩ x h (ix2 row e) = x (ix3 n s e) :=
  shapeCast_apply x h _ _ (by
    rw [Shape.rowMajor_val_three, Shape.rowMajor_val_two]
    show (n.val * b + s.val) * c + e.val = row.val * c + e.val
    rw [hrow])

/-- An `[m, c]` array regrouped as `[a, b, c]` reads, at row `s` of plane `n`, row `n * b + s`. -/
theorem shapeCast_rows_planes_apply {a b c m : ℕ} (y : (⟨2, ![m, c]⟩ : Shape).Idx → α)
    (h : (⟨2, ![m, c]⟩ : Shape).ShapeCasts ⟨3, ![a, b, c]⟩) (n : Fin a) (s : Fin b) (e : Fin c) (row : Fin m)
    (hrow : row.val = n.val * b + s.val) :
    shapeCast ⟨3, ![a, b, c]⟩ y h (ix3 n s e) = y (ix2 row e) :=
  shapeCast_apply y h _ _ (by
    rw [Shape.rowMajor_val_three, Shape.rowMajor_val_two]
    show row.val * c + e.val = (n.val * b + s.val) * c + e.val
    rw [hrow])

end Cert.LibConcat3
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibDenseBlock.lean ====
/-
  A fused dense layer on a block of rows, read at an entry, on the extended reals.

  The block computes  A · WL + X · WR + b  (and, for a rectified layer, the maximum of that with zero): the two
  matrix products are accumulated into zero matrices from operands first rounded to a narrower float format — at the
  ideal values the rounding is the identity —, they are added, and a one-row matrix `b` is repeated down the rows and
  added.  Entry (p, q) is

      (∑ k, A[p, k] · WL[k, q]  +  ∑ k, X[p, k] · WR[k, q])  +  b[0, q].

  All extents are variables.
-/
import proofs.«170132_j54760833024262_2_alg».proof.Proof.LibLayout

noncomputable section

namespace Cert.LibDenseBlock

open Idealize.ShloMosaic Idealize.ShloMosaic.ValueIdx

/-- Entry (p, q) of  A · WL + X · WR + b : the two contractions over the shared inner extent, then the bias of
    column q. -/
def affine {n d e : ℕ} (A X : FVec Ideal ⟨2, ![n, d]⟩ .f32) (WL WR : FVec Ideal ⟨2, ![d, e]⟩ .f32)
    (b : Fin e → Ideal .f32) (p : Fin n) (q : Fin e) : Ideal .f32 :=
  (∑ k : Fin d, A (ix2 p k) * WL (ix2 k q) + ∑ k : Fin d, X (ix2 p k) * WR (ix2 k q)) + b q

/-- The block's arithmetic as the vector unit spells it — operands rounded to a narrower format, two products into
    zero accumulators, their sum, a one-row bias repeated down the rows and added — is `affine` at every entry.
    The dimension record's own facts (one contracted axis of extent `d`, rows against columns) are hypotheses, closed
    at a literal record by `rfl`. -/
theorem block_affine_apply {r d e : ℕ} {ψ : FTy} (D : DotDims ⟨2, ![r, d]⟩ ⟨2, ![d, e]⟩ ⟨2, ![r, e]⟩)
    (hr : D.contr.rank = 1) (hs : D.contr.size ⟨0, by omega⟩ = d)
    (hlc : D.lhsContracting = [1]) (hrc : D.rhsContracting = [0])
    (hl0 : ∀ j k, (D.lhsIdx j k 0).val = (j 0).val) (hr1 : ∀ j k, (D.rhsIdx j k 1).val = (j 1).val)
    (hψ : ψ.bits < FTy.f32.bits)
    (a x : FVec Ideal ⟨2, ![r, d]⟩ .f32) (wl wr : FVec Ideal ⟨2, ![d, e]⟩ .f32) (b : FVec Ideal ⟨2, ![1, e]⟩ .f32)
    (hb : (⟨2, ![1, e]⟩ : Shape).Broadcasts ⟨2, ![r, e]⟩) (p : Fin r) (q : Fin e) :
    addf (addf (matmul D none (truncf ψ a hψ) (truncf ψ wl hψ) (constant ⟨2, ![r, e]⟩ .f32 0x00000000#32))
          (matmul D none (truncf ψ x hψ) (truncf ψ wr hψ) (constant ⟨2, ![r, e]⟩ .f32 0x00000000#32)))
        (broadcastTo ⟨2, ![r, e]⟩ b hb) (ix2 p q)
      = affine a x wl wr (fun q => b (ix2 (0 : Fin 1) q)) p q := by
  rw [addf_apply, addf_apply,
    Cert.LibLayout.matmul_rows_cols_apply D hr hs hlc hrc hl0 hr1 none (truncf ψ a hψ) (truncf ψ wl hψ) p q,
    Cert.LibLayout.matmul_rows_cols_apply D hr hs hlc hrc hl0 hr1 none (truncf ψ x hψ) (truncf ψ wr hψ) p q,
    broadcastTo_1b_ab_apply b hb p q]
  rfl

end Cert.LibDenseBlock

end
-- ==== Proof.LibSageLayer.lean ====
/-
  One layer of a mean-aggregating graph convolution, and a row-wise log-softmax, each as the vector unit spells it on a
  block of rows and as the host spells it on the whole matrix, read at an entry on the extended reals.

  The dense layer is  A · WL + X · WR + b  (A the aggregated neighbours, X the nodes' own features, b a one-row bias).
  The vector unit adds the two products first and the bias last; the host adds the bias to the first product and the second
  product last.  Addition of extended reals is commutative and associative, so both are the entry
  (∑ k, A[p,k] · WL[k,q] + ∑ k, X[p,k] · WR[k,q]) + b[0,q]; a rectified layer takes the maximum of that with zero on both
  sides.

  The log-softmax of a row L is  (L t − M) − log ∑ u, exp (L u − M)  with M the row's maximum taken from −∞.  The host takes
  the maximum once more against −∞, which changes nothing, and starts its row sum from zero.

  All extents are variables.
-/
import proofs.«170132_j54760833024262_2_alg».proof.Proof.LibDenseBlock
import proofs.«170132_j54760833024262_2_alg».proof.Proof.LibHostDot
import Idealize.ShloMosaic.Lib.IdealHost
import Idealize.ShloMosaic.PureOps.Reduce

noncomputable section

namespace Cert.LibSageLayer

open Idealize.ShloMosaic Idealize.ShloMosaic.ValueIdx Cert.LibDenseBlock

/-- A coordinate below an extent is itself, or zero when the extent is one. -/
theorem val_eq_ite {n : Nat} (a : Fin n) : a.val = if n = 1 then 0 else a.val := by
  split
  · have := a.isLt; omega
  · rfl

/-- A one-row matrix broadcast down the rows by the host reads, at (p, q), the row's entry q. -/
theorem hostRow_apply {α : Type} {a n : Nat} (b : (⟨2, ![1, n]⟩ : Shape).Idx → α)
    (h4 : (⟨2, ![1, n]⟩ : Shape).BroadcastsInDim ⟨2, ![a, n]⟩ (![0, 1] : Fin 2 → Fin 2)) (p : Fin a) (q : Fin n) :
    broadcastInDim ⟨2, ![a, n]⟩ ![0, 1] h4 b (ix2 p q) = b (ix2 (0 : Fin 1) q) :=
  broadcastInDim_apply _ h4 b (ix2 p q) (ix2 0 q) (fun c => by
    match c with
    | ⟨0, _⟩ => show (0 : Nat) = if (1 : Nat) = 1 then 0 else _; rw [if_pos rfl]
    | ⟨1, _⟩ => exact val_eq_ite (n := n) q)

/-- A vector given a trailing unit axis by the host reads, at (p, 0), the vector at p. -/
theorem hostCol_apply {α : Type} {a : Nat} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v (ix2 p u) (ix1 p) (fun c => by
    match c with
    | ⟨0, _⟩ => exact val_eq_ite (n := a) p)

/-- A column broadcast along the rows by the host reads, at (p, q), the column's entry of row p. -/
theorem hostColRows_apply {α : Type} {a n : Nat} (v : (⟨2, ![a, 1]⟩ : Shape).Idx → α)
    (h : (⟨2, ![a, 1]⟩ : Shape).BroadcastsInDim ⟨2, ![a, n]⟩ (![0, 1] : Fin 2 → Fin 2)) (p : Fin a) (q : Fin n) :
    broadcastInDim ⟨2, ![a, n]⟩ ![0, 1] h v (ix2 p q) = v (ix2 p (0 : Fin 1)) :=
  broadcastInDim_apply _ h v (ix2 p q) (ix2 p 0) (fun c => by
    match c with
    | ⟨0, _⟩ => exact val_eq_ite (n := a) p
    | ⟨1, _⟩ => show (0 : Nat) = if (1 : Nat) = 1 then 0 else _; rw [if_pos rfl])

/-! ## The dense layer -/

/-- The host's spelling of the affine layer — the first product, plus the bias row broadcast down the rows, plus the second
    product — at entry (p, q). -/
theorem hostAffine_apply {N d e : ℕ} (D : DotDims ⟨2, ![N, d]⟩ ⟨2, ![d, e]⟩ ⟨2, ![N, e]⟩)
    (hr : D.contr.rank = 1) (hs : D.contr.size ⟨0, by omega⟩ = d)
    (hlc : D.lhsContracting = [1]) (hrc : D.rhsContracting = [0])
    (hl0 : ∀ j k, (D.lhsIdx j k 0).val = (j 0).val) (hr1 : ∀ j k, (D.rhsIdx j k 1).val = (j 1).val)
    (A X : FVec Ideal ⟨2, ![N, d]⟩ .f32) (WL WR : FVec Ideal ⟨2, ![d, e]⟩ .f32) (B : FVec Ideal ⟨2, ![1, e]⟩ .f32)
    (h4 : (⟨2, ![1, e]⟩ : Shape).BroadcastsInDim ⟨2, ![N, e]⟩ (![0, 1] : Fin 2 → Fin 2)) (p : Fin N) (q : Fin e) :
    addf (addf (Host.dotGeneral D none A WL) (broadcastInDim ⟨2, ![N, e]⟩ ![0, 1] h4 B)) (Host.dotGeneral D none X WR) (ix2 p q)
      = affine A X WL WR (fun q => B (ix2 (0 : Fin 1) q)) p q := by
  rw [addf_apply, addf_apply,
    Cert.LibHostDot.dotGeneral_rows_cols_apply D hr hs hlc hrc hl0 hr1 none A WL p q,
    Cert.LibHostDot.dotGeneral_rows_cols_apply D hr hs hlc hrc hl0 hr1 none X WR p q,
    hostRow_apply B h4 p q]
  exact add_right_comm _ _ _

/-- The host's rectified layer at entry (p, q): the maximum of the affine entry and the zero word's value. -/
theorem hostRelu_apply {N d e : ℕ} (D : DotDims ⟨2, ![N, d]⟩ ⟨2, ![d, e]⟩ ⟨2, ![N, e]⟩)
    (hr : D.contr.rank = 1) (hs : D.contr.size ⟨0, by omega⟩ = d)
    (hlc : D.lhsContracting = [1]) (hrc : D.rhsContracting = [0])
    (hl0 : ∀ j k, (D.lhsIdx j k 0).val = (j 0).val) (hr1 : ∀ j k, (D.rhsIdx j k 1).val = (j 1).val)
    (A X : FVec Ideal ⟨2, ![N, d]⟩ .f32) (WL WR : FVec Ideal ⟨2, ![d, e]⟩ .f32) (B : FVec Ideal ⟨2, ![1, e]⟩ .f32)
    (h4 : (⟨2, ![1, e]⟩ : Shape).BroadcastsInDim ⟨2, ![N, e]⟩ (![0, 1] : Fin 2 → Fin 2))
    (h5 : (⟨0, ![]⟩ : Shape).BroadcastsInDim ⟨2, ![N, e]⟩ (![] : Fin 0 → Fin 2)) (p : Fin N) (q : Fin e) :
    maximumf (addf (addf (Host.dotGeneral D none A WL) (broadcastInDim ⟨2, ![N, e]⟩ ![0, 1] h4 B)) (Host.dotGeneral D none X WR))
        (broadcastInDim ⟨2, ![N, e]⟩ ![] h5 (constant (F := Ideal) ⟨0, ![]⟩ .f32 0x00000000#32)) (ix2 p q)
      = max (affine A X WL WR (fun q => B (ix2 (0 : Fin 1) q)) p q) (Ideal.ofBits .f32 0x00000000#32) := by
  rw [maximumf_apply, hostAffine_apply D hr hs hlc hrc hl0 hr1 A X WL WR B h4 p q, broadcastInDim_scalar_apply h5]
  rfl

/-- The vector unit's rectified block at entry (p, q): the same maximum. -/
theorem kernelRelu_apply {r d e : ℕ} {ψ : FTy} (D : DotDims ⟨2, ![r, d]⟩ ⟨2, ![d, e]⟩ ⟨2, ![r, e]⟩)
    (hr : D.contr.rank = 1) (hs : D.contr.size ⟨0, by omega⟩ = d)
    (hlc : D.lhsContracting = [1]) (hrc : D.rhsContracting = [0])
    (hl0 : ∀ j k, (D.lhsIdx j k 0).val = (j 0).val) (hr1 : ∀ j k, (D.rhsIdx j k 1).val = (j 1).val)
    (hψ : ψ.bits < FTy.f32.bits)
    (a x : FVec Ideal ⟨2, ![r, d]⟩ .f32) (wl wr : FVec Ideal ⟨2, ![d, e]⟩ .f32) (b : FVec Ideal ⟨2, ![1, e]⟩ .f32)
    (hb : (⟨2, ![1, e]⟩ : Shape).Broadcasts ⟨2, ![r, e]⟩) (p : Fin r) (q : Fin e) :
    maximumf (addf (addf (matmul D none (truncf ψ a hψ) (truncf ψ wl hψ) (constant ⟨2, ![r, e]⟩ .f32 0x00000000#32))
          (matmul D none (truncf ψ x hψ) (truncf ψ wr hψ) (constant ⟨2, ![r, e]⟩ .f32 0x00000000#32)))
        (broadcastTo ⟨2, ![r, e]⟩ b hb)) (broadcast ⟨2, ![r, e]⟩ (Scalar.ofBits (F := Ideal) .f32 0x00000000#32)) (ix2 p q)
      = max (affine a x wl wr (fun q => b (ix2 (0 : Fin 1) q)) p q) (Ideal.ofBits .f32 0x00000000#32) := by
  rw [maximumf_apply, block_affine_apply D hr hs hlc hrc hl0 hr1 hψ a x wl wr b hb p q]
  rfl

/-- Two affine entries agree when the rows and columns they read agree. -/
theorem affine_congr {n n' d e : ℕ} (a x : FVec Ideal ⟨2, ![n, d]⟩ .f32) (A X : FVec Ideal ⟨2, ![n', d]⟩ .f32)
    (wl wr WL WR : FVec Ideal ⟨2, ![d, e]⟩ .f32) (b B : Fin e → Ideal .f32) (y : Fin n) (p : Fin n') (q : Fin e)
    (ha : ∀ k, a (ix2 y k) = A (ix2 p k)) (hx : ∀ k, x (ix2 y k) = X (ix2 p k))
    (hwl : ∀ k, wl (ix2 k q) = WL (ix2 k q)) (hwr : ∀ k, wr (ix2 k q) = WR (ix2 k q)) (hb : b q = B q) :
    affine a x wl wr b y q = affine A X WL WR B p q := by
  unfold affine
  rw [hb]
  simp only [ha, hx, hwl, hwr]

/-! ## The row-wise log-softmax -/

/-- The host's logarithm and exponential at an index are the extended reals'. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- A row's maximum, taken from the value of the word 0xFF800000 (−∞). -/
def rowMax {n : ℕ} (L : Fin n → EReal) : EReal := Finset.univ.fold max (Ideal.ofBits .f32 0xFF800000#32) L

/-- The log-softmax of one row L at position t. -/
def lsmRow {n : ℕ} (L : Fin n → EReal) (t : Fin n) : EReal :=
  (L t - rowMax L) - Ideal.log (∑ u : Fin n, Ideal.exp (L u - rowMax L))

/-- The maximum of a start value and a fold of max from that start value is the fold. -/
theorem max_fold_self {n : ℕ} (a : EReal) (L : Fin n → EReal) :
    max a (Finset.univ.fold max a L) = Finset.univ.fold max a L :=
  max_eq_right (Finset.le_fold_max (s := Finset.univ) (f := L) (b := a) a |>.mpr (Or.inl le_rfl))

variable {a b : ℕ}

/-- The vector unit's log-softmax of a block: row maximum from −∞ laid as a column and broadcast, the difference, its
    exponential's row sum from zero laid as a column, the logarithm, broadcast, the difference again. -/
def kernelLsm (Z : FVec Ideal ⟨2, ![a, b]⟩ .f32) (hr : (⟨2, ![a, b]⟩ : Shape).Reduces [1] ⟨1, ![a]⟩) (hφ : FKind.Formats FTy.f32)
    (hm : (0xFF800000#32 : BitVec 32) = 0xFF800000#32) (hz : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  subf (subf Z (broadcastTo ⟨2, ![a, b]⟩ (shapeCast ⟨2, ![a, 1]⟩ (multiReduction .maximumf [1] ⟨1, ![a]⟩ Z 0xFF800000#32 hr hφ hm) hc) hb))
    (broadcastTo ⟨2, ![a, b]⟩ (log (shapeCast ⟨2, ![a, 1]⟩ (multiReduction .add [1] ⟨1, ![a]⟩
      (exp (subf Z (broadcastTo ⟨2, ![a, b]⟩ (shapeCast ⟨2, ![a, 1]⟩ (multiReduction .maximumf [1] ⟨1, ![a]⟩ Z 0xFF800000#32 hr hφ hm) hc) hb)))
      0x00000000#32 hr hφ hz) hc)) hb)

/-- The shifted entry: Z[r,t] less its row's maximum. -/
theorem kernelShift_apply (Z : FVec Ideal ⟨2, ![a, b]⟩ .f32) (hr : (⟨2, ![a, b]⟩ : Shape).Reduces [1] ⟨1, ![a]⟩) (hφ : FKind.Formats FTy.f32)
    (hm : (0xFF800000#32 : BitVec 32) = 0xFF800000#32)
    (hc : (⟨1, ![a]⟩ : Shape).ShapeCasts ⟨2, ![a, 1]⟩) (hb : (⟨2, ![a, 1]⟩ : Shape).Broadcasts ⟨2, ![a, b]⟩) (r : Fin a) (t : Fin b) :
    subf Z (broadcastTo ⟨2, ![a, b]⟩ (shapeCast ⟨2, ![a, 1]⟩ (multiReduction .maximumf [1] ⟨1, ![a]⟩ Z 0xFF800000#32 hr hφ hm) hc) hb) (ix2 r t)
      = Z (ix2 r t) - rowMax (fun u => Z (ix2 r u)) := by
  rw [subf_apply, Cert.LibLayout.broadcastTo_a1_ab_apply, Cert.LibLayout.shapeCast_a_a1_apply, Cert.LibLayout.max_rows_apply]
  rfl

/-- The vector unit's log-softmax at (r, t) is the log-softmax of row r at t. -/
theorem kernelLsm_apply (Z : FVec Ideal ⟨2, ![a, b]⟩ .f32) (hr : (⟨2, ![a, b]⟩ : Shape).Reduces [1] ⟨1, ![a]⟩) (hφ : FKind.Formats FTy.f32)
    (hm : (0xFF800000#32 : BitVec 32) = 0xFF800000#32) (hz : (0x00000000#32 : BitVec 32) = 0x00000000#32)
    (hc : (⟨1, ![a]⟩ : Shape).ShapeCasts ⟨2, ![a, 1]⟩) (hb : (⟨2, ![a, 1]⟩ : Shape).Broadcasts ⟨2, ![a, b]⟩) (r : Fin a) (t : Fin b) :
    kernelLsm Z hr hφ hm hz hc hb (ix2 r t) = lsmRow (fun u => Z (ix2 r u)) t := by
  unfold kernelLsm
  rw [subf_apply, kernelShift_apply, Cert.LibLayout.broadcastTo_a1_ab_apply]
  show _ - Ideal.log (shapeCast ⟨2, ![a, 1]⟩ _ hc (ix2 r (0 : Fin 1))) = _
  rw [Cert.LibLayout.shapeCast_a_a1_apply, Cert.LibLayout.sum_rows_apply]
  unfold lsmRow
  refine congrArg (fun s => (Z (ix2 r t) - rowMax (fun u => Z (ix2 r u))) - Ideal.log s) (Finset.sum_congr rfl fun u _ => ?_)
  show Ideal.exp (subf Z _ (ix2 r u)) = _
  rw [kernelShift_apply]

/-- The host's log-softmax of a matrix: the same, with the row maximum taken once more against −∞ and the row sum started
    from the zero word. -/
def hostLsm (Z : FVec Ideal ⟨2, ![a, b]⟩ .f32) (hR : (⟨2, ![a, b]⟩ : Shape).ReducesTo [1] ⟨1, ![a]⟩) (hu : 0 < (⟨0, ![]⟩ : Shape).numel)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) : FVec Ideal ⟨2, ![a, b]⟩ .f32 :=
  subf (subf Z (broadcastInDim ⟨2, ![a, b]⟩ ![0, 1] h2 (broadcastInDim ⟨2, ![a, 1]⟩ ![0] h1
      (maximumf (broadcastInDim ⟨1, ![a]⟩ ![] h0 (constant (F := Ideal) ⟨0, ![]⟩ .f32 0xFF800000#32))
        (Host.reduce FloatOps.maximumf Z (constant (F := Ideal) ⟨0, ![]⟩ .f32 0xFF800000#32) hR hu)))))
    (broadcastInDim ⟨2, ![a, b]⟩ ![0, 1] h2 (Host.log (broadcastInDim ⟨2, ![a, 1]⟩ ![0] h1
      (Host.reduceAdd (Host.exp (subf Z (broadcastInDim ⟨2, ![a, b]⟩ ![0, 1] h2 (broadcastInDim ⟨2, ![a, 1]⟩ ![0] h1
        (maximumf (broadcastInDim ⟨1, ![a]⟩ ![] h0 (constant (F := Ideal) ⟨0, ![]⟩ .f32 0xFF800000#32))
          (Host.reduce FloatOps.maximumf Z (constant (F := Ideal) ⟨0, ![]⟩ .f32 0xFF800000#32) hR hu))))))
        (constant (F := Ideal) ⟨0, ![]⟩ .f32 0x00000000#32) hR hu))))

/-- The host's shifted entry. -/
theorem hostShift_apply (Z : FVec Ideal ⟨2, ![a, b]⟩ .f32) (hR : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (t : Fin b) :
    subf Z (broadcastInDim ⟨2, ![a, b]⟩ ![0, 1] h2 (broadcastInDim ⟨2, ![a, 1]⟩ ![0] h1
      (maximumf (broadcastInDim ⟨1, ![a]⟩ ![] h0 (constant (F := Ideal) ⟨0, ![]⟩ .f32 0xFF800000#32))
        (Host.reduce FloatOps.maximumf Z (constant (F := Ideal) ⟨0, ![]⟩ .f32 0xFF800000#32) hR hu)))) (ix2 r t)
      = Z (ix2 r t) - rowMax (fun u => Z (ix2 r u)) := by
  rw [subf_apply, hostColRows_apply, hostCol_apply, maximumf_apply, broadcastInDim_scalar_apply h0,
    Host.reduce_eq_fold_single FloatOps.maximumf Z _ hR hr hu]
  have hf : (Z ∘ hr.lift (ix1 r)) = fun u : Fin b => Z (ix2 r u) := funext fun u =>
    congrArg Z (funext fun ax => Fin.ext (by match ax with | ⟨0, _⟩ => rfl | ⟨1, _⟩ => rfl))
  refine congrArg (fun m => Z (ix2 r t) - m) ?_
  refine Eq.trans ?_ (max_fold_self (n := b) (Ideal.ofBits .f32 0xFF800000#32) (fun u => Z (ix2 r u)))
  exact congrArg (fun f => max (Ideal.ofBits .f32 0xFF800000#32)
    (Finset.fold max (Ideal.ofBits .f32 0xFF800000#32) f (Finset.univ : Finset (Fin b)))) hf

/-- The host's log-softmax at (r, t) is the log-softmax of row r at t. -/
theorem hostLsm_apply (Z : FVec Ideal ⟨2, ![a, b]⟩ .f32) (hR : (⟨2, ![a, b]⟩ : Shape).ReducesTo [1] ⟨1, ![a]⟩)
    (hr : (⟨2, ![a, b]⟩ : Shape).Reduces [1] ⟨1, ![a]⟩) (hu : 0 < (⟨0, ![]⟩ : Shape).numel)
    (h0 : (⟨0, ![]⟩ : Shape).BroadcastsInDim ⟨1, ![a]⟩ (![] : Fin 0 → Fin 1))
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (t : Fin b) :
    hostLsm Z hR hu h0 h1 h2 (ix2 r t) = lsmRow (fun u => Z (ix2 r u)) t := by
  unfold hostLsm
  rw [subf_apply, hostShift_apply Z hR hr hu h0 h1 h2 r t, hostColRows_apply, hostLog_apply, hostCol_apply,
    hostReduceAdd_apply, Ideal.hostReduceAdd_single hR hr, constant_apply, Ideal.ofBits_zero_f32, zero_add]
  unfold lsmRow
  refine congrArg (fun s => (Z (ix2 r t) - rowMax (fun u => Z (ix2 r u))) - Ideal.log s) ?_
  refine Finset.sum_congr rfl fun (u : Fin b) _ => ?_
  have hl : hr.lift (ix1 r) u = ix2 r u := funext fun ax => Fin.ext (by match ax with | ⟨0, _⟩ => rfl | ⟨1, _⟩ => rfl)
  refine (congrArg _ hl).trans ?_
  exact congrArg Ideal.exp (hostShift_apply Z hR hr hu h0 h1 h2 r u)

end Cert.LibSageLayer

end
-- ==== Proof.RefNet.lean ====
/-
  The reference's staged result is the network of the specification, entry by entry on the extended reals.

  Each of the reference's matrix products is the sum over the contracted index of the operands' products, so the product of
  a transpose with the matrix itself is the Gram matrix.  A layer's entry is then the maximum with zero of
  0.95·P + 0.1·(aggregate of P) − 0.05·(P·PᵀP) + bias, the scalar weights read from their splats and the bias row read at
  its column; the classifier's entry is a product's entry plus its class bias; and the reference's log-softmax (the row
  maximum taken once more against −∞, the row sum started from zero) is the row-wise log-softmax.
-/
import proofs.«170132_j54760833024262_2_alg».proof.Proof.RefRun
import proofs.«170132_j54760833024262_2_alg».proof.Proof.Spec
import proofs.«170132_j54760833024262_2_alg».proof.Proof.LibHostDot
import proofs.«170132_j54760833024262_2_alg».proof.Proof.LibConcat3
import proofs.«170132_j54760833024262_2_alg».proof.Proof.LibSageLayer

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## Reading a matrix at its two coordinates -/

/-- Two matrices that agree at every pair of coordinates are equal. -/
theorem ext_ix2 {a b : Nat} {α : Type} {f g : (⟨2, ![a, b]⟩ : Shape).Idx → α} (h : ∀ p q, f (ix2 p q) = g (ix2 p q)) : f = g :=
  funext fun i => (congrArg f (eq_ix2 i)).trans ((h (i 0) (i 1)).trans (congrArg g (eq_ix2 i)).symm)

/-- A vector given a leading unit axis reads, at (0, q), the vector at q. -/
theorem rowOf_apply {α : Type} {n : Nat} (b : (⟨1, ![n]⟩ : Shape).Idx → α)
    (h : (⟨1, ![n]⟩ : Shape).BroadcastsInDim ⟨2, ![1, n]⟩ (![1] : Fin 1 → Fin 2)) (z : Fin 1) (q : Fin n) :
    broadcastInDim ⟨2, ![1, n]⟩ ![1] h b (ix2 z q) = b (ix1 q) :=
  broadcastInDim_apply _ h b (ix2 z q) (ix1 q) (fun c => by
    match c with
    | ⟨0, _⟩ => exact Cert.LibSageLayer.val_eq_ite (n := n) q)

/-! ## The four products -/

/-- The input's projection is the matrix product. -/
theorem dot_xW1 (x : FVec Ideal S100000x256 .f32) (W : FVec Ideal S256x128 .f32) :
    Host.dotGeneral (F := Ideal) dot_S100000x256_S256x128_S100000x128_1_0_0_1_n_n none x W = Cert.Spec.mm x W :=
  ext_ix2 fun p q =>
    Cert.LibHostDot.dotGeneral_rows_cols_apply dot_S100000x256_S256x128_S100000x128_1_0_0_1_n_n rfl rfl rfl rfl
      (fun _ _ => rfl) (fun _ _ => rfl) none x W p q

/-- A product with a 128×128 matrix on the right is the matrix product. -/
theorem dot_PG (P : FVec Ideal S100000x128 .f32) (G : FVec Ideal S128x128 .f32) :
    Host.dotGeneral (F := Ideal) dot_S100000x128_S128x128_S100000x128_1_0_0_1_n_n none P G = Cert.Spec.mm P G :=
  ext_ix2 fun p q =>
    Cert.LibHostDot.dotGeneral_rows_cols_apply dot_S100000x128_S128x128_S100000x128_1_0_0_1_n_n rfl rfl rfl rfl
      (fun _ _ => rfl) (fun _ _ => rfl) none P G p q

/-- The classifier's product is the matrix product. -/
theorem dot_HWf (H : FVec Ideal S100000x128 .f32) (W : FVec Ideal S128x16 .f32) :
    Host.dotGeneral (F := Ideal) dot_S100000x128_S128x16_S100000x16_1_0_0_1_n_n none H W = Cert.Spec.mm H W :=
  ext_ix2 fun p q =>
    Cert.LibHostDot.dotGeneral_rows_cols_apply dot_S100000x128_S128x16_S100000x16_1_0_0_1_n_n rfl rfl rfl rfl
      (fun _ _ => rfl) (fun _ _ => rfl) none H W p q

/-- The product of the transpose of P with P is the Gram matrix of P. -/
theorem dot_PtP (P : FVec Ideal S100000x128 .f32) :
    Host.dotGeneral (F := Ideal) dot_S128x100000_S100000x128_S128x128_1_0_0_1_n_n none
      (transpose S128x100000 [1, 0] P transposes_S100000x128_S128x100000_1_0) P = Cert.Spec.gram P :=
  ext_ix2 fun p q => by
    rw [Cert.LibHostDot.dotGeneral_rows_cols_apply dot_S128x100000_S100000x128_S128x128_1_0_0_1_n_n rfl rfl rfl rfl
      (fun _ _ => rfl) (fun _ _ => rfl) none _ P p q]
    exact Finset.sum_congr rfl fun r _ =>
      congrArg (· * P (ix2 r q)) (Cert.LibConcat3.transpose_10_apply P transposes_S100000x128_S128x100000_1_0 r p)

/-! ## One layer -/

/-- One layer at (n, k): the maximum with zero of 0.95·P plus 0.1 times the aggregate, less 0.05·(P·PᵀP), plus the bias. -/
theorem layer_apply (e : IVec S2x800000 32) (P : FVec Ideal S100000x128 .f32) (b : FVec Ideal S128 .f32) (n : Fin 100000) (k : Fin 128) :
    layer e P b (ix2 n k)
      = Cert.Spec.act P (Cert.Spec.gram P) (fun i => Cert.Spec.c10 * Glue.aggW (Glue.wnorm e) e P i) (fun k => b (ix1 k)) (ix2 n k) := by
  unfold layer
  rw [maximumf_apply, addf_apply, subf_apply, addf_apply, mulf_apply, mulf_apply, mulf_apply, dot_PtP, dot_PG,
    Cert.LibSageLayer.hostRow_apply _ bcast_S1x128_S100000x128_0_1 n k, rowOf_apply b bcast_S128_S1x128_1 0 k]
  rw [broadcastInDim_scalar_apply bcast_S_S100000x128, broadcastInDim_scalar_apply bcast_S_S100000x128,
    broadcastInDim_scalar_apply bcast_S_S100000x128, broadcastInDim_scalar_apply bcast_S_S100000x128]
  show max (Cert.Spec.c95 * P (ix2 n k) + Cert.Spec.c10 * Glue.aggW (Glue.wnorm e) e P (ix2 n k)
      - Cert.Spec.c05 * Cert.Spec.mm P (Cert.Spec.gram P) (ix2 n k) + b (ix1 k)) (Ideal.ofBits .f32 0x00000000#32) = _
  rw [Ideal.ofBits_zero_f32]
  rfl

theorem layer_eq (e : IVec S2x800000 32) (P : FVec Ideal S100000x128 .f32) (b : FVec Ideal S128 .f32) :
    layer e P b = Cert.Spec.act P (Cert.Spec.gram P) (fun i => Cert.Spec.c10 * Glue.aggW (Glue.wnorm e) e P i) (fun k => b (ix1 k)) :=
  ext_ix2 fun n k => layer_apply e P b n k

/-! ## The class scores and the log-softmax -/

/-- The affine map to the classes at (p, q): the product's entry plus the bias of class q. -/
theorem affine16_eq (H : FVec Ideal S100000x128 .f32) (Wf : FVec Ideal S128x16 .f32) (bf : FVec Ideal S16 .f32) :
    addf (Host.dotGeneral (F := Ideal) dot_S100000x128_S128x16_S100000x16_1_0_0_1_n_n none H Wf)
        (broadcastInDim S100000x16 ![0, 1] bcast_S1x16_S100000x16_0_1 (broadcastInDim S1x16 ![1] bcast_S16_S1x16_1 bf))
      = Cert.Spec.logits H Wf (fun q => bf (ix1 q)) :=
  ext_ix2 fun p q => by
    rw [addf_apply, dot_HWf, Cert.LibSageLayer.hostRow_apply _ bcast_S1x16_S100000x16_0_1 p q, rowOf_apply bf bcast_S16_S1x16_1 0 q]
    rfl

theorem reduces_rows16 : (⟨2, ![100000, 16]⟩ : Shape).Reduces [1] ⟨1, ![100000]⟩ := by decide

/-- The reference's log-softmax is the row-wise log-softmax. -/
theorem lsmOf_eq (Z : FVec Ideal S100000x16 .f32) : lsmOf Z = Cert.Spec.lsm Z :=
  ext_ix2 fun r t =>
    (Cert.LibSageLayer.hostLsm_apply Z reducesTo_S100000x16_S100000_d1 reduces_rows16 h_S_ bcast_S_S100000
      bcast_S100000_S100000x1_0 bcast_S100000x1_S100000x16_0_1 r t).trans rfl

/-! ## The whole network -/

/-- The reference's result is the network of the specification, its aggregation the edge-weighted scatter of the rows. -/
theorem out_eq (m : (ℓ : Loc nD τ sig) → Buf (Elt Ideal) ℓ) (c : Dev nD) :
    out m c = Cert.Spec.net (fun P => Glue.aggW (Glue.wnorm (m ((c.tc : Thread nD τ).loc main_arg1))) (m ((c.tc : Thread nD τ).loc main_arg1)) P)
      (m ((c.tc : Thread nD τ).loc main_arg0)) (m ((c.tc : Thread nD τ).loc main_arg2))
      (fun k => m ((c.tc : Thread nD τ).loc main_arg3) (ix1 k)) (m ((c.tc : Thread nD τ).loc main_arg4))
      (fun k => m ((c.tc : Thread nD τ).loc main_arg5) (ix1 k)) (m ((c.tc : Thread nD τ).loc main_arg6))
      (fun q => m ((c.tc : Thread nD τ).loc main_arg7) (ix1 q)) := by
  unfold out scores
  rw [lsmOf_eq, affine16_eq, layer_eq, dot_PG, layer_eq, dot_xW1]
  rfl

end Cert.ReferenceIdeal.RefValue

end
-- ==== Proof.lean ====
/-
  A two-layer graph network with a Gram correction, 100000 nodes, 16 classes: the kernel program (three kernel calls
  among host operations) against the plain reference, on the extended reals.

  Both programs compute, from the features x, the edge list e and the weights,
      P₁ = x·W₁,   H₁ = max(((0.95·P₁ + 0.1·A(P₁)) − 0.05·P₁·(P₁ᵀP₁)) + b₁, 0),
      P₂ = H₁·W₂,  H₂ = max(((0.95·P₂ + 0.1·A(P₂)) − 0.05·P₂·(P₂ᵀP₂)) + b₂, 0),
      result = log-softmax over each row of H₂·W_f + b_f,
  where A(P) puts at node n the sum, over the edges with target n (every node has a self loop), of the edge's weight —
  the product of its two ends' 1/√degree — times the source's row of P.

  The kernel program differs from the reference in three ways, none of which changes an extended real:
  * it folds the factor 0.1 into every edge weight before aggregating, where the reference scales the aggregate; a
    non-negative real factor distributes over a finite sum of extended reals whatever the summands are;
  * it computes P and the Gram matrix PᵀP block by block — 10000 rows at a time, each half of the rows accumulating its
    own partial Gram matrix, the two halves summed afterwards — where the reference takes one product over all
    100000 rows; a finite sum may be regrouped and reordered freely;
  * each product of a row block is a sum over the same contracted index as the reference's, and the row-wise
    log-softmax of a block of rows is that of the whole matrix at those rows.
  No finiteness of the inputs is used.

  The word-level kernel program and its idealization are the same text (no rewrite was applied), so the statement
  that the one is the sanctioned idealization of the other is trivial; each program's frame — it terminates, nothing
  faults, the arguments end unchanged — is its run with the result dropped.
-/
import proofs.«170132_j54760833024262_2_alg».proof.Defs
import proofs.«170132_j54760833024262_2_alg».proof.Proof.Gen.Kernel
import proofs.«170132_j54760833024262_2_alg».proof.Proof.Gen.Kernel.Skeleton
import proofs.«170132_j54760833024262_2_alg».proof.Proof.Gen.Kernel.Launch
import proofs.«170132_j54760833024262_2_alg».proof.Proof.Gen.Kernel.Points
import proofs.«170132_j54760833024262_2_alg».proof.Proof.Gen.Kernel.Frame
import proofs.«170132_j54760833024262_2_alg».proof.Proof.Gen.KernelIdeal
import proofs.«170132_j54760833024262_2_alg».proof.Proof.Gen.KernelIdeal.Skeleton
import proofs.«170132_j54760833024262_2_alg».proof.Proof.Gen.KernelIdeal.Launch
import proofs.«170132_j54760833024262_2_alg».proof.Proof.Gen.KernelIdeal.Points
import proofs.«170132_j54760833024262_2_alg».proof.Proof.Gen.KernelIdeal.Frame
import proofs.«170132_j54760833024262_2_alg».proof.Proof.Gen.ReferenceIdeal
import proofs.«170132_j54760833024262_2_alg».proof.Proof.Gen.Pre_finite_inputs
import proofs.«170132_j54760833024262_2_alg».proof.Proof.KernelRun
import proofs.«170132_j54760833024262_2_alg».proof.Proof.KernelHost
import proofs.«170132_j54760833024262_2_alg».proof.Proof.Scale
import proofs.«170132_j54760833024262_2_alg».proof.Proof.GlueEq
import proofs.«170132_j54760833024262_2_alg».proof.Proof.RefNet
import Idealize.ShloMosaic.Adequacy
import Idealize.ShloMosaic.Init

noncomputable section

namespace Cert.Proof

open Idealize.ShloMosaic Idealize.SL.Sem Idealize.ShloMosaic.ValueIdx

/-- The kernel program's result is the network's value: the factor 0.1 leaves each layer's aggregate. -/
theorem kernel_net (m : (ℓ : Loc Cert.KernelIdeal.nD Cert.KernelIdeal.τ Cert.KernelIdeal.sig) → Buf (Elt Ideal) ℓ)
    (c : Dev Cert.KernelIdeal.nD) :
    Cert.KernelIdeal.HostValue.result m c
      = Cert.Spec.net (fun P => Cert.KernelIdeal.Glue.aggW (Cert.KernelIdeal.Glue.wnorm (Cert.KernelIdeal.HostValue.edges m c))
            (Cert.KernelIdeal.HostValue.edges m c) P)
          (Cert.KernelIdeal.HostValue.argX m c) (Cert.KernelIdeal.HostValue.argW1 m c)
          (fun k => Cert.KernelIdeal.HostValue.argb1 m c (ix1 k)) (Cert.KernelIdeal.HostValue.argW2 m c)
          (fun k => Cert.KernelIdeal.HostValue.argb2 m c (ix1 k)) (Cert.KernelIdeal.HostValue.argWf m c)
          (fun q => Cert.KernelIdeal.HostValue.argbf m c (ix1 q)) :=
  Cert.Algebra.net_of _ _ _ _ _ _ _ _ (Cert.KernelIdeal.HostValue.S1 m c) (Cert.KernelIdeal.HostValue.S2 m c)
    (funext fun i => Cert.KernelIdeal.Scale.aggW_scale (Cert.KernelIdeal.Glue.wnorm (Cert.KernelIdeal.HostValue.edges m c))
      (Cert.KernelIdeal.HostValue.edges m c) (Cert.KernelIdeal.HostValue.P1 m c) i)
    (funext fun i => Cert.KernelIdeal.Scale.aggW_scale (Cert.KernelIdeal.Glue.wnorm (Cert.KernelIdeal.HostValue.edges m c))
      (Cert.KernelIdeal.HostValue.edges m c) (Cert.KernelIdeal.HostValue.P2 m c) i)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- Run from memories that agree on the arguments, the two idealized programs end with the same result: each is the
    network's value, and the two programs' edge data and aggregation are the same functions of the edge list. -/
theorem algebraic : Cert.algebraic_KernelIdeal_ReferenceIdeal := by
  intro m ρ m' ρ' _ hagree
  refine ⟨fun c => Cert.KernelIdeal.HostValue.result m c, ?_, ?_⟩
  · exact (θ_run Cert.KernelIdeal.defs _ _).mono
      (fun _ h c => ⟨(h c).1.trans (Cert.KernelIdeal.HostValue.w8_v68 m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RefValue.run m' ρ')
    obtain ⟨h0, h1, h2, h3, h4, h5, h6, h7⟩ := hagree c
    show Cert.ReferenceIdeal.RefValue.out m' c = Cert.KernelIdeal.HostValue.result m c
    rw [Cert.ReferenceIdeal.RefValue.out_eq, kernel_net, h0, h1, h2, h3, h4, h5, h6, h7]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
